-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x768 : Shape := ⟨3, ![16, 2048, 768]⟩
abbrev S768x768 : Shape := ⟨2, ![768, 768]⟩
abbrev S768 : Shape := ⟨1, ![768]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_arg8 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S768 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S16x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768 .f32) (main_arg8 : FVec F S768 .f32) : IVec S_ 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S16x2048x768 : Shape := ⟨3, ![16, 2048, 768]⟩
abbrev S768x768 : Shape := ⟨2, ![768, 768]⟩
abbrev S768 : Shape := ⟨1, ![768]⟩
abbrev S_ : Shape := ⟨0, ![]⟩
abbrev S1x768 : Shape := ⟨2, ![1, 768]⟩
abbrev S32768x768 : Shape := ⟨2, ![32768, 768]⟩
abbrev S1024x768 : Shape := ⟨2, ![1024, 768]⟩
abbrev S16x1x768 : Shape := ⟨3, ![16, 1, 768]⟩
abbrev S1x512x768 : Shape := ⟨3, ![1, 512, 768]⟩
abbrev S1x2048x768 : Shape := ⟨3, ![1, 2048, 768]⟩
abbrev S1x1x768 : Shape := ⟨3, ![1, 1, 768]⟩
abbrev S512x768 : Shape := ⟨2, ![512, 768]⟩
abbrev S2048x768 : Shape := ⟨2, ![2048, 768]⟩
abbrev S512x2048 : Shape := ⟨2, ![512, 2048]⟩
abbrev S2048 : Shape := ⟨1, ![2048]⟩
abbrev S1x2048 : Shape := ⟨2, ![1, 2048]⟩
abbrev S16x768 : Shape := ⟨2, ![16, 768]⟩

abbrev nBuf : Space → Nat
  | .hbm => 77
  | .vmem => 23
  | .smem => 0
  | _ => 0

abbrev bufTy : (tb : Table) → Fin (tcTables nBuf tb) → BufTy
  | .hbm, ⟨0, _⟩ => ⟨S16x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768x768, .f32⟩
  | .hbm, ⟨10, _⟩ => ⟨S_, .f32⟩
  | .hbm, ⟨11, _⟩ => ⟨S768x768, .f32⟩
  | .hbm, ⟨12, _⟩ => ⟨S768x768, .f32⟩
  | .hbm, ⟨13, _⟩ => ⟨S768x768, .bf16⟩
  | .hbm, ⟨14, _⟩ => ⟨S768x768, .f32⟩
  | .hbm, ⟨15, _⟩ => ⟨S768x768, .bf16⟩
  | .hbm, ⟨16, _⟩ => ⟨S768x768, .f32⟩
  | .hbm, ⟨17, _⟩ => ⟨S768x768, .bf16⟩
  | .hbm, ⟨18, _⟩ => ⟨S_, .f32⟩
  | .hbm, ⟨19, _⟩ => ⟨S768, .f32⟩
  | .hbm, ⟨20, _⟩ => ⟨S768, .f32⟩
  | .hbm, ⟨21, _⟩ => ⟨S1x768, .f32⟩
  | .hbm, ⟨22, _⟩ => ⟨S1x768, .f32⟩
  | .hbm, ⟨23, _⟩ => ⟨S1x768, .f32⟩
  | .hbm, ⟨24, _⟩ => ⟨S32768x768, .f32⟩
  | .hbm, ⟨25, _⟩ => ⟨S32768x768, .bf16⟩
  | .hbm, ⟨26, _⟩ => ⟨S32768x768, .bf16⟩
  | .hbm, ⟨27, _⟩ => ⟨S32768x768, .bf16⟩
  | .hbm, ⟨28, _⟩ => ⟨S16x2048x768, .bf16⟩
  | .hbm, ⟨29, _⟩ => ⟨S16x2048x768, .bf16⟩
  | .hbm, ⟨30, _⟩ => ⟨S16x2048x768, .bf16⟩
  | .hbm, ⟨31, _⟩ => ⟨S16x1x768, .f32⟩
  | .hbm, ⟨32, _⟩ => ⟨S16x768, .f32⟩
  | .hbm, ⟨33, _⟩ => ⟨S_, .f32⟩
  | .hbm, ⟨34, _⟩ => ⟨S768, .f32⟩
  | .hbm, ⟨35, _⟩ => ⟨S_, .f32⟩
  | .hbm, ⟨36, _⟩ => ⟨S768, .f32⟩
  | .hbm, ⟨37, _⟩ => ⟨S768, .f32⟩
  | .hbm, ⟨38, _⟩ => ⟨S_, .i32⟩
  | .hbm, ⟨39, _⟩ => ⟨S_, .f32⟩
  | .hbm, ⟨40, _⟩ => ⟨S768, .f32⟩
  | .hbm, ⟨41, _⟩ => ⟨S1x768, .f32⟩
  | .hbm, ⟨42, _⟩ => ⟨S_, .f32⟩
  | .hbm, ⟨43, _⟩ => ⟨S1x768, .f32⟩
  | .hbm, ⟨44, _⟩ => ⟨S1x768, .f32⟩
  | .hbm, ⟨45, _⟩ => ⟨S16x768, .f32⟩
  | .hbm, ⟨46, _⟩ => ⟨S16x768, .f32⟩
  | .hbm, ⟨47, _⟩ => ⟨S16x768, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S768, .f32⟩
  | .hbm, ⟨53, _⟩ => ⟨S768, .f32⟩
  | .hbm, ⟨54, _⟩ => ⟨S768, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S768, .f32⟩
  | .hbm, ⟨60, _⟩ => ⟨S768, .f32⟩
  | .hbm, ⟨61, _⟩ => ⟨S1x768, .f32⟩
  | .hbm, ⟨62, _⟩ => ⟨S16x768, .f32⟩
  | .hbm, ⟨63, _⟩ => ⟨S16x768, .f32⟩
  | .hbm, ⟨64, _⟩ => ⟨S_, .f32⟩
  | .hbm, ⟨65, _⟩ => ⟨S768, .f32⟩
  | .hbm, ⟨66, _⟩ => ⟨S768, .f32⟩
  | .hbm, ⟨67, _⟩ => ⟨S768, .f32⟩
  | .hbm, ⟨68, _⟩ => ⟨S1x768, .f32⟩
  | .hbm, ⟨69, _⟩ => ⟨S16x768, .f32⟩
  | .hbm, ⟨70, _⟩ => ⟨S16x768, .f32⟩
  | .hbm, ⟨71, _⟩ => ⟨S1x768, .f32⟩
  | .hbm, ⟨72, _⟩ => ⟨S16x768, .f32⟩
  | .hbm, ⟨73, _⟩ => ⟨S16x768, .f32⟩
  | .hbm, ⟨74, _⟩ => ⟨S1x768, .f32⟩
  | .hbm, ⟨75, _⟩ => ⟨S16x768, .f32⟩
  | .hbm, ⟨76, _⟩ => ⟨S16x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S1x768, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1x512x768, .bf16⟩
  | .local _ .vmem, ⟨15, _⟩ => ⟨S1x512x768, .bf16⟩
  | .local _ .vmem, ⟨16, _⟩ => ⟨S1x2048x768, .bf16⟩
  | .local _ .vmem, ⟨17, _⟩ => ⟨S1x2048x768, .bf16⟩
  | .local _ .vmem, ⟨18, _⟩ => ⟨S1x2048x768, .bf16⟩
  | .local _ .vmem, ⟨19, _⟩ => ⟨S1x2048x768, .bf16⟩
  | .local _ .vmem, ⟨20, _⟩ => ⟨S1x1x768, .f32⟩
  | .local _ .vmem, ⟨21, _⟩ => ⟨S1x1x768, .f32⟩
  | .local _ .vmem, ⟨22, _⟩ => ⟨S1x768, .f32⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_cst_3 : Ref sig .tc := ⟨.hbm, 55, rfl⟩
abbrev main_call0_v12 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_3 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_18 : BitVec 32 := 0#32
  let v28 : BitVec 1 := Scalar.cmpi .ne v27 c0_i32_18
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S768x768_S768x768_1_0 : S768x768.Transposes [1, 0] S768x768
  bcast_S_S768x768 : S_.BroadcastsInDim S768x768 (![] : Fin 0 → Fin S768x768.rank)
  bitsLt_bf16_f32 : FTy.bits .bf16 < FTy.bits .f32
  bcast_S_S768 : S_.BroadcastsInDim S768 (![] : Fin 0 → Fin S768.rank)
  shapeCasts_S768_S1x768 : S768.ShapeCasts S1x768
  shapeCasts_S16x2048x768_S32768x768 : S16x2048x768.ShapeCasts S32768x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  packedbf16_S1024x768_S1024x768_0_0 : (Rect.unit (s := S1024x768) ![0, 0] S1024x768.size inb_S1024x768_S1024x768_0_0).PackedRows (EltTy.packing .bf16)
  shapeCasts_S32768x768_S16x2048x768 : S32768x768.ShapeCasts S16x2048x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  reduces_S512x2048_S2048 : S512x2048.Reduces [0] S2048
  shapeCasts_S2048_S1x2048 : S2048.ShapeCasts S1x2048
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  shapeCasts_S1x768_S1x1x768 : S1x768.ShapeCasts S1x1x768
  shapeCasts_S16x1x768_S16x768 : S16x1x768.ShapeCasts S16x768
  reducesTo_S16x768_S768_d0 : S16x768.ReducesTo [0] S768
  h_S_ : 0 < S_.numel
  bcast_S768_S1x768_1 : S768.BroadcastsInDim S1x768 (![1] : Fin 1 → Fin S1x768.rank)
  bcast_S_S1x768 : S_.BroadcastsInDim S1x768 (![] : Fin 0 → Fin S1x768.rank)
  bcast_S1x768_S16x768_0_1 : S1x768.BroadcastsInDim S16x768 (![0, 1] : Fin 2 → Fin S16x768.rank)
  dot_S1024x768_S768x768_S1024x768_1_0_0_1_n_n_wf : DotDims.WF S1024x768 S768x768 S1024x768 [1] [0] [0] [1] [] []
  dot_S512x768_S2048x768_S512x2048_1_1_0_0_n_n_wf : DotDims.WF S512x768 S2048x768 S512x2048 [1] [1] [0] [0] [] []
  dot_S1x2048_S2048x768_S1x768_1_0_0_1_n_n_wf : DotDims.WF S1x2048 S2048x768 S1x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x768.size a ≤ S32768x768.size a
  hwx0_7 : ∀ i : grid0.Coords, EltTy.bits .bf16 = 32 ∨ (Rect.block (s := S32768x768) S1024x768.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x768.size a ≤ S32768x768.size a
  hwx0_8 : ∀ i : grid0.Coords, EltTy.bits .bf16 = 32 ∨ (Rect.block (s := S32768x768) S1024x768.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x768.size a ≤ S32768x768.size a
  hwx0_9 : ∀ i : grid0.Coords, EltTy.bits .bf16 = 32 ∨ (Rect.block (s := S32768x768) S1024x768.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S16x2048x768.size a
  hwx1_0 : ∀ i : grid1.Coords, EltTy.bits .bf16 = 32 ∨ (Rect.block (s := S16x2048x768) S1x512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S16x2048x768.size a
  hwx1_1 : ∀ i : grid1.Coords, EltTy.bits .bf16 = 32 ∨ (Rect.block (s := S16x2048x768) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S16x2048x768.size a
  hwx1_2 : ∀ i : grid1.Coords, EltTy.bits .bf16 = 32 ∨ (Rect.block (s := S16x2048x768) S1x2048x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x768.size a ≤ S16x1x768.size a
  hwx1_3 : ∀ i : grid1.Coords, EltTy.bits .f32 = 32 ∨ (Rect.block (s := S16x1x768) S1x1x768.size (cc1_transform_3 i) (hinb1_3 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S512x768_S2048x768_S512x2048_1_1_0_0_n_n : DotDims S512x768 S2048x768 S512x2048 where
  lhsContracting := [1]
  rhsContracting := [1]
  lhsNonContracting := [0]
  rhsNonContracting := [0]
  lhsBatch := []
  rhsBatch := []
  wf := dot_S512x768_S2048x768_S512x2048_1_1_0_0_n_n_wf
def dot_S1x2048_S2048x768_S1x768_1_0_0_1_n_n : DotDims S1x2048 S2048x768 S1x768 where
  lhsContracting := [1]
  rhsContracting := [0]
  lhsNonContracting := [0]
  rhsNonContracting := [1]
  lhsBatch := []
  rhsBatch := []
  wf := dot_S1x2048_S2048x768_S1x768_1_0_0_1_n_n_wf

abbrev win0_0 : Pipeline.Window sig grid0 :=
  Pipeline.Window.ofSpec (Memref.whole main_v13) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S1024x768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S1024x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_2) S1024x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v15) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16x2048x768 : Shape := ⟨3, ![16, 2048, 768]⟩
abbrev S768x768 : Shape := ⟨2, ![768, 768]⟩
abbrev S768 : Shape := ⟨1, ![768]⟩
abbrev S1x1x768 : Shape := ⟨3, ![1, 1, 768]⟩
abbrev S16x2048x2048 : Shape := ⟨3, ![16, 2048, 2048]⟩
abbrev S_ : Shape := ⟨0, ![]⟩
abbrev S16x768 : Shape := ⟨2, ![16, 768]⟩
abbrev S1x768 : Shape := ⟨2, ![1, 768]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S16x2048x768, .f32⟩
  | .hbm, ⟨10, _⟩ => ⟨S1x1x768, .f32⟩
  | .hbm, ⟨11, _⟩ => ⟨S16x2048x768, .f32⟩
  | .hbm, ⟨12, _⟩ => ⟨S16x2048x768, .f32⟩
  | .hbm, ⟨13, _⟩ => ⟨S16x2048x768, .f32⟩
  | .hbm, ⟨14, _⟩ => ⟨S1x1x768, .f32⟩
  | .hbm, ⟨15, _⟩ => ⟨S16x2048x768, .f32⟩
  | .hbm, ⟨16, _⟩ => ⟨S16x2048x768, .f32⟩
  | .hbm, ⟨17, _⟩ => ⟨S16x2048x768, .f32⟩
  | .hbm, ⟨18, _⟩ => ⟨S1x1x768, .f32⟩
  | .hbm, ⟨19, _⟩ => ⟨S16x2048x768, .f32⟩
  | .hbm, ⟨20, _⟩ => ⟨S16x2048x768, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S_, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048x2048, .f32⟩
  | .hbm, ⟨32, _⟩ => ⟨S16x2048x2048, .f32⟩
  | .hbm, ⟨33, _⟩ => ⟨S16x2048x768, .f32⟩
  | .hbm, ⟨34, _⟩ => ⟨S_, .f32⟩
  | .hbm, ⟨35, _⟩ => ⟨S16x768, .f32⟩
  | .hbm, ⟨36, _⟩ => ⟨S_, .f32⟩
  | .hbm, ⟨37, _⟩ => ⟨S16x768, .f32⟩
  | .hbm, ⟨38, _⟩ => ⟨S16x768, .f32⟩
  | .hbm, ⟨39, _⟩ => ⟨S_, .f32⟩
  | .hbm, ⟨40, _⟩ => ⟨S768, .f32⟩
  | .hbm, ⟨41, _⟩ => ⟨S_, .f32⟩
  | .hbm, ⟨42, _⟩ => ⟨S768, .f32⟩
  | .hbm, ⟨43, _⟩ => ⟨S768, .f32⟩
  | .hbm, ⟨44, _⟩ => ⟨S_, .i32⟩
  | .hbm, ⟨45, _⟩ => ⟨S_, .f32⟩
  | .hbm, ⟨46, _⟩ => ⟨S768, .f32⟩
  | .hbm, ⟨47, _⟩ => ⟨S1x768, .f32⟩
  | .hbm, ⟨48, _⟩ => ⟨S_, .f32⟩
  | .hbm, ⟨49, _⟩ => ⟨S1x768, .f32⟩
  | .hbm, ⟨50, _⟩ => ⟨S1x768, .f32⟩
  | .hbm, ⟨51, _⟩ => ⟨S16x768, .f32⟩
  | .hbm, ⟨52, _⟩ => ⟨S16x768, .f32⟩
  | .hbm, ⟨53, _⟩ => ⟨S16x768, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S768, .f32⟩
  | .hbm, ⟨59, _⟩ => ⟨S768, .f32⟩
  | .hbm, ⟨60, _⟩ => ⟨S768, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S768, .f32⟩
  | .hbm, ⟨66, _⟩ => ⟨S768, .f32⟩
  | .hbm, ⟨67, _⟩ => ⟨S1x768, .f32⟩
  | .hbm, ⟨68, _⟩ => ⟨S16x768, .f32⟩
  | .hbm, ⟨69, _⟩ => ⟨S16x768, .f32⟩
  | .hbm, ⟨70, _⟩ => ⟨S_, .f32⟩
  | .hbm, ⟨71, _⟩ => ⟨S768, .f32⟩
  | .hbm, ⟨72, _⟩ => ⟨S768, .f32⟩
  | .hbm, ⟨73, _⟩ => ⟨S768, .f32⟩
  | .hbm, ⟨74, _⟩ => ⟨S1x768, .f32⟩
  | .hbm, ⟨75, _⟩ => ⟨S16x768, .f32⟩
  | .hbm, ⟨76, _⟩ => ⟨S16x768, .f32⟩
  | .hbm, ⟨77, _⟩ => ⟨S1x768, .f32⟩
  | .hbm, ⟨78, _⟩ => ⟨S16x768, .f32⟩
  | .hbm, ⟨79, _⟩ => ⟨S16x768, .f32⟩
  | .hbm, ⟨80, _⟩ => ⟨S1x768, .f32⟩
  | .hbm, ⟨81, _⟩ => ⟨S16x768, .f32⟩
  | .hbm, ⟨82, _⟩ => ⟨S16x768, .f32⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_6 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S16x2048x768_0_1_2 : S1x1x768.BroadcastsInDim S16x2048x768 (![0, 1, 2] : Fin 3 → Fin S16x2048x768.rank)
  bcast_S_S16x2048x2048 : S_.BroadcastsInDim S16x2048x2048 (![] : Fin 0 → Fin S16x2048x2048.rank)
  reducesTo_S16x2048x768_S16x768_d1 : S16x2048x768.ReducesTo [1] S16x768
  h_S_ : 0 < S_.numel
  bcast_S_S16x768 : S_.BroadcastsInDim S16x768 (![] : Fin 0 → Fin S16x768.rank)
  reducesTo_S16x768_S768_d0 : S16x768.ReducesTo [0] S768
  bcast_S_S768 : S_.BroadcastsInDim S768 (![] : Fin 0 → Fin S768.rank)
  bcast_S768_S1x768_1 : S768.BroadcastsInDim S1x768 (![1] : Fin 1 → Fin S1x768.rank)
  bcast_S_S1x768 : S_.BroadcastsInDim S1x768 (![] : Fin 0 → Fin S1x768.rank)
  bcast_S1x768_S16x768_0_1 : S1x768.BroadcastsInDim S16x768 (![0, 1] : Fin 2 → Fin S16x768.rank)
  dot_S16x2048x768_S768x768_S16x2048x768_2_1_01_0_n_n_wf : DotDims.WF S16x2048x768 S768x768 S16x2048x768 [2] [1] [0, 1] [0] [] []
  dot_S16x2048x768_S16x2048x768_S16x2048x2048_2_2_1_1_0_0_wf : DotDims.WF S16x2048x768 S16x2048x768 S16x2048x2048 [2] [2] [1] [1] [0] [0]
  dot_S16x2048x2048_S16x2048x768_S16x2048x768_2_1_1_2_0_0_wf : DotDims.WF S16x2048x2048 S16x2048x768 S16x2048x768 [2] [1] [1] [2] [0] [0]

variable [Facts₀]

def dot_S16x2048x768_S768x768_S16x2048x768_2_1_01_0_n_n : DotDims S16x2048x768 S768x768 S16x2048x768 where
  lhsContracting := [2]
  rhsContracting := [1]
  lhsNonContracting := [0, 1]
  rhsNonContracting := [0]
  lhsBatch := []
  rhsBatch := []
  wf := dot_S16x2048x768_S768x768_S16x2048x768_2_1_01_0_n_n_wf
def dot_S16x2048x768_S16x2048x768_S16x2048x2048_2_2_1_1_0_0 : DotDims S16x2048x768 S16x2048x768 S16x2048x2048 where
  lhsContracting := [2]
  rhsContracting := [2]
  lhsNonContracting := [1]
  rhsNonContracting := [1]
  lhsBatch := [0]
  rhsBatch := [0]
  wf := dot_S16x2048x768_S16x2048x768_S16x2048x2048_2_2_1_1_0_0_wf
def dot_S16x2048x2048_S16x2048x768_S16x2048x768_2_1_1_2_0_0 : DotDims S16x2048x2048 S16x2048x768 S16x2048x768 where
  lhsContracting := [2]
  rhsContracting := [1]
  lhsNonContracting := [1]
  rhsNonContracting := [2]
  lhsBatch := [0]
  rhsBatch := [0]
  wf := dot_S16x2048x2048_S16x2048x768_S16x2048x768_2_1_1_2_0_0_wf

class Facts : Prop extends Facts₀ where

variable [Facts]
-- ==== Proof.WRegion0.lean ====
/-
  The projection region: one grid point takes a block of 1024 rows of the input [32768, 768], the three
  transposed weight matrices [768, 768] and the three bias rows [1, 768], and writes the corresponding 1024 rows
  of each of the three projections. The body reads every input window's staging buffer whole and writes every
  output window's staging buffer whole, keeps nothing between grid points and uses no semaphore: what it leaves
  in an output buffer is a function of the input blocks at the point alone.

  This module states that function per output window, proves the body's triple by symbolic execution, and
  discharges the pipeline's body obligation at every grid point, at any float instance.
-/
import proofs.«138573_j83485574300331_2_alg».proof.Proof.Gen.Kernel.Launch
import proofs.«138573_j83485574300331_2_alg».proof.Proof.Gen.Kernel.Skeleton
import proofs.«138573_j83485574300331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents of the core when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether the pipeline fetched it
    there or not (an unfetched point has the block index of the point before), for any proof data over the
    region-entry arrays whose body leaves that buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, whether the pipeline fetched it
    there or not (an unfetched point has the block index of the point before), for any proof data over the
    region-entry arrays whose body leaves that buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, whether the pipeline fetched it
    there or not (an unfetched point has the block index of the point before), for any proof data over the
    region-entry arrays whose body leaves that buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block at every point, whether the pipeline fetched it
    there or not (an unfetched point has the block index of the point before), for any proof data over the
    region-entry arrays whose body leaves that buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds the window's block at every point, whether the pipeline fetched it
    there or not (an unfetched point has the block index of the point before), for any proof data over the
    region-entry arrays whose body leaves that buffer as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds the window's block at every point, whether the pipeline fetched it
    there or not (an unfetched point has the block index of the point before), for any proof data over the
    region-entry arrays whose body leaves that buffer as it found it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds the window's block at every point, whether the pipeline fetched it
    there or not (an unfetched point has the block index of the point before), for any proof data over the
    region-entry arrays whose body leaves that buffer as it found it. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev rA : Rect S1024x768 := Rect.unit (s := S1024x768) ![0, 0] S1024x768.size inb_S1024x768_S1024x768_0_0
abbrev rW : Rect S768x768 := Rect.unit (s := S768x768) ![0, 0] S768x768.size inb_S768x768_S768x768_0_0
abbrev rB : Rect S1x768 := Rect.unit (s := S1x768) ![0, 0] S1x768.size inb_S1x768_S1x768_0_0

/-! ## What the body leaves in each output window's buffer -/

/-- Output window 7's staging buffer after the body, from the blocks of the input, of one weight matrix and of
    one bias row: its single whole-buffer store. -/
def out0_7 (x0 : Vec F S1024x768 .f32) (x1 : Vec F S768x768 .bf16) (x2 : Vec F S1x768 .f32) : Vec F S1024x768 .bf16 :=
  View.canon [⟨rA, k0_pay2 (View.ld x0 rA) (View.ld x1 rW) (View.ld x2 rB)⟩]

/-- The single store covers the buffer. -/
theorem cover0_7 (p0 : Vec F S1024x768 .bf16) (y : S1024x768.Idx) :
    ∃ pc ∈ ([⟨rA, p0⟩] : List (View.Piece (Elt F) S1024x768 .bf16)), y ∈ pc.1.set :=
  View.cover_of_tiled [⟨rA, p0⟩] S1024x768.size (by rfl) y

/-- Output window 8's staging buffer after the body, from the blocks of the input, of one weight matrix and of
    one bias row: its single whole-buffer store. -/
def out0_8 (x0 : Vec F S1024x768 .f32) (x3 : Vec F S768x768 .bf16) (x4 : Vec F S1x768 .f32) : Vec F S1024x768 .bf16 :=
  View.canon [⟨rA, k0_pay3 (View.ld x0 rA) (View.ld x3 rW) (View.ld x4 rB)⟩]

/-- The single store covers the buffer. -/
theorem cover0_8 (p0 : Vec F S1024x768 .bf16) (y : S1024x768.Idx) :
    ∃ pc ∈ ([⟨rA, p0⟩] : List (View.Piece (Elt F) S1024x768 .bf16)), y ∈ pc.1.set :=
  View.cover_of_tiled [⟨rA, p0⟩] S1024x768.size (by rfl) y

/-- Output window 9's staging buffer after the body, from the blocks of the input, of one weight matrix and of
    one bias row: its single whole-buffer store. -/
def out0_9 (x0 : Vec F S1024x768 .f32) (x5 : Vec F S768x768 .bf16) (x6 : Vec F S1x768 .f32) : Vec F S1024x768 .bf16 :=
  View.canon [⟨rA, k0_pay4 (View.ld x0 rA) (View.ld x5 rW) (View.ld x6 rB)⟩]

/-- The single store covers the buffer. -/
theorem cover0_9 (p0 : Vec F S1024x768 .bf16) (y : S1024x768.Idx) :
    ∃ pc ∈ ([⟨rA, p0⟩] : List (View.Piece (Elt F) S1024x768 .bf16)), y ∈ pc.1.set :=
  View.cover_of_tiled [⟨rA, p0⟩] S1024x768.size (by rfl) y

/-! ## The body's triple -/

set_option maxHeartbeats 4000000 in
/-- The body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S1024x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole)
    (x0 : Vec F S1024x768 .f32) (x1 : Vec F S768x768 .bf16) (x2 : Vec F S1x768 .f32) (x3 : Vec F S768x768 .bf16) (x4 : Vec F S1x768 .f32) (x5 : Vec F S768x768 .bf16) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the projection pipeline on core `c`: the arrays as the region finds them; after the body at
    point `t` every input's buffer at its block and every output's at `out0_W` of the input blocks; the invariant
    is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.WRegion1Runs.lean ====
/-
  Region 1 (the attention kernel): what the three case runs and the frame share.

  The grid is 16 x 4; point t = 4 n + j works on sequence n and on the j-th stretch of 512 queries. The body has
  two conditionals on j: the first (j = 0) stores a zero row into the scratch accumulator, the second (j = 3)
  stores the accumulator times 1/2048 into the output block. So a point is in one of three cases:
  first (j = 0), middle (j = 1, 2), last (j = 3). The output window is idle (not stored, not written back)
  except at the last stretch of a sequence. The accumulator is carried from point to point.

  Everything is stated over the contents V the TensorCore's buffers have when the region is entered.
-/
import proofs.«138573_j83485574300331_2_alg».proof.Proof.Gen.Kernel.Launch
import proofs.«138573_j83485574300331_2_alg».proof.Proof.Gen.Kernel.Skeleton
import proofs.«138573_j83485574300331_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (when it does not, the block index has not moved since the last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- The first conditional's condition (is the query stretch the first one), from the grid coordinates. -/
abbrev cond1_0 (i : grid1.Coords) : Prop := (Scalar.cmpi .ne (Scalar.extui (Scalar.cmpi .eq (BitVec.ofNat 32 (i 1).val) 0#32)) 0#32) = 1#1
/-- It holds exactly at the points 4 n. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (is the query stretch the last one). -/
abbrev cond1_1 (i : grid1.Coords) : Prop := k1_cond2 i = 1#1
/-- It holds exactly at the points 4 n + 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first stretch the output window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at a middle stretch. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last stretch the output window is live. -/
theorem liveAt1_3_C : ∀ t : Fin cfg1.N, ¬cond1_0 (grid1.coords t) → cond1_1 (grid1.coords t) → cfg1.idle 3 (grid1.coords t) = false := by decide +kernel

/-! ## The memrefs the body is called on -/

/-- One staging buffer of the output window, through which its contents are stated. -/
abbrev VO1_3 : View sig .tc .vmem S1x1x768 .f32 := (Memref.whole cc1_stg3_0 : Memref sig .tc .vmem S1x1x768 .f32).view
/-- Each window's current staging memref at point t, as the pipeline passes it, and its wholeness. -/
abbrev ms1_0 (t : Fin cfg1.N) : Memref sig .tc .vmem S1x512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x768 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1x768 .f32 := Memref.whole cc1_scratch0
/-- The accumulator as a view: what it holds is stated through it. -/
abbrev VS1_0 : View sig .tc .vmem S1x768 .f32 := scM1_0.view

/-- The core's scoped buffers that region 1 does not stage through, apart from the accumulator: each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region's plain invariant, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Gen

end
-- ==== Proof.WRegion1RunA.lean ====
/-
  Region 1, the run of the kernel body at a point of the first query stretch of a sequence (the accumulator is zeroed, then added to; the output block is not touched).
-/
import proofs.«138573_j83485574300331_2_alg».proof.Proof.WRegion1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's stores leave in the output block's buffer and in the accumulator (last store first), with the
    proof that on whole memrefs holding the three input blocks the body runs to a continuation that gets the inputs
    back as they were and the stored buffers with those pieces written. -/
noncomputable def kernelRun1_A (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : cond1_0 i) (hc1 : ¬cond1_1 i)
    (x0 : Vec F S1x512x768 .bf16) (x1 : Vec F S1x2048x768 .bf16) (x2 : Vec F S1x2048x768 .bf16) :
    Σ' (L3 : List (View.Piece (Elt F) S1x1x768 .f32)), { LS0 : List (View.Piece (Elt F) S1x768 .f32) //
      ∀ (xi3 : Vec F S1x1x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.WRegion1RunB.lean ====
/-
  Region 1, the run of the kernel body at a point of the second or third query stretch of a sequence (the accumulator is added to; the output block is not touched).
-/
import proofs.«138573_j83485574300331_2_alg».proof.Proof.WRegion1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's stores leave in the output block's buffer and in the accumulator (last store first), with the
    proof that on whole memrefs holding the three input blocks the body runs to a continuation that gets the inputs
    back as they were and the stored buffers with those pieces written. -/
noncomputable def kernelRun1_B (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : ¬cond1_1 i)
    (x0 : Vec F S1x512x768 .bf16) (x1 : Vec F S1x2048x768 .bf16) (x2 : Vec F S1x2048x768 .bf16) (xs0 : Vec F S1x768 .f32) :
    Σ' (L3 : List (View.Piece (Elt F) S1x1x768 .f32)), { LS0 : List (View.Piece (Elt F) S1x768 .f32) //
      ∀ (xi3 : Vec F S1x1x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.WRegion1RunC.lean ====
/-
  Region 1, the run of the kernel body at a point of the last query stretch of a sequence (the accumulator is added to, and its 1/2048-th is stored to the output block).
-/
import proofs.«138573_j83485574300331_2_alg».proof.Proof.WRegion1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's stores leave in the output block's buffer and in the accumulator (last store first), with the
    proof that on whole memrefs holding the three input blocks the body runs to a continuation that gets the inputs
    back as they were and the stored buffers with those pieces written. -/
noncomputable def kernelRun1_C (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : cond1_1 i)
    (x0 : Vec F S1x512x768 .bf16) (x1 : Vec F S1x2048x768 .bf16) (x2 : Vec F S1x2048x768 .bf16) (xs0 : Vec F S1x768 .f32) :
    Σ' (L3 : List (View.Piece (Elt F) S1x1x768 .f32)), { LS0 : List (View.Piece (Elt F) S1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.WRegion1Frame.lean ====
/-
  Region 1 (the attention kernel): the frame half.

  What each case of the body leaves in the output block's buffer and in the accumulator (the pieces its stores
  wrote, read back), the accumulation point by point, the invariant that carries the accumulator from a point to
  the next, the proof data of the pipeline over the region-entry contents V, and the body obligation.
-/
import proofs.«138573_j83485574300331_2_alg».proof.Proof.WRegion1RunA
import proofs.«138573_j83485574300331_2_alg».proof.Proof.WRegion1RunB
import proofs.«138573_j83485574300331_2_alg».proof.Proof.WRegion1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The runs at a grid point -/

/-- The first-stretch run at point t, on the memrefs the pipeline passes and the input blocks. -/
abbrev runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t)

/-- The middle-stretch run at point t, over the accumulator's contents xs. -/
abbrev runB (c : Dev nD) (t : Fin cfg1.N) (h0 : ¬t.val % 4 = 0) (h1 : ¬t.val % 4 = 3) (xs : Vec F S1x768 .f32) :=
  kernelRun1_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs

/-- The last-stretch run at point t, over the accumulator's contents xs. -/
abbrev runC (c : Dev nD) (t : Fin cfg1.N) (h0 : ¬t.val % 4 = 0) (h1 : t.val % 4 = 3) (xs : Vec F S1x768 .f32) :=
  kernelRun1_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs

/-! ## The pieces cover the buffers -/

/-- Each case's stores into the accumulator tile it (one whole-row store, or two). -/
theorem scover1_A_0 (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : cond1_0 i) (hc1 : ¬cond1_1 i) (x0 : Vec F S1x512x768 .bf16) (x1 : Vec F S1x2048x768 .bf16) (x2 : Vec F S1x2048x768 .bf16) (y : S1x768.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x768.size (by sl_kernel_rfl) y

theorem scover1_B_0 (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : ¬cond1_1 i) (x0 : Vec F S1x512x768 .bf16) (x1 : Vec F S1x2048x768 .bf16) (x2 : Vec F S1x2048x768 .bf16) (xs0 : Vec F S1x768 .f32) (y : S1x768.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x768.size (by sl_kernel_rfl) y

theorem scover1_C_0 (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : cond1_1 i) (x0 : Vec F S1x512x768 .bf16) (x1 : Vec F S1x2048x768 .bf16) (x2 : Vec F S1x2048x768 .bf16) (xs0 : Vec F S1x768 .f32) (y : S1x768.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x768.size (by sl_kernel_rfl) y

/-- The last case's one store into the output block's buffer tiles it. -/
theorem cover1_C_3 (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : cond1_1 i) (x0 : Vec F S1x512x768 .bf16) (x1 : Vec F S1x2048x768 .bf16) (x2 : Vec F S1x2048x768 .bf16) (xs0 : Vec F S1x768 .f32) (y : S1x1x768.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1x768.size (by sl_kernel_rfl) y

/-! ## What each case leaves -/

/-- What a point that does not store into the output block is recorded as leaving there: a placeholder that nothing
    reads (the window is idle at such a point and is not written back). -/
def idleOut1 : Vec F S1x1x768 .f32 := VO1_3.read (Elt F) VO1_3.junk

/-- The accumulator after a first stretch: the pieces read back. -/
def sout1_A_0 (c : Dev nD) (t : Fin cfg1.N) (h0 : t.val % 4 = 0) : Vec F S1x768 .f32 :=
  VS1_0.read (Elt F) (VS1_0.writes (Elt F) VS1_0.junk (runA V c t h0).2.1)

/-- The accumulator after a middle stretch. -/
def sout1_B_0 (c : Dev nD) (t : Fin cfg1.N) (h0 : ¬t.val % 4 = 0) (h1 : ¬t.val % 4 = 3) (xs : Vec F S1x768 .f32) : Vec F S1x768 .f32 :=
  VS1_0.read (Elt F) (VS1_0.writes (Elt F) VS1_0.junk (runB V c t h0 h1 xs).2.1)

/-- The accumulator after a last stretch. -/
def sout1_C_0 (c : Dev nD) (t : Fin cfg1.N) (h0 : ¬t.val % 4 = 0) (h1 : t.val % 4 = 3) (xs : Vec F S1x768 .f32) : Vec F S1x768 .f32 :=
  VS1_0.read (Elt F) (VS1_0.writes (Elt F) VS1_0.junk (runC V c t h0 h1 xs).2.1)

/-- The output block's buffer after a last stretch. -/
def out1_C_3 (c : Dev nD) (t : Fin cfg1.N) (h0 : ¬t.val % 4 = 0) (h1 : t.val % 4 = 3) (xs : Vec F S1x768 .f32) : Vec F S1x1x768 .f32 :=
  VO1_3.read (Elt F) (VO1_3.writes (Elt F) VO1_3.junk (runC V c t h0 h1 xs).1)

/-! ## The accumulation, point by point -/

/-- One point: from the accumulator's contents before it, the output block's buffer and the accumulator after it. -/
def stepAt1 (c : Dev nD) (t : Fin cfg1.N) (xs : Vec F S1x768 .f32) : Vec F S1x1x768 .f32 × Vec F S1x768 .f32 :=
  if h0 : t.val % 4 = 0 then (idleOut1, sout1_A_0 V c t h0)
  else if h1 : t.val % 4 = 3 then (out1_C_3 V c t h0 h1 xs, sout1_C_0 V c t h0 h1 xs)
  else (idleOut1, sout1_B_0 V c t h0 h1 xs)

/-- The output block's buffer and the accumulator after the body at position n. (Point 0 is a first stretch, which
    does not read the accumulator: what it is given there does not matter.) -/
def outsAt1 (c : Dev nD) : (n : ℕ) → n < cfg1.N → Vec F S1x1x768 .f32 × Vec F S1x768 .f32
  | 0, hn => stepAt1 V c ⟨0, hn⟩ (VS1_0.read (Elt F) VS1_0.junk)
  | n + 1, hn => stepAt1 V c ⟨n + 1, hn⟩ (outsAt1 c n (Nat.lt_of_succ_lt hn)).2

theorem outsAt1_zero (c : Dev nD) (hn : 0 < cfg1.N) :
    outsAt1 V c 0 hn = stepAt1 V c ⟨0, hn⟩ (VS1_0.read (Elt F) VS1_0.junk) := rfl

theorem outsAt1_succ (c : Dev nD) (n : ℕ) (hn : n + 1 < cfg1.N) :
    outsAt1 V c (n + 1) hn = stepAt1 V c ⟨n + 1, hn⟩ (outsAt1 V c n (Nat.lt_of_succ_lt hn)).2 := rfl

theorem stepAt1_A (c : Dev nD) (t : Fin cfg1.N) (xs : Vec F S1x768 .f32) (h0 : t.val % 4 = 0) :
    stepAt1 V c t xs = (idleOut1, sout1_A_0 V c t h0) := by
  unfold stepAt1; exact dif_pos h0

theorem stepAt1_B (c : Dev nD) (t : Fin cfg1.N) (xs : Vec F S1x768 .f32) (h0 : ¬t.val % 4 = 0) (h1 : ¬t.val % 4 = 3) :
    stepAt1 V c t xs = (idleOut1, sout1_B_0 V c t h0 h1 xs) := by
  unfold stepAt1; exact (dif_neg h0).trans (dif_neg h1)

theorem stepAt1_C (c : Dev nD) (t : Fin cfg1.N) (xs : Vec F S1x768 .f32) (h0 : ¬t.val % 4 = 0) (h1 : t.val % 4 = 3) :
    stepAt1 V c t xs = (out1_C_3 V c t h0 h1 xs, sout1_C_0 V c t h0 h1 xs) := by
  unfold stepAt1; exact (dif_neg h0).trans (dif_pos h1)

theorem outsAt1_A (c : Dev nD) (t : Fin cfg1.N) (h0 : t.val % 4 = 0) :
    outsAt1 V c t.val t.isLt = (idleOut1, sout1_A_0 V c t h0) := by
  obtain ⟨n, hn⟩ := t
  cases n with
  | zero => exact (outsAt1_zero V c hn).trans (stepAt1_A V c _ _ h0)
  | succ n => exact (outsAt1_succ V c n hn).trans (stepAt1_A V c _ _ h0)

theorem outsAt1_B (c : Dev nD) (t : Fin cfg1.N) (h0 : ¬t.val % 4 = 0) (h1 : ¬t.val % 4 = 3) :
    outsAt1 V c t.val t.isLt = (idleOut1, sout1_B_0 V c t h0 h1 (outsAt1 V c (t.val - 1) (Nat.lt_of_le_of_lt (Nat.sub_le _ _) t.isLt)).2) := by
  obtain ⟨n, hn⟩ := t
  cases n with
  | zero => exact absurd (Nat.zero_mod 4) h0
  | succ n => exact (outsAt1_succ V c n hn).trans (stepAt1_B V c _ _ h0 h1)

theorem outsAt1_C (c : Dev nD) (t : Fin cfg1.N) (h0 : ¬t.val % 4 = 0) (h1 : t.val % 4 = 3) :
    outsAt1 V c t.val t.isLt = (out1_C_3 V c t h0 h1 (outsAt1 V c (t.val - 1) (Nat.lt_of_le_of_lt (Nat.sub_le _ _) t.isLt)).2, sout1_C_0 V c t h0 h1 (outsAt1 V c (t.val - 1) (Nat.lt_of_le_of_lt (Nat.sub_le _ _) t.isLt)).2) := by
  obtain ⟨n, hn⟩ := t
  cases n with
  | zero => exact absurd (Nat.zero_mod 4) h0
  | succ n => exact (outsAt1_succ V c n hn).trans (stepAt1_C V c _ _ h0 h1)

/-! ## The invariant -/

/-- Before position n: at the start the region's plain invariant (the accumulator at anything); later the other
    scoped buffers at anything, the accumulator at what the point before left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core c over the region-entry contents V: after the body at point t each input's
    buffer holds its block, the output's what the accumulation gives; the invariant carries the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position within its sequence says which
    case it is in; the invariant hands the body the accumulator at what the point before left (at anything before the
    very first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · have hc0 : cond1_0 (grid1.coords t) := (hcond1_0 t).mpr h0
    have hc1 : ¬cond1_1 (grid1.coords t) := fun h => by have := (hcond1_1 t).mp h; omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3_A t hc0 hc1) (noFlush1_3_A t hc0 hc1)]
    rw [outsAt1_A V c t h0]
    unfold sout1_A_0; (try dsimp only)
    by_cases hz : t.val = 0
    · rw [PhiS1_castSucc V c t, PhiS1_zero V c _ _ hz, PhiA1_eq]
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
      iapply ((runA V c t h0).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
      iapply ((runA V c t h0).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t hc0 hc1], after1_3]
      rw [outsAt1_C V c t h0 h1]
      unfold out1_C_3 sout1_C_0; (try dsimp only)
      rw [PhiS1_castSucc V c t, PhiS1_pos V c _ _ hz]
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t hc0 hc1) (noFlush1_3_B t hc0 hc1)]
      rw [outsAt1_B V c t h0 h1]
      unfold sout1_B_0; (try dsimp only)
      rw [PhiS1_castSucc V c t, PhiS1_pos V c _ _ hz]
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the region's plain one. -/
theorem Phi1_first (c : Dev nD) : (dat1 V c).Φ 0 = Pipeline.ΦA spec1 c := rfl

/-- After any point but the very first the invariant gives the plain one back: the accumulator's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexists _; iexact HS0
  iexact Hg

/-- The same after the last point. -/
theorem Phi1_last (c : Dev nD) : (dat1 V c).Φ (Fin.last cfg1.N) ⊢ Pipeline.ΦA spec1 c :=
  Phi1_out V c _ (by rw [Fin.val_last]; have : cfg1.N = 64 := N_1; omega)

end Cert.Kernel.Gen

end
-- ==== Proof.WAssembly.lean ====
/-
  The two kernel regions joined to the host operations around them.

  @main is: host operations, the projection region, three reshapes, the attention region, the host operations of the
  batch normalisation. Between two of these items every buffer that no pipeline stages holds a known array: the
  arguments as launched, each host operation's result as that operation of its operands, and after a region each of
  the region's output arrays at what the region's grid points wrote back, every other buffer unchanged. Each region
  is entered from that state, takes its windows' arrays out of it, runs its pipeline (the body's run at every grid
  point is the region's own module), and puts the arrays back at their final contents. The whole program then runs to
  the end and every buffer ends at the last of these arrays; in particular every argument ends as launched.
-/
import proofs.«138573_j83485574300331_2_alg».proof.Proof.WRegion0
import proofs.«138573_j83485574300331_2_alg».proof.Proof.WRegion1Frame
import proofs.«138573_j83485574300331_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the items -/

/-- What the projection region is entered with: the launch contents after the first host operations. -/
abbrev E1 : (c : Dev nD) → (b : Ref sig .tc) → Buf (Elt F) ((c : Thread nD τ).loc b) := fun c b => V1 m c b

/-- After the projection region: its windows' arrays at what its grid points wrote back, the rest as entered. -/
def W2 (c : Dev nD) : Valuation τ sig (Elt F) :=
  Pipeline.withArrays spec0 c (V1 m c) fun w => (dat0 (E1 m) c).arrAt w cfg0.N

/-- The contents the projection region leaves, asked at any reference. -/
def outs2 : Outs (F := F) := fun _ r c => W2 m c r

/-- What the attention region is entered with. -/
abbrev E3 : (c : Dev nD) → (b : Ref sig .tc) → Buf (Elt F) ((c : Thread nD τ).loc b) := fun c b => V3 m (outs2 m) c b

/-- After the attention region. -/
def W4 (c : Dev nD) : Valuation τ sig (Elt F) :=
  Pipeline.withArrays spec1 c (V3 m (outs2 m) c) fun w => (dat1 (E3 m) c).arrAt w cfg1.N

/-- What the two regions leave: after the first, `W2`; after the second, `W4`. -/
def outs : Outs (F := F) := fun J r c => match J with
  | 2 => W2 m c r
  | _ => W4 m c r

theorem V2_outs (c : Dev nD) : V2 m (outs m) c = V2 m (outs2 m) c := rfl
theorem V3_outs (c : Dev nD) : V3 m (outs m) c = V3 m (outs2 m) c := rfl

/-- After the projection region, as the next host operations find it. -/
abbrev E2 : (c : Dev nD) → (b : Ref sig .tc) → Buf (Elt F) ((c : Thread nD τ).loc b) := fun c b => V2 m (outs m) c b
/-- After the attention region. -/
abbrev E4 : (c : Dev nD) → (b : Ref sig .tc) → Buf (Elt F) ((c : Thread nD τ).loc b) := fun c b => V4 m (outs m) c b

/-- The three projected arrays after the region are what the region's grid points wrote back. -/
theorem V2_q (c : Dev nD) : V2 m (outs m) c main_v14_0 = (dat0 (E1 m) c).arrAt 7 cfg0.N := by
  simp only [V2, Function.update_of_ne (StableHlo.devRef_ne_of_ne (by decide : main_v14_0 ≠ main_v14_2) : (Proc.devRef .tc main_v14_0 : DevRef τ sig) ≠ Proc.devRef .tc main_v14_2),
    Function.update_of_ne (StableHlo.devRef_ne_of_ne (by decide : main_v14_0 ≠ main_v14_1) : (Proc.devRef .tc main_v14_0 : DevRef τ sig) ≠ Proc.devRef .tc main_v14_1),
    Function.update_self]
  show W2 m c (Proc.devRef .tc main_v14_0) = _
  unfold W2; exact Pipeline.withArrays_arr spec0 launch0.win.arr_inj c _ _ 7
theorem V2_k (c : Dev nD) : V2 m (outs m) c main_v14_1 = (dat0 (E1 m) c).arrAt 8 cfg0.N := by
  simp only [V2, Function.update_of_ne (StableHlo.devRef_ne_of_ne (by decide : main_v14_1 ≠ main_v14_2) : (Proc.devRef .tc main_v14_1 : DevRef τ sig) ≠ Proc.devRef .tc main_v14_2),
    Function.update_self]
  show W2 m c (Proc.devRef .tc main_v14_1) = _
  unfold W2; exact Pipeline.withArrays_arr spec0 launch0.win.arr_inj c _ _ 8
theorem V2_v (c : Dev nD) : V2 m (outs m) c main_v14_2 = (dat0 (E1 m) c).arrAt 9 cfg0.N := by
  simp only [V2, Function.update_self]
  show W2 m c (Proc.devRef .tc main_v14_2) = _
  unfold W2; exact Pipeline.withArrays_arr spec0 launch0.win.arr_inj c _ _ 9

/-- Every array of the projection region at its exit contents. -/
theorem hF0 (c : Dev nD) (w : Fin cfg0.W) : (dat0 (E1 m) c).arrAt w cfg0.N = E2 m c (Pipeline.arrRef spec0 w) :=
  match w with
  | ⟨0, _⟩ => (((dat0 (E1 m) c).arrAt_in 0 rfl _).trans (A_eq0 (E1 m) c 0)).trans (V2_of m (outs m) c _ (by decide)).symm
  | ⟨1, _⟩ => (((dat0 (E1 m) c).arrAt_in 1 rfl _).trans (A_eq0 (E1 m) c 1)).trans (V2_of m (outs m) c _ (by decide)).symm
  | ⟨2, _⟩ => (((dat0 (E1 m) c).arrAt_in 2 rfl _).trans (A_eq0 (E1 m) c 2)).trans (V2_of m (outs m) c _ (by decide)).symm
  | ⟨3, _⟩ => (((dat0 (E1 m) c).arrAt_in 3 rfl _).trans (A_eq0 (E1 m) c 3)).trans (V2_of m (outs m) c _ (by decide)).symm
  | ⟨4, _⟩ => (((dat0 (E1 m) c).arrAt_in 4 rfl _).trans (A_eq0 (E1 m) c 4)).trans (V2_of m (outs m) c _ (by decide)).symm
  | ⟨5, _⟩ => (((dat0 (E1 m) c).arrAt_in 5 rfl _).trans (A_eq0 (E1 m) c 5)).trans (V2_of m (outs m) c _ (by decide)).symm
  | ⟨6, _⟩ => (((dat0 (E1 m) c).arrAt_in 6 rfl _).trans (A_eq0 (E1 m) c 6)).trans (V2_of m (outs m) c _ (by decide)).symm
  | ⟨7, _⟩ => (V2_q m c).symm
  | ⟨8, _⟩ => (V2_k m c).symm
  | ⟨9, _⟩ => (V2_v m c).symm

/-- Every other buffer as the region found it. -/
theorem hrest0 (c : Dev nD) : ∀ b, b ∉ Finset.univ.image (Pipeline.arrRef spec0) → E2 m c b = E1 m c b :=
  fun b hb => V2_of m (outs m) c b fun hmem => hb (by
    simp only [List.mem_cons, List.mem_singleton, List.not_mem_nil, or_false] at hmem
    rcases hmem with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩)

/-- The attention region's output array after the region is what its grid points wrote back. -/
theorem V4_o (c : Dev nD) : V4 m (outs m) c main_v18 = (dat1 (E3 m) c).arrAt 3 cfg1.N := by
  simp only [V4, Function.update_self]
  show W4 m c (Proc.devRef .tc main_v18) = _
  unfold W4; exact Pipeline.withArrays_arr spec1 launch1.win.arr_inj c _ _ 3

theorem hF1 (c : Dev nD) (w : Fin cfg1.W) : (dat1 (E3 m) c).arrAt w cfg1.N = E4 m c (Pipeline.arrRef spec1 w) :=
  match w with
  | ⟨0, _⟩ => (((dat1 (E3 m) c).arrAt_in 0 rfl _).trans (A_eq1 (E3 m) c 0)).trans (V4_of m (outs m) c _ (by decide)).symm
  | ⟨1, _⟩ => (((dat1 (E3 m) c).arrAt_in 1 rfl _).trans (A_eq1 (E3 m) c 1)).trans (V4_of m (outs m) c _ (by decide)).symm
  | ⟨2, _⟩ => (((dat1 (E3 m) c).arrAt_in 2 rfl _).trans (A_eq1 (E3 m) c 2)).trans (V4_of m (outs m) c _ (by decide)).symm
  | ⟨3, _⟩ => (V4_o m c).symm

theorem hrest1 (c : Dev nD) : ∀ b, b ∉ Finset.univ.image (Pipeline.arrRef spec1) → E4 m c b = E3 m c b :=
  fun b hb => V4_of m (outs m) c b fun hmem => hb (by
    simp only [List.mem_cons, List.mem_singleton, List.not_mem_nil, or_false] at hmem
    subst hmem
    exact Finset.mem_image.mpr ⟨3, Finset.mem_univ _, rfl⟩)

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev L0 : GSem nD τ sig → Finset Unit := fun _ => ∅
abbrev lv0 : GSem nD τ sig → Unit → ℕ := fun _ _ => 0

/-- Beside the buffers, through every item: the core's generator register at some state, and the core owing nothing. -/
abbrev Rest (c : Dev nD) : sProp 𝕄 := iprop((∃ r, prngReg c r) ∗ ∃ W, owes (c : Thread nD τ) (0 : CellTallies nD τ sig Unit) W)

/-! ## The regions as segments -/

set_option backward.isDefEq.respectTransparency.types false in
/-- The projection region: entered from the buffers at `V1`, left at `V2`. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L0 lv0 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from the buffers at `V3`, left at `V4`. Its invariant is the class's before the first
    grid point and gives the class's back after the last: the accumulator's contents are forgotten at the exit. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L0 lv0 1 fun _ _ => rfl
  pre c := iprop(StableHlo.held (c : Thread nD τ) (Pipeline.ucRefs τ sig) (V3 m (outs m) c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    rw [V3_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (E3 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.WRunMain.lean ====
/-
  The whole program's run: every weakly fair execution terminates, and at the end every buffer no pipeline stages holds
  the last of the arrays the items leave in it (the launch contents carried through the host operations and the two
  regions). The frame claim follows because no item writes an argument.
-/
import proofs.«138573_j83485574300331_2_alg».proof.Proof.WAssembly

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the end the generator register joins the buffers and the core owes nothing. -/
theorem last_link (c : Dev nD) (P : sProp 𝕄) :
    (iprop(P ∗ Rest c) : sProp 𝕄) ⊢ iprop((P ∗ ∃ r, prngReg c r) ∗ ∃ W, owes (c : Thread nD τ) (0 : CellTallies nD τ sig Unit) W) := by
  iintro ⟨Hh, Hp, HO⟩
  isplitr [HO]
  · isplitl [Hh]; · iexact Hh
    iexact Hp
  · iexact HO

set_option backward.isDefEq.respectTransparency.types false in
/-- Every weakly fair execution of @main terminates, and every buffer no pipeline stages ends at the last valuation. -/
theorem run_main : θ_run defs (onTc (τ := τ) (main (F := F))) ⟨m, fun _ => 0, ρ⟩
    (fun r => ∀ c : Dev nD, ∀ b ∈ Pipeline.ucRefs τ sig, r.2.mem ((c : Thread nD τ).1, b) = V7 m (outs m) c b) := by
  refine Pipeline.θ_run_regions_kit_dev (pcfgs (F := F)) adm (pdats m) () cellOf_inj emb₁ defs₀ Variants.none L0 lv0 m ρ main
    (segs m (outs m) Variants.none L0 lv0 (fun _ => Rest) () (pdats m) (reg0 m) (reg1 m))
    (fun c Q => by
      rewrite [main_chain c, Seg.run_eq_chain,
        show (segs m (outs m) Variants.none L0 lv0 (fun _ => Rest) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (V7 m (outs m) c) ∗ ∃ r, prngReg c r))
    (hch := fun c => ⟨.rfl, .rfl, .rfl, .rfl, .rfl, .rfl, .rfl, last_link c _⟩)
    (hinit := ?_)
    (QY := fun c s => ∀ b ∈ Pipeline.ucRefs τ sig, s.mem ((c : Thread nD τ).1, b) = V7 m (outs m) c b)
    (hfin := fun c s' => ?_) (hQ := fun _ h => h)
  · refine Pipeline.initEach L0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => ((c : Thread nD τ).1, b)) (V7 m (outs m) c) s')
    isplitl [Hh] <;> iassumption

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c),
     (h c _ (mem_uc main_arg6 (by decide))).trans (V7_main_arg6 m (outs m) c),
     (h c _ (mem_uc main_arg7 (by decide))).trans (V7_main_arg7 m (outs m) c),
     (h c _ (mem_uc main_arg8 (by decide))).trans (V7_main_arg8 m (outs m) c)⟩) (run_main m ρ)

end Cert.Kernel.Gen

end
-- ==== Proof.Region0.lean ====
/-
  The projection region: one grid point takes a block of 1024 rows of the input [32768, 768], the three
  transposed weight matrices [768, 768] and the three bias rows [1, 768], and writes the corresponding 1024 rows
  of each of the three projections. The body reads every input window's staging buffer whole and writes every
  output window's staging buffer whole, keeps nothing between grid points and uses no semaphore: what it leaves
  in an output buffer is a function of the input blocks at the point alone.

  This module states that function per output window, proves the body's triple by symbolic execution, and
  discharges the pipeline's body obligation at every grid point, at any float instance.
-/
import proofs.«138573_j83485574300331_2_alg».proof.Proof.Gen.KernelIdeal.Launch
import proofs.«138573_j83485574300331_2_alg».proof.Proof.Gen.KernelIdeal.Skeleton
import proofs.«138573_j83485574300331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents of the core when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether the pipeline fetched it
    there or not (an unfetched point has the block index of the point before), for any proof data over the
    region-entry arrays whose body leaves that buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, whether the pipeline fetched it
    there or not (an unfetched point has the block index of the point before), for any proof data over the
    region-entry arrays whose body leaves that buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, whether the pipeline fetched it
    there or not (an unfetched point has the block index of the point before), for any proof data over the
    region-entry arrays whose body leaves that buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block at every point, whether the pipeline fetched it
    there or not (an unfetched point has the block index of the point before), for any proof data over the
    region-entry arrays whose body leaves that buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds the window's block at every point, whether the pipeline fetched it
    there or not (an unfetched point has the block index of the point before), for any proof data over the
    region-entry arrays whose body leaves that buffer as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds the window's block at every point, whether the pipeline fetched it
    there or not (an unfetched point has the block index of the point before), for any proof data over the
    region-entry arrays whose body leaves that buffer as it found it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds the window's block at every point, whether the pipeline fetched it
    there or not (an unfetched point has the block index of the point before), for any proof data over the
    region-entry arrays whose body leaves that buffer as it found it. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev rA : Rect S1024x768 := Rect.unit (s := S1024x768) ![0, 0] S1024x768.size inb_S1024x768_S1024x768_0_0
abbrev rW : Rect S768x768 := Rect.unit (s := S768x768) ![0, 0] S768x768.size inb_S768x768_S768x768_0_0
abbrev rB : Rect S1x768 := Rect.unit (s := S1x768) ![0, 0] S1x768.size inb_S1x768_S1x768_0_0

/-! ## What the body leaves in each output window's buffer -/

/-- Output window 7's staging buffer after the body, from the blocks of the input, of one weight matrix and of
    one bias row: its single whole-buffer store. -/
def out0_7 (x0 : Vec F S1024x768 .f32) (x1 : Vec F S768x768 .bf16) (x2 : Vec F S1x768 .f32) : Vec F S1024x768 .bf16 :=
  View.canon [⟨rA, k0_pay2 (View.ld x0 rA) (View.ld x1 rW) (View.ld x2 rB)⟩]

/-- The single store covers the buffer. -/
theorem cover0_7 (p0 : Vec F S1024x768 .bf16) (y : S1024x768.Idx) :
    ∃ pc ∈ ([⟨rA, p0⟩] : List (View.Piece (Elt F) S1024x768 .bf16)), y ∈ pc.1.set :=
  View.cover_of_tiled [⟨rA, p0⟩] S1024x768.size (by rfl) y

/-- Output window 8's staging buffer after the body, from the blocks of the input, of one weight matrix and of
    one bias row: its single whole-buffer store. -/
def out0_8 (x0 : Vec F S1024x768 .f32) (x3 : Vec F S768x768 .bf16) (x4 : Vec F S1x768 .f32) : Vec F S1024x768 .bf16 :=
  View.canon [⟨rA, k0_pay3 (View.ld x0 rA) (View.ld x3 rW) (View.ld x4 rB)⟩]

/-- The single store covers the buffer. -/
theorem cover0_8 (p0 : Vec F S1024x768 .bf16) (y : S1024x768.Idx) :
    ∃ pc ∈ ([⟨rA, p0⟩] : List (View.Piece (Elt F) S1024x768 .bf16)), y ∈ pc.1.set :=
  View.cover_of_tiled [⟨rA, p0⟩] S1024x768.size (by rfl) y

/-- Output window 9's staging buffer after the body, from the blocks of the input, of one weight matrix and of
    one bias row: its single whole-buffer store. -/
def out0_9 (x0 : Vec F S1024x768 .f32) (x5 : Vec F S768x768 .bf16) (x6 : Vec F S1x768 .f32) : Vec F S1024x768 .bf16 :=
  View.canon [⟨rA, k0_pay4 (View.ld x0 rA) (View.ld x5 rW) (View.ld x6 rB)⟩]

/-- The single store covers the buffer. -/
theorem cover0_9 (p0 : Vec F S1024x768 .bf16) (y : S1024x768.Idx) :
    ∃ pc ∈ ([⟨rA, p0⟩] : List (View.Piece (Elt F) S1024x768 .bf16)), y ∈ pc.1.set :=
  View.cover_of_tiled [⟨rA, p0⟩] S1024x768.size (by rfl) y

/-! ## The body's triple -/

set_option maxHeartbeats 4000000 in
/-- The body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S1024x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S768x768 .bf16) (harg4 : arg4.IsWhole) (arg5 : Memref sig .tc .vmem S1x768 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x768 .bf16) (harg10 : arg10.IsWhole)
    (x0 : Vec F S1024x768 .f32) (x1 : Vec F S768x768 .bf16) (x2 : Vec F S1x768 .f32) (x3 : Vec F S768x768 .bf16) (x4 : Vec F S1x768 .f32) (x5 : Vec F S768x768 .bf16) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the projection pipeline on core `c`: the arrays as the region finds them; after the body at
    point `t` every input's buffer at its block and every output's at `out0_W` of the input blocks; the invariant
    is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.Region1Runs.lean ====
/-
  Region 1 (the attention kernel): what the three case runs and the frame share.

  The grid is 16 x 4; point t = 4 n + j works on sequence n and on the j-th stretch of 512 queries. The body has
  two conditionals on j: the first (j = 0) stores a zero row into the scratch accumulator, the second (j = 3)
  stores the accumulator times 1/2048 into the output block. So a point is in one of three cases:
  first (j = 0), middle (j = 1, 2), last (j = 3). The output window is idle (not stored, not written back)
  except at the last stretch of a sequence. The accumulator is carried from point to point.

  Everything is stated over the contents V the TensorCore's buffers have when the region is entered.
-/
import proofs.«138573_j83485574300331_2_alg».proof.Proof.Gen.KernelIdeal.Launch
import proofs.«138573_j83485574300331_2_alg».proof.Proof.Gen.KernelIdeal.Skeleton
import proofs.«138573_j83485574300331_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (when it does not, the block index has not moved since the last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- The first conditional's condition (is the query stretch the first one), from the grid coordinates. -/
abbrev cond1_0 (i : grid1.Coords) : Prop := (Scalar.cmpi .ne (Scalar.extui (Scalar.cmpi .eq (BitVec.ofNat 32 (i 1).val) 0#32)) 0#32) = 1#1
/-- It holds exactly at the points 4 n. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (is the query stretch the last one). -/
abbrev cond1_1 (i : grid1.Coords) : Prop := k1_cond2 i = 1#1
/-- It holds exactly at the points 4 n + 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first stretch the output window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at a middle stretch. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last stretch the output window is live. -/
theorem liveAt1_3_C : ∀ t : Fin cfg1.N, ¬cond1_0 (grid1.coords t) → cond1_1 (grid1.coords t) → cfg1.idle 3 (grid1.coords t) = false := by decide +kernel

/-! ## The memrefs the body is called on -/

/-- One staging buffer of the output window, through which its contents are stated. -/
abbrev VO1_3 : View sig .tc .vmem S1x1x768 .f32 := (Memref.whole cc1_stg3_0 : Memref sig .tc .vmem S1x1x768 .f32).view
/-- Each window's current staging memref at point t, as the pipeline passes it, and its wholeness. -/
abbrev ms1_0 (t : Fin cfg1.N) : Memref sig .tc .vmem S1x512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x768 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1x768 .f32 := Memref.whole cc1_scratch0
/-- The accumulator as a view: what it holds is stated through it. -/
abbrev VS1_0 : View sig .tc .vmem S1x768 .f32 := scM1_0.view

/-- The core's scoped buffers that region 1 does not stage through, apart from the accumulator: each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region's plain invariant, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Gen

end
-- ==== Proof.Region1RunA.lean ====
/-
  Region 1, the run of the kernel body at a point of the first query stretch of a sequence (the accumulator is zeroed, then added to; the output block is not touched).
-/
import proofs.«138573_j83485574300331_2_alg».proof.Proof.Region1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's stores leave in the output block's buffer and in the accumulator (last store first), with the
    proof that on whole memrefs holding the three input blocks the body runs to a continuation that gets the inputs
    back as they were and the stored buffers with those pieces written. -/
noncomputable def kernelRun1_A (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : cond1_0 i) (hc1 : ¬cond1_1 i)
    (x0 : Vec F S1x512x768 .bf16) (x1 : Vec F S1x2048x768 .bf16) (x2 : Vec F S1x2048x768 .bf16) :
    Σ' (L3 : List (View.Piece (Elt F) S1x1x768 .f32)), { LS0 : List (View.Piece (Elt F) S1x768 .f32) //
      ∀ (xi3 : Vec F S1x1x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Region1RunB.lean ====
/-
  Region 1, the run of the kernel body at a point of the second or third query stretch of a sequence (the accumulator is added to; the output block is not touched).
-/
import proofs.«138573_j83485574300331_2_alg».proof.Proof.Region1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's stores leave in the output block's buffer and in the accumulator (last store first), with the
    proof that on whole memrefs holding the three input blocks the body runs to a continuation that gets the inputs
    back as they were and the stored buffers with those pieces written. -/
noncomputable def kernelRun1_B (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : ¬cond1_1 i)
    (x0 : Vec F S1x512x768 .bf16) (x1 : Vec F S1x2048x768 .bf16) (x2 : Vec F S1x2048x768 .bf16) (xs0 : Vec F S1x768 .f32) :
    Σ' (L3 : List (View.Piece (Elt F) S1x1x768 .f32)), { LS0 : List (View.Piece (Elt F) S1x768 .f32) //
      ∀ (xi3 : Vec F S1x1x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.Region1RunC.lean ====
/-
  Region 1, the run of the kernel body at a point of the last query stretch of a sequence (the accumulator is added to, and its 1/2048-th is stored to the output block).
-/
import proofs.«138573_j83485574300331_2_alg».proof.Proof.Region1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's stores leave in the output block's buffer and in the accumulator (last store first), with the
    proof that on whole memrefs holding the three input blocks the body runs to a continuation that gets the inputs
    back as they were and the stored buffers with those pieces written. -/
noncomputable def kernelRun1_C (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : cond1_1 i)
    (x0 : Vec F S1x512x768 .bf16) (x1 : Vec F S1x2048x768 .bf16) (x2 : Vec F S1x2048x768 .bf16) (xs0 : Vec F S1x768 .f32) :
    Σ' (L3 : List (View.Piece (Elt F) S1x1x768 .f32)), { LS0 : List (View.Piece (Elt F) S1x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.Region1Frame.lean ====
/-
  Region 1 (the attention kernel): the frame half.

  What each case of the body leaves in the output block's buffer and in the accumulator (the pieces its stores
  wrote, read back), the accumulation point by point, the invariant that carries the accumulator from a point to
  the next, the proof data of the pipeline over the region-entry contents V, and the body obligation.
-/
import proofs.«138573_j83485574300331_2_alg».proof.Proof.Region1RunA
import proofs.«138573_j83485574300331_2_alg».proof.Proof.Region1RunB
import proofs.«138573_j83485574300331_2_alg».proof.Proof.Region1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The runs at a grid point -/

/-- The first-stretch run at point t, on the memrefs the pipeline passes and the input blocks. -/
abbrev runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t)

/-- The middle-stretch run at point t, over the accumulator's contents xs. -/
abbrev runB (c : Dev nD) (t : Fin cfg1.N) (h0 : ¬t.val % 4 = 0) (h1 : ¬t.val % 4 = 3) (xs : Vec F S1x768 .f32) :=
  kernelRun1_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs

/-- The last-stretch run at point t, over the accumulator's contents xs. -/
abbrev runC (c : Dev nD) (t : Fin cfg1.N) (h0 : ¬t.val % 4 = 0) (h1 : t.val % 4 = 3) (xs : Vec F S1x768 .f32) :=
  kernelRun1_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs

/-! ## The pieces cover the buffers -/

/-- Each case's stores into the accumulator tile it (one whole-row store, or two). -/
theorem scover1_A_0 (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : cond1_0 i) (hc1 : ¬cond1_1 i) (x0 : Vec F S1x512x768 .bf16) (x1 : Vec F S1x2048x768 .bf16) (x2 : Vec F S1x2048x768 .bf16) (y : S1x768.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x768.size (by sl_kernel_rfl) y

theorem scover1_B_0 (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : ¬cond1_1 i) (x0 : Vec F S1x512x768 .bf16) (x1 : Vec F S1x2048x768 .bf16) (x2 : Vec F S1x2048x768 .bf16) (xs0 : Vec F S1x768 .f32) (y : S1x768.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x768.size (by sl_kernel_rfl) y

theorem scover1_C_0 (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : cond1_1 i) (x0 : Vec F S1x512x768 .bf16) (x1 : Vec F S1x2048x768 .bf16) (x2 : Vec F S1x2048x768 .bf16) (xs0 : Vec F S1x768 .f32) (y : S1x768.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x768.size (by sl_kernel_rfl) y

/-- The last case's one store into the output block's buffer tiles it. -/
theorem cover1_C_3 (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : cond1_1 i) (x0 : Vec F S1x512x768 .bf16) (x1 : Vec F S1x2048x768 .bf16) (x2 : Vec F S1x2048x768 .bf16) (xs0 : Vec F S1x768 .f32) (y : S1x1x768.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1x768.size (by sl_kernel_rfl) y

/-! ## What each case leaves -/

/-- What a point that does not store into the output block is recorded as leaving there: a placeholder that nothing
    reads (the window is idle at such a point and is not written back). -/
def idleOut1 : Vec F S1x1x768 .f32 := VO1_3.read (Elt F) VO1_3.junk

/-- The accumulator after a first stretch: the pieces read back. -/
def sout1_A_0 (c : Dev nD) (t : Fin cfg1.N) (h0 : t.val % 4 = 0) : Vec F S1x768 .f32 :=
  VS1_0.read (Elt F) (VS1_0.writes (Elt F) VS1_0.junk (runA V c t h0).2.1)

/-- The accumulator after a middle stretch. -/
def sout1_B_0 (c : Dev nD) (t : Fin cfg1.N) (h0 : ¬t.val % 4 = 0) (h1 : ¬t.val % 4 = 3) (xs : Vec F S1x768 .f32) : Vec F S1x768 .f32 :=
  VS1_0.read (Elt F) (VS1_0.writes (Elt F) VS1_0.junk (runB V c t h0 h1 xs).2.1)

/-- The accumulator after a last stretch. -/
def sout1_C_0 (c : Dev nD) (t : Fin cfg1.N) (h0 : ¬t.val % 4 = 0) (h1 : t.val % 4 = 3) (xs : Vec F S1x768 .f32) : Vec F S1x768 .f32 :=
  VS1_0.read (Elt F) (VS1_0.writes (Elt F) VS1_0.junk (runC V c t h0 h1 xs).2.1)

/-- The output block's buffer after a last stretch. -/
def out1_C_3 (c : Dev nD) (t : Fin cfg1.N) (h0 : ¬t.val % 4 = 0) (h1 : t.val % 4 = 3) (xs : Vec F S1x768 .f32) : Vec F S1x1x768 .f32 :=
  VO1_3.read (Elt F) (VO1_3.writes (Elt F) VO1_3.junk (runC V c t h0 h1 xs).1)

/-! ## The accumulation, point by point -/

/-- One point: from the accumulator's contents before it, the output block's buffer and the accumulator after it. -/
def stepAt1 (c : Dev nD) (t : Fin cfg1.N) (xs : Vec F S1x768 .f32) : Vec F S1x1x768 .f32 × Vec F S1x768 .f32 :=
  if h0 : t.val % 4 = 0 then (idleOut1, sout1_A_0 V c t h0)
  else if h1 : t.val % 4 = 3 then (out1_C_3 V c t h0 h1 xs, sout1_C_0 V c t h0 h1 xs)
  else (idleOut1, sout1_B_0 V c t h0 h1 xs)

/-- The output block's buffer and the accumulator after the body at position n. (Point 0 is a first stretch, which
    does not read the accumulator: what it is given there does not matter.) -/
def outsAt1 (c : Dev nD) : (n : ℕ) → n < cfg1.N → Vec F S1x1x768 .f32 × Vec F S1x768 .f32
  | 0, hn => stepAt1 V c ⟨0, hn⟩ (VS1_0.read (Elt F) VS1_0.junk)
  | n + 1, hn => stepAt1 V c ⟨n + 1, hn⟩ (outsAt1 c n (Nat.lt_of_succ_lt hn)).2

theorem outsAt1_zero (c : Dev nD) (hn : 0 < cfg1.N) :
    outsAt1 V c 0 hn = stepAt1 V c ⟨0, hn⟩ (VS1_0.read (Elt F) VS1_0.junk) := rfl

theorem outsAt1_succ (c : Dev nD) (n : ℕ) (hn : n + 1 < cfg1.N) :
    outsAt1 V c (n + 1) hn = stepAt1 V c ⟨n + 1, hn⟩ (outsAt1 V c n (Nat.lt_of_succ_lt hn)).2 := rfl

theorem stepAt1_A (c : Dev nD) (t : Fin cfg1.N) (xs : Vec F S1x768 .f32) (h0 : t.val % 4 = 0) :
    stepAt1 V c t xs = (idleOut1, sout1_A_0 V c t h0) := by
  unfold stepAt1; exact dif_pos h0

theorem stepAt1_B (c : Dev nD) (t : Fin cfg1.N) (xs : Vec F S1x768 .f32) (h0 : ¬t.val % 4 = 0) (h1 : ¬t.val % 4 = 3) :
    stepAt1 V c t xs = (idleOut1, sout1_B_0 V c t h0 h1 xs) := by
  unfold stepAt1; exact (dif_neg h0).trans (dif_neg h1)

theorem stepAt1_C (c : Dev nD) (t : Fin cfg1.N) (xs : Vec F S1x768 .f32) (h0 : ¬t.val % 4 = 0) (h1 : t.val % 4 = 3) :
    stepAt1 V c t xs = (out1_C_3 V c t h0 h1 xs, sout1_C_0 V c t h0 h1 xs) := by
  unfold stepAt1; exact (dif_neg h0).trans (dif_pos h1)

theorem outsAt1_A (c : Dev nD) (t : Fin cfg1.N) (h0 : t.val % 4 = 0) :
    outsAt1 V c t.val t.isLt = (idleOut1, sout1_A_0 V c t h0) := by
  obtain ⟨n, hn⟩ := t
  cases n with
  | zero => exact (outsAt1_zero V c hn).trans (stepAt1_A V c _ _ h0)
  | succ n => exact (outsAt1_succ V c n hn).trans (stepAt1_A V c _ _ h0)

theorem outsAt1_B (c : Dev nD) (t : Fin cfg1.N) (h0 : ¬t.val % 4 = 0) (h1 : ¬t.val % 4 = 3) :
    outsAt1 V c t.val t.isLt = (idleOut1, sout1_B_0 V c t h0 h1 (outsAt1 V c (t.val - 1) (Nat.lt_of_le_of_lt (Nat.sub_le _ _) t.isLt)).2) := by
  obtain ⟨n, hn⟩ := t
  cases n with
  | zero => exact absurd (Nat.zero_mod 4) h0
  | succ n => exact (outsAt1_succ V c n hn).trans (stepAt1_B V c _ _ h0 h1)

theorem outsAt1_C (c : Dev nD) (t : Fin cfg1.N) (h0 : ¬t.val % 4 = 0) (h1 : t.val % 4 = 3) :
    outsAt1 V c t.val t.isLt = (out1_C_3 V c t h0 h1 (outsAt1 V c (t.val - 1) (Nat.lt_of_le_of_lt (Nat.sub_le _ _) t.isLt)).2, sout1_C_0 V c t h0 h1 (outsAt1 V c (t.val - 1) (Nat.lt_of_le_of_lt (Nat.sub_le _ _) t.isLt)).2) := by
  obtain ⟨n, hn⟩ := t
  cases n with
  | zero => exact absurd (Nat.zero_mod 4) h0
  | succ n => exact (outsAt1_succ V c n hn).trans (stepAt1_C V c _ _ h0 h1)

/-! ## The invariant -/

/-- Before position n: at the start the region's plain invariant (the accumulator at anything); later the other
    scoped buffers at anything, the accumulator at what the point before left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core c over the region-entry contents V: after the body at point t each input's
    buffer holds its block, the output's what the accumulation gives; the invariant carries the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position within its sequence says which
    case it is in; the invariant hands the body the accumulator at what the point before left (at anything before the
    very first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · have hc0 : cond1_0 (grid1.coords t) := (hcond1_0 t).mpr h0
    have hc1 : ¬cond1_1 (grid1.coords t) := fun h => by have := (hcond1_1 t).mp h; omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3_A t hc0 hc1) (noFlush1_3_A t hc0 hc1)]
    rw [outsAt1_A V c t h0]
    unfold sout1_A_0; (try dsimp only)
    by_cases hz : t.val = 0
    · rw [PhiS1_castSucc V c t, PhiS1_zero V c _ _ hz, PhiA1_eq]
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
      iapply ((runA V c t h0).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
      iapply ((runA V c t h0).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t hc0 hc1], after1_3]
      rw [outsAt1_C V c t h0 h1]
      unfold out1_C_3 sout1_C_0; (try dsimp only)
      rw [PhiS1_castSucc V c t, PhiS1_pos V c _ _ hz]
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t hc0 hc1) (noFlush1_3_B t hc0 hc1)]
      rw [outsAt1_B V c t h0 h1]
      unfold sout1_B_0; (try dsimp only)
      rw [PhiS1_castSucc V c t, PhiS1_pos V c _ _ hz]
      iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HR10 HR11 HR12 HR13 HS0 Hg]
      · isplitl [HR0 HR1 HR2 HR3 HR4 HR5 HR6 HR7 HR8 HR9 HR10 HR11 HR12 HR13 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the region's plain one. -/
theorem Phi1_first (c : Dev nD) : (dat1 V c).Φ 0 = Pipeline.ΦA spec1 c := rfl

/-- After any point but the very first the invariant gives the plain one back: the accumulator's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexists _; iexact HS0
  iexact Hg

/-- The same after the last point. -/
theorem Phi1_last (c : Dev nD) : (dat1 V c).Φ (Fin.last cfg1.N) ⊢ Pipeline.ΦA spec1 c :=
  Phi1_out V c _ (by rw [Fin.val_last]; have : cfg1.N = 64 := N_1; omega)

end Cert.KernelIdeal.Gen

end
-- ==== Proof.Assembly.lean ====
/-
  The two kernel regions joined to the host operations around them.

  @main is: host operations, the projection region, three reshapes, the attention region, the host operations of the
  batch normalisation. Between two of these items every buffer that no pipeline stages holds a known array: the
  arguments as launched, each host operation's result as that operation of its operands, and after a region each of
  the region's output arrays at what the region's grid points wrote back, every other buffer unchanged. Each region
  is entered from that state, takes its windows' arrays out of it, runs its pipeline (the body's run at every grid
  point is the region's own module), and puts the arrays back at their final contents. The whole program then runs to
  the end and every buffer ends at the last of these arrays; in particular every argument ends as launched.
-/
import proofs.«138573_j83485574300331_2_alg».proof.Proof.Region0
import proofs.«138573_j83485574300331_2_alg».proof.Proof.Region1Frame
import proofs.«138573_j83485574300331_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the items -/

/-- What the projection region is entered with: the launch contents after the first host operations. -/
abbrev E1 : (c : Dev nD) → (b : Ref sig .tc) → Buf (Elt F) ((c : Thread nD τ).loc b) := fun c b => V1 m c b

/-- After the projection region: its windows' arrays at what its grid points wrote back, the rest as entered. -/
def W2 (c : Dev nD) : Valuation τ sig (Elt F) :=
  Pipeline.withArrays spec0 c (V1 m c) fun w => (dat0 (E1 m) c).arrAt w cfg0.N

/-- The contents the projection region leaves, asked at any reference. -/
def outs2 : Outs (F := F) := fun _ r c => W2 m c r

/-- What the attention region is entered with. -/
abbrev E3 : (c : Dev nD) → (b : Ref sig .tc) → Buf (Elt F) ((c : Thread nD τ).loc b) := fun c b => V3 m (outs2 m) c b

/-- After the attention region. -/
def W4 (c : Dev nD) : Valuation τ sig (Elt F) :=
  Pipeline.withArrays spec1 c (V3 m (outs2 m) c) fun w => (dat1 (E3 m) c).arrAt w cfg1.N

/-- What the two regions leave: after the first, `W2`; after the second, `W4`. -/
def outs : Outs (F := F) := fun J r c => match J with
  | 2 => W2 m c r
  | _ => W4 m c r

theorem V2_outs (c : Dev nD) : V2 m (outs m) c = V2 m (outs2 m) c := rfl
theorem V3_outs (c : Dev nD) : V3 m (outs m) c = V3 m (outs2 m) c := rfl

/-- After the projection region, as the next host operations find it. -/
abbrev E2 : (c : Dev nD) → (b : Ref sig .tc) → Buf (Elt F) ((c : Thread nD τ).loc b) := fun c b => V2 m (outs m) c b
/-- After the attention region. -/
abbrev E4 : (c : Dev nD) → (b : Ref sig .tc) → Buf (Elt F) ((c : Thread nD τ).loc b) := fun c b => V4 m (outs m) c b

/-- The three projected arrays after the region are what the region's grid points wrote back. -/
theorem V2_q (c : Dev nD) : V2 m (outs m) c main_v14_0 = (dat0 (E1 m) c).arrAt 7 cfg0.N := by
  simp only [V2, Function.update_of_ne (StableHlo.devRef_ne_of_ne (by decide : main_v14_0 ≠ main_v14_2) : (Proc.devRef .tc main_v14_0 : DevRef τ sig) ≠ Proc.devRef .tc main_v14_2),
    Function.update_of_ne (StableHlo.devRef_ne_of_ne (by decide : main_v14_0 ≠ main_v14_1) : (Proc.devRef .tc main_v14_0 : DevRef τ sig) ≠ Proc.devRef .tc main_v14_1),
    Function.update_self]
  show W2 m c (Proc.devRef .tc main_v14_0) = _
  unfold W2; exact Pipeline.withArrays_arr spec0 launch0.win.arr_inj c _ _ 7
theorem V2_k (c : Dev nD) : V2 m (outs m) c main_v14_1 = (dat0 (E1 m) c).arrAt 8 cfg0.N := by
  simp only [V2, Function.update_of_ne (StableHlo.devRef_ne_of_ne (by decide : main_v14_1 ≠ main_v14_2) : (Proc.devRef .tc main_v14_1 : DevRef τ sig) ≠ Proc.devRef .tc main_v14_2),
    Function.update_self]
  show W2 m c (Proc.devRef .tc main_v14_1) = _
  unfold W2; exact Pipeline.withArrays_arr spec0 launch0.win.arr_inj c _ _ 8
theorem V2_v (c : Dev nD) : V2 m (outs m) c main_v14_2 = (dat0 (E1 m) c).arrAt 9 cfg0.N := by
  simp only [V2, Function.update_self]
  show W2 m c (Proc.devRef .tc main_v14_2) = _
  unfold W2; exact Pipeline.withArrays_arr spec0 launch0.win.arr_inj c _ _ 9

/-- Every array of the projection region at its exit contents. -/
theorem hF0 (c : Dev nD) (w : Fin cfg0.W) : (dat0 (E1 m) c).arrAt w cfg0.N = E2 m c (Pipeline.arrRef spec0 w) :=
  match w with
  | ⟨0, _⟩ => (((dat0 (E1 m) c).arrAt_in 0 rfl _).trans (A_eq0 (E1 m) c 0)).trans (V2_of m (outs m) c _ (by decide)).symm
  | ⟨1, _⟩ => (((dat0 (E1 m) c).arrAt_in 1 rfl _).trans (A_eq0 (E1 m) c 1)).trans (V2_of m (outs m) c _ (by decide)).symm
  | ⟨2, _⟩ => (((dat0 (E1 m) c).arrAt_in 2 rfl _).trans (A_eq0 (E1 m) c 2)).trans (V2_of m (outs m) c _ (by decide)).symm
  | ⟨3, _⟩ => (((dat0 (E1 m) c).arrAt_in 3 rfl _).trans (A_eq0 (E1 m) c 3)).trans (V2_of m (outs m) c _ (by decide)).symm
  | ⟨4, _⟩ => (((dat0 (E1 m) c).arrAt_in 4 rfl _).trans (A_eq0 (E1 m) c 4)).trans (V2_of m (outs m) c _ (by decide)).symm
  | ⟨5, _⟩ => (((dat0 (E1 m) c).arrAt_in 5 rfl _).trans (A_eq0 (E1 m) c 5)).trans (V2_of m (outs m) c _ (by decide)).symm
  | ⟨6, _⟩ => (((dat0 (E1 m) c).arrAt_in 6 rfl _).trans (A_eq0 (E1 m) c 6)).trans (V2_of m (outs m) c _ (by decide)).symm
  | ⟨7, _⟩ => (V2_q m c).symm
  | ⟨8, _⟩ => (V2_k m c).symm
  | ⟨9, _⟩ => (V2_v m c).symm

/-- Every other buffer as the region found it. -/
theorem hrest0 (c : Dev nD) : ∀ b, b ∉ Finset.univ.image (Pipeline.arrRef spec0) → E2 m c b = E1 m c b :=
  fun b hb => V2_of m (outs m) c b fun hmem => hb (by
    simp only [List.mem_cons, List.mem_singleton, List.not_mem_nil, or_false] at hmem
    rcases hmem with rfl | rfl | rfl
    · exact Finset.mem_image.mpr ⟨7, Finset.mem_univ _, rfl⟩
    · exact Finset.mem_image.mpr ⟨8, Finset.mem_univ _, rfl⟩
    · exact Finset.mem_image.mpr ⟨9, Finset.mem_univ _, rfl⟩)

/-- The attention region's output array after the region is what its grid points wrote back. -/
theorem V4_o (c : Dev nD) : V4 m (outs m) c main_v18 = (dat1 (E3 m) c).arrAt 3 cfg1.N := by
  simp only [V4, Function.update_self]
  show W4 m c (Proc.devRef .tc main_v18) = _
  unfold W4; exact Pipeline.withArrays_arr spec1 launch1.win.arr_inj c _ _ 3

theorem hF1 (c : Dev nD) (w : Fin cfg1.W) : (dat1 (E3 m) c).arrAt w cfg1.N = E4 m c (Pipeline.arrRef spec1 w) :=
  match w with
  | ⟨0, _⟩ => (((dat1 (E3 m) c).arrAt_in 0 rfl _).trans (A_eq1 (E3 m) c 0)).trans (V4_of m (outs m) c _ (by decide)).symm
  | ⟨1, _⟩ => (((dat1 (E3 m) c).arrAt_in 1 rfl _).trans (A_eq1 (E3 m) c 1)).trans (V4_of m (outs m) c _ (by decide)).symm
  | ⟨2, _⟩ => (((dat1 (E3 m) c).arrAt_in 2 rfl _).trans (A_eq1 (E3 m) c 2)).trans (V4_of m (outs m) c _ (by decide)).symm
  | ⟨3, _⟩ => (V4_o m c).symm

theorem hrest1 (c : Dev nD) : ∀ b, b ∉ Finset.univ.image (Pipeline.arrRef spec1) → E4 m c b = E3 m c b :=
  fun b hb => V4_of m (outs m) c b fun hmem => hb (by
    simp only [List.mem_cons, List.mem_singleton, List.not_mem_nil, or_false] at hmem
    subst hmem
    exact Finset.mem_image.mpr ⟨3, Finset.mem_univ _, rfl⟩)

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev L0 : GSem nD τ sig → Finset Unit := fun _ => ∅
abbrev lv0 : GSem nD τ sig → Unit → ℕ := fun _ _ => 0

/-- Beside the buffers, through every item: the core's generator register at some state, and the core owing nothing. -/
abbrev Rest (c : Dev nD) : sProp 𝕄 := iprop((∃ r, prngReg c r) ∗ ∃ W, owes (c : Thread nD τ) (0 : CellTallies nD τ sig Unit) W)

/-! ## The regions as segments -/

set_option backward.isDefEq.respectTransparency.types false in
/-- The projection region: entered from the buffers at `V1`, left at `V2`. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L0 lv0 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from the buffers at `V3`, left at `V4`. Its invariant is the class's before the first
    grid point and gives the class's back after the last: the accumulator's contents are forgotten at the exit. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L0 lv0 1 fun _ _ => rfl
  pre c := iprop(StableHlo.held (c : Thread nD τ) (Pipeline.ucRefs τ sig) (V3 m (outs m) c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    rw [V3_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (E3 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunMain.lean ====
/-
  The whole program's run: every weakly fair execution terminates, and at the end every buffer no pipeline stages holds
  the last of the arrays the items leave in it (the launch contents carried through the host operations and the two
  regions). The frame claim follows because no item writes an argument.
-/
import proofs.«138573_j83485574300331_2_alg».proof.Proof.Assembly

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the end the generator register joins the buffers and the core owes nothing. -/
theorem last_link (c : Dev nD) (P : sProp 𝕄) :
    (iprop(P ∗ Rest c) : sProp 𝕄) ⊢ iprop((P ∗ ∃ r, prngReg c r) ∗ ∃ W, owes (c : Thread nD τ) (0 : CellTallies nD τ sig Unit) W) := by
  iintro ⟨Hh, Hp, HO⟩
  isplitr [HO]
  · isplitl [Hh]; · iexact Hh
    iexact Hp
  · iexact HO

set_option backward.isDefEq.respectTransparency.types false in
/-- Every weakly fair execution of @main terminates, and every buffer no pipeline stages ends at the last valuation. -/
theorem run_main : θ_run defs (onTc (τ := τ) (main (F := F))) ⟨m, fun _ => 0, ρ⟩
    (fun r => ∀ c : Dev nD, ∀ b ∈ Pipeline.ucRefs τ sig, r.2.mem ((c : Thread nD τ).1, b) = V7 m (outs m) c b) := by
  refine Pipeline.θ_run_regions_kit_dev (pcfgs (F := F)) adm (pdats m) () cellOf_inj emb₁ defs₀ Variants.none L0 lv0 m ρ main
    (segs m (outs m) Variants.none L0 lv0 (fun _ => Rest) () (pdats m) (reg0 m) (reg1 m))
    (fun c Q => by
      rewrite [main_chain c, Seg.run_eq_chain,
        show (segs m (outs m) Variants.none L0 lv0 (fun _ => Rest) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (V7 m (outs m) c) ∗ ∃ r, prngReg c r))
    (hch := fun c => ⟨.rfl, .rfl, .rfl, .rfl, .rfl, .rfl, .rfl, last_link c _⟩)
    (hinit := ?_)
    (QY := fun c s => ∀ b ∈ Pipeline.ucRefs τ sig, s.mem ((c : Thread nD τ).1, b) = V7 m (outs m) c b)
    (hfin := fun c s' => ?_) (hQ := fun _ h => h)
  · refine Pipeline.initEach L0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => ((c : Thread nD τ).1, b)) (V7 m (outs m) c) s')
    isplitl [Hh] <;> iassumption

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c),
     (h c _ (mem_uc main_arg6 (by decide))).trans (V7_main_arg6 m (outs m) c),
     (h c _ (mem_uc main_arg7 (by decide))).trans (V7_main_arg7 m (outs m) c),
     (h c _ (mem_uc main_arg8 (by decide))).trans (V7_main_arg8 m (outs m) c)⟩) (run_main m ρ)

end Cert.KernelIdeal.Gen

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Region0Value.lean ====
/-
  What the projection region leaves in its three output arrays, at the extended reals.

  Grid point t takes rows 1024 t … 1024 t + 1023 of the input [32768, 768] and the whole of one transposed weight
  matrix and one bias row per output, and writes rows 1024 t … 1024 t + 1023 of each output. A change of float format
  is the identity on extended reals and a product into a zero accumulator is the plain sum, so the entry (r, e) of
  an output is  (∑ k, x (r, k) · W (k, e)) + b (0, e).  The 32 row blocks tile the 32768 rows, so each output array
  ends holding that function of the region-entry arrays, whole.
-/
import proofs.«138573_j83485574300331_2_alg».proof.Proof.Region0
import proofs.«138573_j83485574300331_2_alg».proof.Proof.LibPlainDot
import Idealize.ShloMosaic.Lib.Pipeline.Value
import Idealize.ShloMosaic.Lib.ValueIdx
import Idealize.ShloMosaic.Lib.Tactic

set_option maxRecDepth 16384

noncomputable section

namespace Cert.KernelIdeal.Proj

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

theorem hz : (![0, 0] : Fin 2 → Nat) = fun _ => 0 := funext fun a => by fin_cases a <;> rfl

/-! ## The body's arithmetic at a coordinate -/

/-- One projection block at (p, q): the row p of the input block against column q of the weight block, plus the
    bias row's entry q. -/
theorem projTerm_apply (x0 : FVec Ideal S1024x768 .f32) (w : FVec Ideal S768x768 .bf16) (b : FVec Ideal S1x768 .f32)
    (h1 : S1024x768.ShapeCasts S1024x768) (h2 : S768x768.ShapeCasts S768x768) (h3 : S1x768.ShapeCasts S1x768)
    (h4 : S1x768.Broadcasts S1024x768) (hb : FTy.bf16.bits < FTy.f32.bits) (p : Fin 1024) (q : Fin 768) :
    (truncf .bf16 (addf (matmul dot_S1024x768_S768x768_S1024x768_1_0_0_1_n_n none (truncf .bf16 (shapeCast S1024x768 x0 h1) hb)
        (shapeCast S768x768 w h2) (constant S1024x768 .f32 0x00000000#32)) (broadcastTo S1024x768 (shapeCast S1x768 b h3) h4)) hb
      : FVec Ideal S1024x768 .bf16) (ix2 p q)
      = (∑ k : Fin 768, x0 (ix2 p k) * w (ix2 k q)) + b (ix2 0 q) := by
  rw [shapeCast_self, shapeCast_self, shapeCast_self]
  show FloatOps.matmul dot_S1024x768_S768x768_S1024x768_1_0_0_1_n_n none (truncf .bf16 x0 hb) w (constant S1024x768 .f32 0x00000000#32) (ix2 p q)
      + broadcastTo S1024x768 b h4 (ix2 p q) = _
  rw [Cert.LibPlainDot.matmul_plain_apply dot_S1024x768_S768x768_S1024x768_1_0_0_1_n_n rfl rfl rfl rfl rfl rfl none _ _ p q,
    broadcastTo_apply b h4 (ix2 p q) (ix2 0 q) (fun a => by match a with | ⟨0, _⟩ => rfl | ⟨1, _⟩ => rfl)]
  rfl

theorem pay2_apply (x0 : FVec Ideal S1024x768 .f32) (w : FVec Ideal S768x768 .bf16) (b : FVec Ideal S1x768 .f32) (p : Fin 1024) (q : Fin 768) :
    k0_pay2 (F := Ideal) x0 w b (ix2 p q) = (∑ k : Fin 768, x0 (ix2 p k) * w (ix2 k q)) + b (ix2 0 q) :=
  projTerm_apply x0 w b _ _ _ _ _ p q
theorem pay3_apply (x0 : FVec Ideal S1024x768 .f32) (w : FVec Ideal S768x768 .bf16) (b : FVec Ideal S1x768 .f32) (p : Fin 1024) (q : Fin 768) :
    k0_pay3 (F := Ideal) x0 w b (ix2 p q) = (∑ k : Fin 768, x0 (ix2 p k) * w (ix2 k q)) + b (ix2 0 q) :=
  projTerm_apply x0 w b _ _ _ _ _ p q
theorem pay4_apply (x0 : FVec Ideal S1024x768 .f32) (w : FVec Ideal S768x768 .bf16) (b : FVec Ideal S1x768 .f32) (p : Fin 1024) (q : Fin 768) :
    k0_pay4 (F := Ideal) x0 w b (ix2 p q) = (∑ k : Fin 768, x0 (ix2 p k) * w (ix2 k q)) + b (ix2 0 q) :=
  projTerm_apply x0 w b _ _ _ _ _ p q

/-! ## The region-entry arrays and the windows' blocks -/

section Arrays
variable (V : (c : Dev nD) → (b : Ref sig .tc) → Buf (Elt Ideal) ((c : Thread nD τ).loc b))

/-- The printed index maps over the grid: the input and the three outputs are at row block `t`, the weights and
    the biases at the one block they have. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The input window's block at point `t` is rows 1024 t … 1024 t + 1023 of the input array. -/
theorem xblk_apply (c : Dev nD) (t : Fin cfg0.N) (p : Fin 1024) (k : Fin 768) (r : Fin 32768) (hr : r.val = 1024 * t.val + p.val) :
    (iblk0 V c 0 t : S1024x768.Idx → EReal) (ix2 p k) = (V c main_v13 : S32768x768.Idx → EReal) (ix2 r k) := by
  have hi := (idx_facts t).1
  unfold iblk0
  rw [View.read_apply]
  show V c main_v13 _ = V c main_v13 _
  congr 1
  funext a
  apply Fin.ext
  match a with
  | ⟨0, _⟩ => show win0_0.index t (0 : Fin 2) * 1024 + 1 * p.val = r.val; rw [hi.1, hr]; omega
  | ⟨1, _⟩ => show win0_0.index t (1 : Fin 2) * 768 + 1 * k.val = k.val; rw [hi.2]; omega

/-- Window 1's block at every point is its whole array. -/
theorem blk1_eq (c : Dev nD) (t : Fin cfg0.N) : (iblk0 V c 1 t : S768x768.Idx → EReal) = (V c main_v3 : S768x768.Idx → EReal) := by
  have hi := (idx_facts t).2.1
  funext y
  unfold iblk0
  rw [View.read_apply]
  show V c main_v3 _ = V c main_v3 _
  congr 1
  funext a
  apply Fin.ext
  match a with
  | ⟨0, _⟩ => show win0_1.index t (0 : Fin 2) * 768 + 1 * (y 0).val = (y 0).val; rw [hi.1]; omega
  | ⟨1, _⟩ => show win0_1.index t (1 : Fin 2) * 768 + 1 * (y 1).val = (y 1).val; rw [hi.2]; omega

/-- Window 2's block at every point is its whole array. -/
theorem blk2_eq (c : Dev nD) (t : Fin cfg0.N) : (iblk0 V c 2 t : S1x768.Idx → EReal) = (V c main_v10 : S1x768.Idx → EReal) := by
  have hi := (idx_facts t).2.2.1
  funext y
  unfold iblk0
  rw [View.read_apply]
  show V c main_v10 _ = V c main_v10 _
  congr 1
  funext a
  apply Fin.ext
  match a with
  | ⟨0, _⟩ => show win0_2.index t (0 : Fin 2) * 1 + 1 * (y 0).val = (y 0).val; rw [hi.1]; omega
  | ⟨1, _⟩ => show win0_2.index t (1 : Fin 2) * 768 + 1 * (y 1).val = (y 1).val; rw [hi.2]; omega

/-- Window 3's block at every point is its whole array. -/
theorem blk3_eq (c : Dev nD) (t : Fin cfg0.N) : (iblk0 V c 3 t : S768x768.Idx → EReal) = (V c main_v5 : S768x768.Idx → EReal) := by
  have hi := (idx_facts t).2.2.2.1
  funext y
  unfold iblk0
  rw [View.read_apply]
  show V c main_v5 _ = V c main_v5 _
  congr 1
  funext a
  apply Fin.ext
  match a with
  | ⟨0, _⟩ => show win0_3.index t (0 : Fin 2) * 768 + 1 * (y 0).val = (y 0).val; rw [hi.1]; omega
  | ⟨1, _⟩ => show win0_3.index t (1 : Fin 2) * 768 + 1 * (y 1).val = (y 1).val; rw [hi.2]; omega

/-- Window 4's block at every point is its whole array. -/
theorem blk4_eq (c : Dev nD) (t : Fin cfg0.N) : (iblk0 V c 4 t : S1x768.Idx → EReal) = (V c main_v11 : S1x768.Idx → EReal) := by
  have hi := (idx_facts t).2.2.2.2.1
  funext y
  unfold iblk0
  rw [View.read_apply]
  show V c main_v11 _ = V c main_v11 _
  congr 1
  funext a
  apply Fin.ext
  match a with
  | ⟨0, _⟩ => show win0_4.index t (0 : Fin 2) * 1 + 1 * (y 0).val = (y 0).val; rw [hi.1]; omega
  | ⟨1, _⟩ => show win0_4.index t (1 : Fin 2) * 768 + 1 * (y 1).val = (y 1).val; rw [hi.2]; omega

/-- Window 5's block at every point is its whole array. -/
theorem blk5_eq (c : Dev nD) (t : Fin cfg0.N) : (iblk0 V c 5 t : S768x768.Idx → EReal) = (V c main_v7 : S768x768.Idx → EReal) := by
  have hi := (idx_facts t).2.2.2.2.2.1
  funext y
  unfold iblk0
  rw [View.read_apply]
  show V c main_v7 _ = V c main_v7 _
  congr 1
  funext a
  apply Fin.ext
  match a with
  | ⟨0, _⟩ => show win0_5.index t (0 : Fin 2) * 768 + 1 * (y 0).val = (y 0).val; rw [hi.1]; omega
  | ⟨1, _⟩ => show win0_5.index t (1 : Fin 2) * 768 + 1 * (y 1).val = (y 1).val; rw [hi.2]; omega

/-- Window 6's block at every point is its whole array. -/
theorem blk6_eq (c : Dev nD) (t : Fin cfg0.N) : (iblk0 V c 6 t : S1x768.Idx → EReal) = (V c main_v12 : S1x768.Idx → EReal) := by
  have hi := (idx_facts t).2.2.2.2.2.2.1
  funext y
  unfold iblk0
  rw [View.read_apply]
  show V c main_v12 _ = V c main_v12 _
  congr 1
  funext a
  apply Fin.ext
  match a with
  | ⟨0, _⟩ => show win0_6.index t (0 : Fin 2) * 1 + 1 * (y 0).val = (y 0).val; rw [hi.1]; omega
  | ⟨1, _⟩ => show win0_6.index t (1 : Fin 2) * 768 + 1 * (y 1).val = (y 1).val; rw [hi.2]; omega

/-! ## The whole-array function -/

/-- Entry (r, e) of a projection of the whole input `x` against a transposed weight matrix `w` with bias row `b`. -/
def G (x : S32768x768.Idx → EReal) (w : S768x768.Idx → EReal) (b : S1x768.Idx → EReal) : S32768x768.Idx → EReal :=
  fun i => (∑ k : Fin 768, x (ix2 (n0 := 32768) (i 0) k) * w (ix2 k (n1 := 768) (i 1))) + b (ix2 (0 : Fin 1) (n1 := 768) (i 1))

/-- The same at explicit coordinates. -/
theorem G_apply (x : S32768x768.Idx → EReal) (w : S768x768.Idx → EReal) (b : S1x768.Idx → EReal) (r : Fin 32768) (e : Fin 768) :
    G x w b (ix2 r e) = (∑ k : Fin 768, x (ix2 r k) * w (ix2 k e)) + b (ix2 0 e) := rfl

/-! ## Output window 7 -/

/-- Element (p, q) of point `t`'s block of output 7 is element (1024 t + p, q) of the array. -/
theorem emb7 (t : Fin cfg0.N) (p : Fin 1024) (q : Fin 768) (r : Fin 32768) (hr : r.val = 1024 * t.val + p.val) :
    ((cfg0.win 7).blk t).view.emb (ix2 p q) = (ix2 r q : S32768x768.Idx) := by
  have hi := (idx_facts t).2.2.2.2.2.2.2.1
  funext a
  apply Fin.ext
  match a with
  | ⟨0, _⟩ => show win0_7.index t (0 : Fin 2) * 1024 + 1 * p.val = r.val; rw [hi.1, hr]; omega
  | ⟨1, _⟩ => show win0_7.index t (1 : Fin 2) * 768 + 1 * q.val = q.val; rw [hi.2]; omega

/-- What point `t` writes back to output 7 is block `t` of the projection of the region-entry arrays. -/
theorem flushed7_eq (c : Dev nD) (t : Fin cfg0.N) :
    (dat0 V c).flushed 7 t = ((cfg0.win 7).blk t).view.read (Elt Ideal) (G (V c main_v13) (V c main_v3) (V c main_v10)) := by
  show (cfg0.win 7).cut (grid0.coords t) ((dat0 V c).after 7 t) = _
  rw [after0_7]
  unfold out0_7
  rw [View.canon_unit_zero hz]
  simp only [View.ld_unit_zero (S := S1024x768) hz, View.ld_unit_zero (S := S768x768) hz, View.ld_unit_zero (S := S1x768) hz]
  funext j
  obtain ⟨p, q, rfl⟩ : ∃ (p : Fin 1024) (q : Fin 768), j = ix2 p q := ⟨j 0, j 1, eq_ix2 j⟩
  have hN : cfg0.N = 32 := N_0
  have ht : t.val < 32 := hN ▸ t.isLt
  rw [View.read_apply, emb7 t p q ⟨1024 * t.val + p.val, by have := p.isLt; omega⟩ rfl]
  refine (pay2_apply (iblk0 V c 0 t) (iblk0 V c 1 t) (iblk0 V c 2 t) p q).trans ?_
  rw [blk1_eq V c t, blk2_eq V c t]
  unfold G
  refine congrArg (· + _) (Finset.sum_congr rfl fun k _ => ?_)
  rw [xblk_apply V c t p k ⟨1024 * t.val + p.val, by have := p.isLt; omega⟩ rfl]

/-- An index of the array is in point `t`'s block iff each coordinate is in the block's range on its axis. -/
theorem mem_blk7 (t : Fin cfg0.N) (i : S32768x768.Idx) :
    i ∈ ((cfg0.win 7).blk t).view.set ↔ ∀ a : Fin 2, win0_7.index t a * S1024x768.size a ≤ (i a).val ∧ (i a).val < win0_7.index t a * S1024x768.size a + S1024x768.size a := by
  show i ∈ ((View.whole main_v14_0).slice (win0_7.rect t)).set ↔ _
  rw [View.set_slice_whole, Rect.mem_set_unit]
  exact Iff.rfl

/-- Row r lies in the block of point r / 1024: the 32 row blocks cover the array. -/
theorem cover7 (i : S32768x768.Idx) : ∃ t : Fin cfg0.N, (cfg0.win 7).flush t = true ∧ i ∈ ((cfg0.win 7).blk t).view.set := by
  have hi0 : (i 0).val < 32768 := (i 0).isLt
  have hi1 : (i 1).val < 768 := (i 1).isLt
  have hN : cfg0.N = 32 := N_0
  refine ⟨⟨(i 0).val / 1024, by rw [hN]; omega⟩, flush0_7 _, ?_⟩
  rw [mem_blk7]
  have hi := (idx_facts ⟨(i 0).val / 1024, by rw [hN]; omega⟩).2.2.2.2.2.2.2.1
  intro a
  match a with
  | ⟨0, _⟩ =>
    show win0_7.index _ (0 : Fin 2) * 1024 ≤ (i 0).val ∧ (i 0).val < win0_7.index _ (0 : Fin 2) * 1024 + 1024
    rw [hi.1]; show (i 0).val / 1024 * 1024 ≤ (i 0).val ∧ (i 0).val < (i 0).val / 1024 * 1024 + 1024; omega
  | ⟨1, _⟩ =>
    show win0_7.index _ (1 : Fin 2) * 768 ≤ (i 1).val ∧ (i 1).val < win0_7.index _ (1 : Fin 2) * 768 + 768
    rw [hi.2]; omega

/-- Output 7's array after the region: the projection of the region-entry arrays, whole. -/
theorem final0_7 (c : Dev nD) :
    (dat0 (F := Ideal) V c).arrAt 7 cfg0.N = G (V c main_v13) (V c main_v3) (V c main_v10) :=
  (dat0 V c).arrAt_eq_of_cover 7 _ (fun t _ => flushed7_eq V c t) cover7

/-! ## Output window 8 -/

/-- Element (p, q) of point `t`'s block of output 8 is element (1024 t + p, q) of the array. -/
theorem emb8 (t : Fin cfg0.N) (p : Fin 1024) (q : Fin 768) (r : Fin 32768) (hr : r.val = 1024 * t.val + p.val) :
    ((cfg0.win 8).blk t).view.emb (ix2 p q) = (ix2 r q : S32768x768.Idx) := by
  have hi := (idx_facts t).2.2.2.2.2.2.2.2.1
  funext a
  apply Fin.ext
  match a with
  | ⟨0, _⟩ => show win0_8.index t (0 : Fin 2) * 1024 + 1 * p.val = r.val; rw [hi.1, hr]; omega
  | ⟨1, _⟩ => show win0_8.index t (1 : Fin 2) * 768 + 1 * q.val = q.val; rw [hi.2]; omega

/-- What point `t` writes back to output 8 is block `t` of the projection of the region-entry arrays. -/
theorem flushed8_eq (c : Dev nD) (t : Fin cfg0.N) :
    (dat0 V c).flushed 8 t = ((cfg0.win 8).blk t).view.read (Elt Ideal) (G (V c main_v13) (V c main_v5) (V c main_v11)) := by
  show (cfg0.win 8).cut (grid0.coords t) ((dat0 V c).after 8 t) = _
  rw [after0_8]
  unfold out0_8
  rw [View.canon_unit_zero hz]
  simp only [View.ld_unit_zero (S := S1024x768) hz, View.ld_unit_zero (S := S768x768) hz, View.ld_unit_zero (S := S1x768) hz]
  funext j
  obtain ⟨p, q, rfl⟩ : ∃ (p : Fin 1024) (q : Fin 768), j = ix2 p q := ⟨j 0, j 1, eq_ix2 j⟩
  have hN : cfg0.N = 32 := N_0
  have ht : t.val < 32 := hN ▸ t.isLt
  rw [View.read_apply, emb8 t p q ⟨1024 * t.val + p.val, by have := p.isLt; omega⟩ rfl]
  refine (pay3_apply (iblk0 V c 0 t) (iblk0 V c 3 t) (iblk0 V c 4 t) p q).trans ?_
  rw [blk3_eq V c t, blk4_eq V c t]
  unfold G
  refine congrArg (· + _) (Finset.sum_congr rfl fun k _ => ?_)
  rw [xblk_apply V c t p k ⟨1024 * t.val + p.val, by have := p.isLt; omega⟩ rfl]

/-- An index of the array is in point `t`'s block iff each coordinate is in the block's range on its axis. -/
theorem mem_blk8 (t : Fin cfg0.N) (i : S32768x768.Idx) :
    i ∈ ((cfg0.win 8).blk t).view.set ↔ ∀ a : Fin 2, win0_8.index t a * S1024x768.size a ≤ (i a).val ∧ (i a).val < win0_8.index t a * S1024x768.size a + S1024x768.size a := by
  show i ∈ ((View.whole main_v14_1).slice (win0_8.rect t)).set ↔ _
  rw [View.set_slice_whole, Rect.mem_set_unit]
  exact Iff.rfl

/-- Row r lies in the block of point r / 1024: the 32 row blocks cover the array. -/
theorem cover8 (i : S32768x768.Idx) : ∃ t : Fin cfg0.N, (cfg0.win 8).flush t = true ∧ i ∈ ((cfg0.win 8).blk t).view.set := by
  have hi0 : (i 0).val < 32768 := (i 0).isLt
  have hi1 : (i 1).val < 768 := (i 1).isLt
  have hN : cfg0.N = 32 := N_0
  refine ⟨⟨(i 0).val / 1024, by rw [hN]; omega⟩, flush0_8 _, ?_⟩
  rw [mem_blk8]
  have hi := (idx_facts ⟨(i 0).val / 1024, by rw [hN]; omega⟩).2.2.2.2.2.2.2.2.1
  intro a
  match a with
  | ⟨0, _⟩ =>
    show win0_8.index _ (0 : Fin 2) * 1024 ≤ (i 0).val ∧ (i 0).val < win0_8.index _ (0 : Fin 2) * 1024 + 1024
    rw [hi.1]; show (i 0).val / 1024 * 1024 ≤ (i 0).val ∧ (i 0).val < (i 0).val / 1024 * 1024 + 1024; omega
  | ⟨1, _⟩ =>
    show win0_8.index _ (1 : Fin 2) * 768 ≤ (i 1).val ∧ (i 1).val < win0_8.index _ (1 : Fin 2) * 768 + 768
    rw [hi.2]; omega

/-- Output 8's array after the region: the projection of the region-entry arrays, whole. -/
theorem final0_8 (c : Dev nD) :
    (dat0 (F := Ideal) V c).arrAt 8 cfg0.N = G (V c main_v13) (V c main_v5) (V c main_v11) :=
  (dat0 V c).arrAt_eq_of_cover 8 _ (fun t _ => flushed8_eq V c t) cover8

/-! ## Output window 9 -/

/-- Element (p, q) of point `t`'s block of output 9 is element (1024 t + p, q) of the array. -/
theorem emb9 (t : Fin cfg0.N) (p : Fin 1024) (q : Fin 768) (r : Fin 32768) (hr : r.val = 1024 * t.val + p.val) :
    ((cfg0.win 9).blk t).view.emb (ix2 p q) = (ix2 r q : S32768x768.Idx) := by
  have hi := (idx_facts t).2.2.2.2.2.2.2.2.2
  funext a
  apply Fin.ext
  match a with
  | ⟨0, _⟩ => show win0_9.index t (0 : Fin 2) * 1024 + 1 * p.val = r.val; rw [hi.1, hr]; omega
  | ⟨1, _⟩ => show win0_9.index t (1 : Fin 2) * 768 + 1 * q.val = q.val; rw [hi.2]; omega

/-- What point `t` writes back to output 9 is block `t` of the projection of the region-entry arrays. -/
theorem flushed9_eq (c : Dev nD) (t : Fin cfg0.N) :
    (dat0 V c).flushed 9 t = ((cfg0.win 9).blk t).view.read (Elt Ideal) (G (V c main_v13) (V c main_v7) (V c main_v12)) := by
  show (cfg0.win 9).cut (grid0.coords t) ((dat0 V c).after 9 t) = _
  rw [after0_9]
  unfold out0_9
  rw [View.canon_unit_zero hz]
  simp only [View.ld_unit_zero (S := S1024x768) hz, View.ld_unit_zero (S := S768x768) hz, View.ld_unit_zero (S := S1x768) hz]
  funext j
  obtain ⟨p, q, rfl⟩ : ∃ (p : Fin 1024) (q : Fin 768), j = ix2 p q := ⟨j 0, j 1, eq_ix2 j⟩
  have hN : cfg0.N = 32 := N_0
  have ht : t.val < 32 := hN ▸ t.isLt
  rw [View.read_apply, emb9 t p q ⟨1024 * t.val + p.val, by have := p.isLt; omega⟩ rfl]
  refine (pay4_apply (iblk0 V c 0 t) (iblk0 V c 5 t) (iblk0 V c 6 t) p q).trans ?_
  rw [blk5_eq V c t, blk6_eq V c t]
  unfold G
  refine congrArg (· + _) (Finset.sum_congr rfl fun k _ => ?_)
  rw [xblk_apply V c t p k ⟨1024 * t.val + p.val, by have := p.isLt; omega⟩ rfl]

/-- An index of the array is in point `t`'s block iff each coordinate is in the block's range on its axis. -/
theorem mem_blk9 (t : Fin cfg0.N) (i : S32768x768.Idx) :
    i ∈ ((cfg0.win 9).blk t).view.set ↔ ∀ a : Fin 2, win0_9.index t a * S1024x768.size a ≤ (i a).val ∧ (i a).val < win0_9.index t a * S1024x768.size a + S1024x768.size a := by
  show i ∈ ((View.whole main_v14_2).slice (win0_9.rect t)).set ↔ _
  rw [View.set_slice_whole, Rect.mem_set_unit]
  exact Iff.rfl

/-- Row r lies in the block of point r / 1024: the 32 row blocks cover the array. -/
theorem cover9 (i : S32768x768.Idx) : ∃ t : Fin cfg0.N, (cfg0.win 9).flush t = true ∧ i ∈ ((cfg0.win 9).blk t).view.set := by
  have hi0 : (i 0).val < 32768 := (i 0).isLt
  have hi1 : (i 1).val < 768 := (i 1).isLt
  have hN : cfg0.N = 32 := N_0
  refine ⟨⟨(i 0).val / 1024, by rw [hN]; omega⟩, flush0_9 _, ?_⟩
  rw [mem_blk9]
  have hi := (idx_facts ⟨(i 0).val / 1024, by rw [hN]; omega⟩).2.2.2.2.2.2.2.2.2
  intro a
  match a with
  | ⟨0, _⟩ =>
    show win0_9.index _ (0 : Fin 2) * 1024 ≤ (i 0).val ∧ (i 0).val < win0_9.index _ (0 : Fin 2) * 1024 + 1024
    rw [hi.1]; show (i 0).val / 1024 * 1024 ≤ (i 0).val ∧ (i 0).val < (i 0).val / 1024 * 1024 + 1024; omega
  | ⟨1, _⟩ =>
    show win0_9.index _ (1 : Fin 2) * 768 ≤ (i 1).val ∧ (i 1).val < win0_9.index _ (1 : Fin 2) * 768 + 768
    rw [hi.2]; omega

/-- Output 9's array after the region: the projection of the region-entry arrays, whole. -/
theorem final0_9 (c : Dev nD) :
    (dat0 (F := Ideal) V c).arrAt 9 cfg0.N = G (V c main_v13) (V c main_v7) (V c main_v12) :=
  (dat0 V c).arrAt_eq_of_cover 9 _ (fun t _ => flushed9_eq V c t) cover9

end Arrays

end Cert.KernelIdeal.Proj

end
-- ==== Proof.Region1Pieces.lean ====
/-
  Region 1 (the attention kernel): each case's stores, read back, as the body's payloads of the point's three input
  blocks and of the accumulator before the point.
-/
import proofs.«138573_j83485574300331_2_alg».proof.Proof.Region1Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable {F : FTy → Type} [FloatOps F]
variable (V : (c : Dev nD) → (b : Ref sig .tc) → Buf (Elt F) ((c : Thread nD τ).loc b))

/-! ## What each case's stores leave, as payloads -/

/-- First stretch: the accumulation over the zero row. -/
theorem soutA_gen (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : cond1_0 i) (hc1 : ¬cond1_1 i) (x0 : Vec F S1x512x768 .bf16) (x1 : Vec F S1x2048x768 .bf16) (x2 : Vec F S1x2048x768 .bf16) :
    VS1_0.read (Elt F) (VS1_0.writes (Elt F) VS1_0.junk (kernelRun1_A c i arg2 harg2 arg3 harg3 arg4 harg4 arg5 harg5 arg6 harg6 hc0 hc1 x0 x1 x2).2.1) = k1_pay2 x0 x1 x2 (k1_pay1 (F := F)) := by
  rw [View.read_writes_eq_canon _ _ _ (scover1_A_0 c i arg2 harg2 arg3 harg3 arg4 harg4 arg5 harg5 arg6 harg6 hc0 hc1 x0 x1 x2)]
  unfold kernelRun1_A
  dsimp only
  try sl_unfold_words
  rw [View.canon_cons_unit_zero hz2, View.readCov_unit_zero (S := S1x768) _ hz2]
  simp only [View.readAt_eq_ld, harg2.read_unread, harg3.read_unread, harg4.read_unread, View.ld_unit_zero (S := S1x512x768) hz3, View.ld_unit_zero (S := S1x2048x768) hz3]

/-- Middle stretch: the accumulation over what the accumulator held. -/
theorem soutB_gen (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : ¬cond1_1 i) (x0 : Vec F S1x512x768 .bf16) (x1 : Vec F S1x2048x768 .bf16) (x2 : Vec F S1x2048x768 .bf16) (xs : Vec F S1x768 .f32) :
    VS1_0.read (Elt F) (VS1_0.writes (Elt F) VS1_0.junk (kernelRun1_B c i arg2 harg2 arg3 harg3 arg4 harg4 arg5 harg5 arg6 harg6 hc0 hc1 x0 x1 x2 xs).2.1) = k1_pay2 x0 x1 x2 xs := by
  rw [View.read_writes_eq_canon _ _ _ (scover1_B_0 c i arg2 harg2 arg3 harg3 arg4 harg4 arg5 harg5 arg6 harg6 hc0 hc1 x0 x1 x2 xs)]
  unfold kernelRun1_B
  dsimp only
  try sl_unfold_words
  rw [View.canon_unit_zero hz2]
  simp only [View.readAt_eq_ld, harg2.read_unread, harg3.read_unread, harg4.read_unread, View.ld_unit_zero (S := S1x512x768) hz3, View.ld_unit_zero (S := S1x2048x768) hz3, harg6.read_unread, View.ld_unit_zero (S := S1x768) hz2]

/-- Last stretch, the accumulator: the same. -/
theorem soutC_gen (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : cond1_1 i) (x0 : Vec F S1x512x768 .bf16) (x1 : Vec F S1x2048x768 .bf16) (x2 : Vec F S1x2048x768 .bf16) (xs : Vec F S1x768 .f32) :
    VS1_0.read (Elt F) (VS1_0.writes (Elt F) VS1_0.junk (kernelRun1_C c i arg2 harg2 arg3 harg3 arg4 harg4 arg5 harg5 arg6 harg6 hc0 hc1 x0 x1 x2 xs).2.1) = k1_pay2 x0 x1 x2 xs := by
  rw [View.read_writes_eq_canon _ _ _ (scover1_C_0 c i arg2 harg2 arg3 harg3 arg4 harg4 arg5 harg5 arg6 harg6 hc0 hc1 x0 x1 x2 xs)]
  unfold kernelRun1_C
  dsimp only
  try sl_unfold_words
  rw [View.canon_unit_zero hz2]
  simp only [View.readAt_eq_ld, harg2.read_unread, harg3.read_unread, harg4.read_unread, View.ld_unit_zero (S := S1x512x768) hz3, View.ld_unit_zero (S := S1x2048x768) hz3, harg6.read_unread, View.ld_unit_zero (S := S1x768) hz2]

/-- Last stretch, the output block: the output row of the new accumulator. -/
theorem outC_gen (c : Dev nD) (i : grid1.Coords) (arg2 : Memref sig .tc .vmem S1x512x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S1x1x768 .f32) (harg5 : arg5.IsWhole) (arg6 : Memref sig .tc .vmem S1x768 .f32) (harg6 : arg6.IsWhole) (hc0 : ¬cond1_0 i) (hc1 : cond1_1 i) (x0 : Vec F S1x512x768 .bf16) (x1 : Vec F S1x2048x768 .bf16) (x2 : Vec F S1x2048x768 .bf16) (xs : Vec F S1x768 .f32) :
    VO1_3.read (Elt F) (VO1_3.writes (Elt F) VO1_3.junk (kernelRun1_C c i arg2 harg2 arg3 harg3 arg4 harg4 arg5 harg5 arg6 harg6 hc0 hc1 x0 x1 x2 xs).1) = k1_pay3 (k1_pay2 x0 x1 x2 xs) := by
  rw [View.read_writes_eq_canon _ _ _ (cover1_C_3 c i arg2 harg2 arg3 harg3 arg4 harg4 arg5 harg5 arg6 harg6 hc0 hc1 x0 x1 x2 xs)]
  unfold kernelRun1_C
  dsimp only
  try sl_unfold_words
  rw [View.canon_unit_zero hz3, View.readCov_unit_zero (S := S1x768) _ hz2]
  simp only [View.readAt_eq_ld, harg2.read_unread, harg3.read_unread, harg4.read_unread, View.ld_unit_zero (S := S1x512x768) hz3, View.ld_unit_zero (S := S1x2048x768) hz3, harg6.read_unread, View.ld_unit_zero (S := S1x768) hz2]

theorem soutA_eq (c : Dev nD) (t : Fin cfg1.N) (h0 : t.val % 4 = 0) :
    sout1_A_0 V c t h0 = k1_pay2 (iblk1 V c 0 t) (iblk1 V c 1 t) (iblk1 V c 2 t) (k1_pay1 (F := F)) := by
  unfold sout1_A_0
  exact soutA_gen c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t)

theorem soutB_eq (c : Dev nD) (t : Fin cfg1.N) (h0 : ¬t.val % 4 = 0) (h1 : ¬t.val % 4 = 3) (xs : Vec F S1x768 .f32) :
    sout1_B_0 V c t h0 h1 xs = k1_pay2 (iblk1 V c 0 t) (iblk1 V c 1 t) (iblk1 V c 2 t) xs := by
  unfold sout1_B_0
  exact soutB_gen c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) xs

theorem soutC_eq (c : Dev nD) (t : Fin cfg1.N) (h0 : ¬t.val % 4 = 0) (h1 : t.val % 4 = 3) (xs : Vec F S1x768 .f32) :
    sout1_C_0 V c t h0 h1 xs = k1_pay2 (iblk1 V c 0 t) (iblk1 V c 1 t) (iblk1 V c 2 t) xs := by
  unfold sout1_C_0
  exact soutC_gen c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) xs

theorem outC_eq (c : Dev nD) (t : Fin cfg1.N) (h0 : ¬t.val % 4 = 0) (h1 : t.val % 4 = 3) (xs : Vec F S1x768 .f32) :
    out1_C_3 V c t h0 h1 xs = k1_pay3 (k1_pay2 (iblk1 V c 0 t) (iblk1 V c 1 t) (iblk1 V c 2 t) xs) := by
  unfold out1_C_3
  exact outC_gen c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) xs

/-- The accumulation at two positions that are the same number. -/
theorem outsAt1_congr (c : Dev nD) (a b : ℕ) (ha : a < cfg1.N) (hb : b < cfg1.N) (e : a = b) :
    outsAt1 V c a ha = outsAt1 V c b hb := by subst e; rfl

end Pieces

end Cert.KernelIdeal.Gen

end
-- ==== Proof.Spec.lean ====
/-
  The mathematics of the two programs, stated once, over plain coordinates.

  Both programs compute, for a batch of 16 sequences of 2048 tokens with 768 features, three affine projections
  Q, K, V of the input, a sigmoid attention weight for every pair (query token, key token), the weighted
  average of V over key tokens, and then the mean over the query tokens.

  The reference forms the score of a pair as the inner product of the two projections times a fixed scale, the
  weight as 1 / (1 + exp (-score)), sums weight · V over the keys for every query, sums over the queries and divides
  by 2048.

  The kernel multiplies the query weights and the query bias by the same scale beforehand, forms the weight as
  (1/2) · (tanh (score / 2) + 1), sums the weights over a stretch of 512 queries FIRST, multiplies that row of 2048
  sums with V, adds the four stretches' results one after the other, and multiplies by 1/2048.

  Everything is an extended real; the float literals are kept as the words the programs print.
-/
import Idealize.ShloMosaic.PureOps.Ideal
import Mathlib

noncomputable section

namespace Cert.Attn

open Idealize.ShloMosaic

/-- A rank-3 array [16, 2048, 768] by coordinates. -/
abbrev Arr3 : Type := Fin 16 → Fin 2048 → Fin 768 → EReal
/-- A weight matrix [768, 768] by coordinates. -/
abbrev Mat : Type := Fin 768 → Fin 768 → EReal
/-- A bias vector [768]. -/
abbrev Vec1 : Type := Fin 768 → EReal
/-- A [16, 768] array by coordinates. -/
abbrev Arr2 : Type := Fin 16 → Fin 768 → EReal

/-- The attention scale as printed: the f32 word nearest 1/sqrt 768. -/
def scale : EReal := Ideal.ofBits .f32 0x3D13CD3A#32
/-- The word of 1/2. -/
def half : EReal := Ideal.ofBits .f32 0x3F000000#32
/-- The word of 1. -/
def one : EReal := Ideal.ofBits .f32 0x3F800000#32
/-- The word of 1/2048. -/
def invT : EReal := Ideal.ofBits .f32 0x3A000000#32
/-- The word of 2048. -/
def bigT : EReal := Ideal.ofBits .f32 0x45000000#32

/-! ## The reference -/

/-- A projection: token `t` of sequence `n`, output feature `e`: the row of `x` against row `e` of `W`, plus the bias. -/
def projR (x : Arr3) (W : Mat) (b : Vec1) : Arr3 := fun n t e => (∑ c : Fin 768, x n t c * W e c) + b e

/-- The score of query `q` against key `k`: the inner product times the scale. -/
def scoreR (Q K : Arr3) (n : Fin 16) (q k : Fin 2048) : EReal := (∑ e : Fin 768, Q n q e * K n k e) * scale

/-- The sigmoid as the reference spells it. -/
def sigR (z : EReal) : EReal := Ideal.div one (one + Ideal.exp (-z))

/-- The attended value of query `q`, feature `d`. -/
def attR (Q K V : Arr3) : Arr3 := fun n q d => ∑ k : Fin 2048, sigR (scoreR Q K n q k) * V n k d

/-- The mean over the queries. -/
def outR (Q K V : Arr3) : Arr2 := fun n d => Ideal.div (∑ q : Fin 2048, attR Q K V n q d) bigT

/-- The reference's array before the normalization over the batch. -/
def refOut (x : Arr3) (Wq : Mat) (bq : Vec1) (Wk : Mat) (bk : Vec1) (Wv : Mat) (bv : Vec1) : Arr2 :=
  outR (projR x Wq bq) (projR x Wk bk) (projR x Wv bv)

/-! ## The kernel -/

/-- A projection against an already transposed weight matrix `Wt c e`. -/
def projK (x : Arr3) (Wt : Mat) (b : Vec1) : Arr3 := fun n t e => (∑ c : Fin 768, x n t c * Wt c e) + b e

/-- The score without a scale (the scale sits in the query projection). -/
def scoreK (Q K : Arr3) (n : Fin 16) (q k : Fin 2048) : EReal := ∑ e : Fin 768, Q n q e * K n k e

/-- The sigmoid as the kernel spells it. -/
def sigK (z : EReal) : EReal := half * (Ideal.tanh (half * z) + one)

/-- Query `q` of stretch `j` (four stretches of 512 queries). -/
def qAt (j : Fin 4) (q : Fin 512) : Fin 2048 := ⟨j.val * 512 + q.val, by omega⟩

/-- The weights of key `k` summed over the 512 queries of stretch `j`. -/
def rowK (Q K : Arr3) (n : Fin 16) (j : Fin 4) (k : Fin 2048) : EReal :=
  ∑ q : Fin 512, sigK (scoreK Q K n (qAt j q) k)

/-- Stretch `j`'s contribution to feature `d`. -/
def accK (Q K V : Arr3) (n : Fin 16) (j : Fin 4) (d : Fin 768) : EReal :=
  ∑ k : Fin 2048, rowK Q K n j k * V n k d

/-- The four stretches added in order, times 1/2048. -/
def outK (Q K V : Arr3) : Arr2 := fun n d =>
  (accK Q K V n 0 d + accK Q K V n 1 d + accK Q K V n 2 d + accK Q K V n 3 d) * invT

/-- The kernel's array before the normalization over the batch: the query weights and bias carry the scale. -/
def kerOut (x : Arr3) (Wq : Mat) (bq : Vec1) (Wk : Mat) (bk : Vec1) (Wv : Mat) (bv : Vec1) : Arr2 :=
  outK (projK x (fun c e => Wq e c * scale) (fun e => bq e * scale))
       (projK x (fun c e => Wk e c) bk)
       (projK x (fun c e => Wv e c) bv)

end Cert.Attn

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.Region1Pay.lean ====
/-
  Region 1 (the attention kernel): the body's three stored values read at an entry, over the extended reals.

  The zero row reads 0. The accumulation reads, at feature d, what the accumulator held there plus the sum over the
  2048 keys of (the sum over the stretch's 512 queries of the weight of the pair) times V's entry; the weight of a pair
  is 1/2 · (tanh (score / 2) + 1) of the inner product of the query's and the key's rows. The output row reads the
  accumulator's entry times the word of 1/2048.
-/
import proofs.«138573_j83485574300331_2_alg».proof.Proof.Gen.KernelIdeal.Skeleton
import proofs.«138573_j83485574300331_2_alg».proof.Proof.Spec
import proofs.«138573_j83485574300331_2_alg».proof.Proof.LibDotT
import proofs.«138573_j83485574300331_2_alg».proof.Proof.LibPlainDot
import proofs.«138573_j83485574300331_2_alg».proof.Proof.LibCols
import Idealize.ShloMosaic.Lib.Pipeline.Value
import Idealize.ShloMosaic.Lib.ValueIdx

noncomputable section

open scoped BigOperators

namespace Cert.KernelIdeal.Gen

open Idealize.ShloMosaic Idealize.ShloMosaic.ValueIdx Idealize.SL.Sem

/-- The first product's dimension record: one contracted axis of 768 entries, the last of both operands. -/
theorem dotA_rank : dot_S512x768_S2048x768_S512x2048_1_1_0_0_n_n.contr.rank = 1 := by
  rw [DotDims.rank_contr]; rfl

theorem dotA_size : dot_S512x768_S2048x768_S512x2048_1_1_0_0_n_n.contr.size ⟨0, by rw [dotA_rank]; exact Nat.one_pos⟩ = 768 := by
  rw [DotDims.size_contr _ 0 (by exact Nat.one_pos)]
  rfl

/-- The left operand's row is the result's row. -/
theorem dotA_l0 (j : S512x2048.Idx) (k : dot_S512x768_S2048x768_S512x2048_1_1_0_0_n_n.contr.Idx) :
    (dot_S512x768_S2048x768_S512x2048_1_1_0_0_n_n.lhsIdx j k 0).val = (j 0).val := by
  have hb : (0 : Fin 2) ∉ dot_S512x768_S2048x768_S512x2048_1_1_0_0_n_n.lhsBatch := List.not_mem_nil
  have hn : (0 : Fin 2) ∈ dot_S512x768_S2048x768_S512x2048_1_1_0_0_n_n.lhsNonContracting := List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [dot_S512x768_S2048x768_S512x2048_1_1_0_0_n_n])

/-- The right operand's row is the result's column. -/
theorem dotA_r0 (j : S512x2048.Idx) (k : dot_S512x768_S2048x768_S512x2048_1_1_0_0_n_n.contr.Idx) :
    (dot_S512x768_S2048x768_S512x2048_1_1_0_0_n_n.rhsIdx j k 0).val = (j 1).val := by
  have hb : (0 : Fin 2) ∉ dot_S512x768_S2048x768_S512x2048_1_1_0_0_n_n.rhsBatch := List.not_mem_nil
  have hn : (0 : Fin 2) ∈ dot_S512x768_S2048x768_S512x2048_1_1_0_0_n_n.rhsNonContracting := List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [dot_S512x768_S2048x768_S512x2048_1_1_0_0_n_n])

/-- A [1, a, b] block viewed as [a, b] reads (0, p, q) at (p, q). -/
theorem dropLead_apply {a b : ℕ} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) := by
  refine shapeCast_apply v h (ix2 p q) (ix3 0 p q) ?_
  rw [Shape.rowMajor_val_three, Shape.rowMajor_val_two]
  show ((0 : ℕ) * a + p.val) * b + q.val = p.val * b + q.val
  rw [Nat.zero_mul, Nat.zero_add]

/-- The zero row reads 0. -/
theorem pay1_apply (d : Fin 768) : (k1_pay1 (F := Ideal)) (ix2 0 d) = 0 := by
  unfold k1_pay1
  refine (congrFun (shapeCast_self _ _) _).trans ?_
  exact Ideal.ofBits_zero_f32

/-- The output row reads the accumulator's entry times the word of 1/2048. -/
theorem pay3_apply (v : Vec Ideal S1x768 .f32) (d : Fin 768) :
    k1_pay3 (F := Ideal) v (ix3 0 0 d) = v (ix2 0 d) * Cert.Attn.invT := by
  unfold k1_pay3
  refine (shapeCast_apply _ _ (ix3 (0 : Fin 1) (0 : Fin 1) d) (ix2 (0 : Fin 1) d) ?_).trans rfl
  rw [Shape.rowMajor_val_three, Shape.rowMajor_val_two]
  rfl

/-- The accumulation reads the old entry plus the stretch's contribution. -/
theorem pay2_apply (x0 : Vec Ideal S1x512x768 .bf16) (x1 x2 : Vec Ideal S1x2048x768 .bf16) (xs : Vec Ideal S1x768 .f32) (d : Fin 768) :
    k1_pay2 (F := Ideal) x0 x1 x2 xs (ix2 0 d)
      = xs (ix2 0 d) + ∑ k : Fin 2048, (∑ q : Fin 512, Cert.Attn.sigK (∑ e : Fin 768, x0 (ix3 0 q e) * x1 (ix3 0 k e))) * x2 (ix3 0 k d) := by
  unfold k1_pay2
  refine (congrFun (shapeCast_self _ _) _).trans ?_
  refine congrArg (xs (ix2 0 d) + ·) ?_
  refine (Cert.LibPlainDot.matmul_plain_apply dot_S1x2048_S2048x768_S1x768_1_0_0_1_n_n rfl rfl rfl rfl rfl rfl none _ _ 0 d).trans ?_
  refine Finset.sum_congr rfl fun k _ => ?_
  refine congrArg₂ (· * ·) ?_ (dropLead_apply x2 _ k d)
  refine (truncf_apply (ψ := .bf16) _ bitsLt_bf16_f32 (ix2 (0 : Fin 1) k)).trans ?_
  refine (shapeCast_apply _ _ (ix2 (0 : Fin 1) k) (ix1 k) ?_).trans ?_
  · rw [Shape.rowMajor_val_one, Shape.rowMajor_val_two]
    show k.val = (0 : ℕ) * 2048 + k.val
    rw [Nat.zero_mul, Nat.zero_add]
  refine (colSum_apply _ _ _ _ _ k).trans ?_
  refine Finset.sum_congr rfl fun q _ => ?_
  show Cert.Attn.sigK (matmul (F := Ideal) dot_S512x768_S2048x768_S512x2048_1_1_0_0_n_n none _ _ _ (ix2 q k) : EReal) = Cert.Attn.sigK _
  refine congrArg Cert.Attn.sigK ?_
  refine (Cert.LibDotT.matmulT_zero_apply dot_S512x768_S2048x768_S512x2048_1_1_0_0_n_n rfl rfl dotA_rank dotA_size dotA_l0 dotA_r0 none _ _ q k).trans ?_
  exact Finset.sum_congr rfl fun e _ => congrArg₂ (· * ·) (dropLead_apply x0 _ q e) (dropLead_apply x1 _ k e)

end Cert.KernelIdeal.Gen

end
-- ==== Proof.Region1Value.lean ====
/-
  Region 1 (the attention kernel): what the output array holds after the region, over the extended reals.

  Each case's stores, read back, are the body's payloads of the point's three input blocks and of the accumulator
  before the point. A sequence's first stretch zeroes the accumulator and adds its contribution (0 + a₀ = a₀), every
  later stretch adds its own, so after the last stretch the accumulator holds a₀ + a₁ + a₂ + a₃, and the output block
  holds that times the word of 1/2048. The input blocks are read as entries of the three arrays; the output array's
  sixteen blocks, one per sequence, cover it.
-/
import proofs.«138573_j83485574300331_2_alg».proof.Proof.Region1Pieces
import proofs.«138573_j83485574300331_2_alg».proof.Proof.Region1Pay
import Idealize.ShloMosaic.Lib.Pipeline.Value
import Idealize.ShloMosaic.Lib.Tactic

set_option maxRecDepth 16384

noncomputable section

open scoped BigOperators

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

/-! ## Where a point's blocks sit in their arrays -/

theorem idx1_0 : ∀ t : Fin cfg1.N, win1_0.index t 0 = t.val / 4 ∧ win1_0.index t 1 = t.val % 4 ∧ win1_0.index t 2 = 0 :=
  (by decide +kernel : ∀ t : Fin grid1.N, win1_0.index t 0 = t.val / 4 ∧ win1_0.index t 1 = t.val % 4 ∧ win1_0.index t 2 = 0)
theorem idx1_1 : ∀ t : Fin cfg1.N, win1_1.index t 0 = t.val / 4 ∧ win1_1.index t 1 = 0 ∧ win1_1.index t 2 = 0 :=
  (by decide +kernel : ∀ t : Fin grid1.N, win1_1.index t 0 = t.val / 4 ∧ win1_1.index t 1 = 0 ∧ win1_1.index t 2 = 0)
theorem idx1_2 : ∀ t : Fin cfg1.N, win1_2.index t 0 = t.val / 4 ∧ win1_2.index t 1 = 0 ∧ win1_2.index t 2 = 0 :=
  (by decide +kernel : ∀ t : Fin grid1.N, win1_2.index t 0 = t.val / 4 ∧ win1_2.index t 1 = 0 ∧ win1_2.index t 2 = 0)
theorem idx1_3 : ∀ t : Fin cfg1.N, win1_3.index t 0 = t.val / 4 ∧ win1_3.index t 1 = 0 ∧ win1_3.index t 2 = 0 :=
  (by decide +kernel : ∀ t : Fin grid1.N, win1_3.index t 0 = t.val / 4 ∧ win1_3.index t 1 = 0 ∧ win1_3.index t 2 = 0)
theorem xs1_3 : ∀ t : Fin cfg1.N, win1_3.xsize (grid1.coords t) 0 = 1 ∧ win1_3.xsize (grid1.coords t) 1 = 1 ∧ win1_3.xsize (grid1.coords t) 2 = 768 :=
  (by decide +kernel : ∀ t : Fin grid1.N, win1_3.xsize (grid1.coords t) 0 = 1 ∧ win1_3.xsize (grid1.coords t) 1 = 1 ∧ win1_3.xsize (grid1.coords t) 2 = 768)

section AtIdeal

variable (V : (c : Dev nD) → (b : Ref sig .tc) → Buf (Elt Ideal) ((c : Thread nD τ).loc b))

/-- The three projected arrays as the region finds them, by coordinates. -/
abbrev Qa (c : Dev nD) : Cert.Attn.Arr3 := fun n t e => (V c main_v15 : S16x2048x768.Idx → EReal) (ix3 n t e)
abbrev Ka (c : Dev nD) : Cert.Attn.Arr3 := fun n t e => (V c main_v16 : S16x2048x768.Idx → EReal) (ix3 n t e)
abbrev Va (c : Dev nD) : Cert.Attn.Arr3 := fun n t e => (V c main_v17 : S16x2048x768.Idx → EReal) (ix3 n t e)

/-- The query block at point 4 n + j is the j-th stretch of 512 rows of sequence n. -/
theorem iblkQ_apply (c : Dev nD) (t : Fin cfg1.N) (n : Fin 16) (j : Fin 4) (ht : t.val = 4 * n.val + j.val) (q : Fin 512) (e : Fin 768) :
    (iblk1 V c 0 t : Vec Ideal S1x512x768 .bf16) (ix3 0 q e) = Qa V c n (Cert.Attn.qAt j q) e := by
  obtain ⟨i0, i1, i2⟩ := idx1_0 t
  have hj := j.isLt
  unfold iblk1
  rw [View.read_apply]
  show V c main_v15 _ = V c main_v15 _
  congr 1
  funext a
  apply Fin.ext
  match a with
  | ⟨0, _⟩ => show win1_0.index t 0 * 1 + 1 * (0 : ℕ) = n.val; rw [i0, ht]; omega
  | ⟨1, _⟩ => show win1_0.index t 1 * 512 + 1 * q.val = j.val * 512 + q.val; rw [i1, ht]; omega
  | ⟨2, _⟩ => show win1_0.index t 2 * 768 + 1 * e.val = e.val; rw [i2]; omega

/-- The key block at a point of sequence n is all of sequence n. -/
theorem iblkK_apply (c : Dev nD) (t : Fin cfg1.N) (n : Fin 16) (j : Fin 4) (ht : t.val = 4 * n.val + j.val) (k : Fin 2048) (e : Fin 768) :
    (iblk1 V c 1 t : Vec Ideal S1x2048x768 .bf16) (ix3 0 k e) = Ka V c n k e := by
  obtain ⟨i0, i1, i2⟩ := idx1_1 t
  have hj := j.isLt
  unfold iblk1
  rw [View.read_apply]
  show V c main_v16 _ = V c main_v16 _
  congr 1
  funext a
  apply Fin.ext
  match a with
  | ⟨0, _⟩ => show win1_1.index t 0 * 1 + 1 * (0 : ℕ) = n.val; rw [i0, ht]; omega
  | ⟨1, _⟩ => show win1_1.index t 1 * 2048 + 1 * k.val = k.val; rw [i1]; omega
  | ⟨2, _⟩ => show win1_1.index t 2 * 768 + 1 * e.val = e.val; rw [i2]; omega

/-- So is the value block. -/
theorem iblkV_apply (c : Dev nD) (t : Fin cfg1.N) (n : Fin 16) (j : Fin 4) (ht : t.val = 4 * n.val + j.val) (k : Fin 2048) (e : Fin 768) :
    (iblk1 V c 2 t : Vec Ideal S1x2048x768 .bf16) (ix3 0 k e) = Va V c n k e := by
  obtain ⟨i0, i1, i2⟩ := idx1_2 t
  have hj := j.isLt
  unfold iblk1
  rw [View.read_apply]
  show V c main_v17 _ = V c main_v17 _
  congr 1
  funext a
  apply Fin.ext
  match a with
  | ⟨0, _⟩ => show win1_2.index t 0 * 1 + 1 * (0 : ℕ) = n.val; rw [i0, ht]; omega
  | ⟨1, _⟩ => show win1_2.index t 1 * 2048 + 1 * k.val = k.val; rw [i1]; omega
  | ⟨2, _⟩ => show win1_2.index t 2 * 768 + 1 * e.val = e.val; rw [i2]; omega

/-- A point's contribution is the specification's, for blocks that read as the arrays' entries. -/
theorem contrib_eq (Q K W : Cert.Attn.Arr3) (n : Fin 16) (j : Fin 4)
    (x0 : Vec Ideal S1x512x768 .bf16) (x1 x2 : Vec Ideal S1x2048x768 .bf16)
    (h0 : ∀ q e, x0 (ix3 0 q e) = Q n (Cert.Attn.qAt j q) e) (h1 : ∀ k e, x1 (ix3 0 k e) = K n k e)
    (h2 : ∀ k e, x2 (ix3 0 k e) = W n k e) (d : Fin 768) :
    (∑ k : Fin 2048, (∑ q : Fin 512, Cert.Attn.sigK (∑ e : Fin 768, x0 (ix3 0 q e) * x1 (ix3 0 k e))) * x2 (ix3 0 k d))
      = Cert.Attn.accK Q K W n j d := by
  unfold Cert.Attn.accK Cert.Attn.rowK Cert.Attn.scoreK
  exact Finset.sum_congr rfl fun k _ => congrArg₂ (· * ·)
    (Finset.sum_congr rfl fun q _ => congrArg Cert.Attn.sigK
      (Finset.sum_congr rfl fun e _ => congrArg₂ (· * ·) (h0 q e) (h1 k e)))
    (h2 k d)

/-! ## The accumulation's components as payloads -/

theorem snd_pair {α β : Type} (a : α) (b : β) : (a, b).2 = b := rfl
theorem fst_pair {α β : Type} (a : α) (b : β) : (a, b).1 = a := rfl

theorem snd_A (c : Dev nD) (t : Fin cfg1.N) (h0 : t.val % 4 = 0) :
    (outsAt1 V c t.val t.isLt).2 = k1_pay2 (iblk1 V c 0 t) (iblk1 V c 1 t) (iblk1 V c 2 t) (k1_pay1 (F := Ideal)) :=
  (congrArg Prod.snd (outsAt1_A V c t h0)).trans ((snd_pair _ _).trans (soutA_eq V c t h0))

theorem snd_B (c : Dev nD) (t : Fin cfg1.N) (h0 : ¬t.val % 4 = 0) (h1 : ¬t.val % 4 = 3) :
    (outsAt1 V c t.val t.isLt).2 = k1_pay2 (iblk1 V c 0 t) (iblk1 V c 1 t) (iblk1 V c 2 t) (outsAt1 V c (t.val - 1) (Nat.lt_of_le_of_lt (Nat.sub_le _ _) t.isLt)).2 :=
  (congrArg Prod.snd (outsAt1_B V c t h0 h1)).trans ((snd_pair _ _).trans (soutB_eq V c t h0 h1 _))

theorem snd_C (c : Dev nD) (t : Fin cfg1.N) (h0 : ¬t.val % 4 = 0) (h1 : t.val % 4 = 3) :
    (outsAt1 V c t.val t.isLt).2 = k1_pay2 (iblk1 V c 0 t) (iblk1 V c 1 t) (iblk1 V c 2 t) (outsAt1 V c (t.val - 1) (Nat.lt_of_le_of_lt (Nat.sub_le _ _) t.isLt)).2 :=
  (congrArg Prod.snd (outsAt1_C V c t h0 h1)).trans ((snd_pair _ _).trans (soutC_eq V c t h0 h1 _))

theorem fst_C (c : Dev nD) (t : Fin cfg1.N) (h0 : ¬t.val % 4 = 0) (h1 : t.val % 4 = 3) :
    (outsAt1 V c t.val t.isLt).1 = k1_pay3 (k1_pay2 (iblk1 V c 0 t) (iblk1 V c 1 t) (iblk1 V c 2 t) (outsAt1 V c (t.val - 1) (Nat.lt_of_le_of_lt (Nat.sub_le _ _) t.isLt)).2) :=
  (congrArg Prod.fst (outsAt1_C V c t h0 h1)).trans ((fst_pair _ _).trans (outC_eq V c t h0 h1 _))

/-! ## The accumulator through a sequence's four stretches -/

/-- After a first stretch: its contribution (the zero row plus it). -/
theorem acc_first (c : Dev nD) (t : Fin cfg1.N) (n : Fin 16) (ht : t.val = 4 * n.val + (0 : Fin 4).val) (d : Fin 768) :
    (outsAt1 V c t.val t.isLt).2 (ix2 0 d) = Cert.Attn.accK (Qa V c) (Ka V c) (Va V c) n 0 d := by
  have h0 : t.val % 4 = 0 := by rw [ht]; show (4 * n.val + 0) % 4 = 0; omega
  refine (congrFun (snd_A V c t h0) (ix2 0 d)).trans ?_
  refine (pay2_apply _ _ _ _ d).trans ?_
  rw [pay1_apply, zero_add]
  exact contrib_eq (Qa V c) (Ka V c) (Va V c) n 0 (iblk1 V c 0 t) (iblk1 V c 1 t) (iblk1 V c 2 t) (iblkQ_apply V c t n 0 ht) (iblkK_apply V c t n 0 ht) (iblkV_apply V c t n 0 ht) d

/-- After a later stretch: what the accumulator held, plus its contribution. -/
theorem acc_step (c : Dev nD) (t : Fin cfg1.N) (n : Fin 16) (j : Fin 4) (hj : j.val ≠ 0) (ht : t.val = 4 * n.val + j.val)
    (s : ℕ) (hs : s < cfg1.N) (e : t.val - 1 = s) (d : Fin 768) :
    (outsAt1 V c t.val t.isLt).2 (ix2 0 d) = (outsAt1 V c s hs).2 (ix2 0 d) + Cert.Attn.accK (Qa V c) (Ka V c) (Va V c) n j d := by
  have hj4 := j.isLt
  have h0 : ¬t.val % 4 = 0 := by rw [ht]; omega
  have hprev : outsAt1 V c (t.val - 1) (Nat.lt_of_le_of_lt (Nat.sub_le _ _) t.isLt) = outsAt1 V c s hs :=
    outsAt1_congr V c _ _ _ _ e
  have hc := contrib_eq (Qa V c) (Ka V c) (Va V c) n j (iblk1 V c 0 t) (iblk1 V c 1 t) (iblk1 V c 2 t) (iblkQ_apply V c t n j ht) (iblkK_apply V c t n j ht) (iblkV_apply V c t n j ht) d
  by_cases h1 : t.val % 4 = 3
  · refine (congrFun (snd_C V c t h0 h1) (ix2 0 d)).trans ?_
    refine (pay2_apply _ _ _ _ d).trans ?_
    exact congrArg₂ (· + ·) (congrFun (congrArg Prod.snd hprev) (ix2 0 d)) hc
  · refine (congrFun (snd_B V c t h0 h1) (ix2 0 d)).trans ?_
    refine (pay2_apply _ _ _ _ d).trans ?_
    exact congrArg₂ (· + ·) (congrFun (congrArg Prod.snd hprev) (ix2 0 d)) hc

/-- After the last stretch of sequence n: the four contributions added in order. -/
theorem acc_last (c : Dev nD) (n : Fin 16) (d : Fin 768) (h3 : 4 * n.val + 3 < cfg1.N) :
    (outsAt1 V c (4 * n.val + 3) h3).2 (ix2 0 d)
      = Cert.Attn.accK (Qa V c) (Ka V c) (Va V c) n 0 d + Cert.Attn.accK (Qa V c) (Ka V c) (Va V c) n 1 d + Cert.Attn.accK (Qa V c) (Ka V c) (Va V c) n 2 d + Cert.Attn.accK (Qa V c) (Ka V c) (Va V c) n 3 d := by
  have h2 : 4 * n.val + 2 < cfg1.N := by omega
  have h1 : 4 * n.val + 1 < cfg1.N := by omega
  have h0 : 4 * n.val < cfg1.N := by omega
  exact (acc_step V c ⟨4 * n.val + 3, h3⟩ n 3 (by decide) rfl (4 * n.val + 2) h2 rfl d).trans
    (congrArg (· + _) ((acc_step V c ⟨4 * n.val + 2, h2⟩ n 2 (by decide) rfl (4 * n.val + 1) h1 rfl d).trans
      (congrArg (· + _) ((acc_step V c ⟨4 * n.val + 1, h1⟩ n 1 (by decide) rfl (4 * n.val) h0 rfl d).trans
        (congrArg (· + _) (acc_first V c ⟨4 * n.val, h0⟩ n rfl d))))))

/-- At a last stretch the output block's buffer holds the accumulator times the word of 1/2048. -/
theorem out_last (c : Dev nD) (t : Fin cfg1.N) (h0 : ¬t.val % 4 = 0) (h1 : t.val % 4 = 3) (d : Fin 768) :
    (outsAt1 V c t.val t.isLt).1 (ix3 0 0 d) = (outsAt1 V c t.val t.isLt).2 (ix2 0 d) * Cert.Attn.invT :=
  (congrFun (fst_C V c t h0 h1) (ix3 0 0 d)).trans
    ((pay3_apply _ d).trans (congrArg (· * Cert.Attn.invT) (congrFun (snd_C V c t h0 h1) (ix2 0 d)).symm))

/-! ## The output array after the region -/

/-- What the output array is shown to hold: the specification's kernel value at (sequence, feature). -/
def G3 (c : Dev nD) : Buf (Elt Ideal) ((c : Thread nD τ).loc main_v18) :=
  fun (i : S16x1x768.Idx) => (Cert.Attn.outK (Qa V c) (Ka V c) (Va V c) (i 0) (i 2) : EReal)

/-- What a last stretch writes back is its block of that array. -/
theorem flushed1_3 (c : Dev nD) (t : Fin cfg1.N) (hf : (cfg1.win 3).flush t = true) :
    (dat1 V c).flushed 3 t = ((cfg1.win 3).blk t).view.read (Elt Ideal) (G3 V c) := by
  have h3 : t.val % 4 = 3 := (flush1_3 t).mp hf
  have h0 : ¬t.val % 4 = 0 := by omega
  have hN : t.val < 64 := lt_of_lt_of_eq t.isLt (show cfg1.N = 64 from N_1)
  obtain ⟨i0, i1, i2⟩ := idx1_3 t
  have key : ∀ y : S1x1x768.Idx, (outsAt1 V c t.val t.isLt).1 y = G3 V c (((cfg1.win 3).blk t).view.emb y) := by
    intro y
    have hy : y = ix3 (0 : Fin 1) (0 : Fin 1) (y 2) := by
      funext a
      apply Fin.ext
      match a with
      | ⟨0, _⟩ => show (y 0).val = 0; have h : (y 0).val < 1 := (y 0).isLt; omega
      | ⟨1, _⟩ => show (y 1).val = 0; have h : (y 1).val < 1 := (y 1).isLt; omega
      | ⟨2, _⟩ => rfl
    obtain ⟨d, hd⟩ : ∃ d : Fin 768, y = ix3 (0 : Fin 1) (0 : Fin 1) d := ⟨y 2, hy⟩
    subst hd
    have hn : t.val / 4 < 16 := by omega
    have h3' : 4 * (t.val / 4) + 3 < cfg1.N := by have : cfg1.N = 64 := N_1; omega
    rw [out_last V c t h0 h3 d, outsAt1_congr V c t.val (4 * (t.val / 4) + 3) t.isLt h3' (by omega),
      acc_last V c ⟨t.val / 4, hn⟩ d h3']
    unfold G3
    show _ = Cert.Attn.outK (Qa V c) (Ka V c) (Va V c) _ _
    unfold Cert.Attn.outK
    have e0 : (((cfg1.win 3).blk t).view.emb (ix3 (0 : Fin 1) (0 : Fin 1) d)) 0 = (⟨t.val / 4, hn⟩ : Fin 16) :=
      Fin.ext (by show win1_3.index t 0 * 1 + 1 * (0 : ℕ) = t.val / 4; rw [i0]; omega)
    have e2 : (((cfg1.win 3).blk t).view.emb (ix3 (0 : Fin 1) (0 : Fin 1) d)) 2 = d :=
      Fin.ext (by show win1_3.index t 2 * 768 + 1 * d.val = d.val; rw [i2]; omega)
    rw [e0, e2]
  show (cfg1.win 3).cut (grid1.coords t) ((dat1 V c).after 3 t) = _
  rw [after1_3]
  funext y
  rw [View.read_apply]
  exact key y

/-- The sixteen written-back blocks cover the output array. -/
theorem cover1_3 (i : S16x1x768.Idx) :
    ∃ t : Fin cfg1.N, (cfg1.win 3).flush t = true ∧ i ∈ ((cfg1.win 3).blk t).view.set := by
  have hi0 : (i 0 : ℕ) < 16 := (i 0).isLt
  have hi1 : (i 1 : ℕ) < 1 := (i 1).isLt
  have hi2 : (i 2 : ℕ) < 768 := (i 2).isLt
  have hN : cfg1.N = 64 := N_1
  have ht : 4 * (i 0 : ℕ) + 3 < cfg1.N := by omega
  refine ⟨⟨4 * (i 0 : ℕ) + 3, ht⟩, (flush1_3 _).mpr (by show (4 * (i 0 : ℕ) + 3) % 4 = 3; omega), ?_⟩
  obtain ⟨i0, i1, i2⟩ := idx1_3 ⟨4 * (i 0 : ℕ) + 3, ht⟩
  obtain ⟨x0, x1, x2⟩ := xs1_3 ⟨4 * (i 0 : ℕ) + 3, ht⟩
  show i ∈ ((View.whole main_v18).slice (win1_3.rect ⟨4 * (i 0 : ℕ) + 3, ht⟩)).set
  rw [View.set_slice_whole, Rect.mem_set_unit]
  intro a
  match a with
  | ⟨0, _⟩ =>
    show win1_3.index ⟨4 * (i 0 : ℕ) + 3, ht⟩ 0 * win1_3.size 0 ≤ (i 0 : ℕ) ∧ (i 0 : ℕ) < win1_3.index ⟨4 * (i 0 : ℕ) + 3, ht⟩ 0 * win1_3.size 0 + win1_3.xsize (grid1.coords ⟨4 * (i 0 : ℕ) + 3, ht⟩) 0
    rw [i0, x0, show win1_3.size 0 = 1 from rfl]
    show (4 * (i 0 : ℕ) + 3) / 4 * 1 ≤ (i 0 : ℕ) ∧ (i 0 : ℕ) < (4 * (i 0 : ℕ) + 3) / 4 * 1 + 1
    omega
  | ⟨1, _⟩ =>
    show win1_3.index ⟨4 * (i 0 : ℕ) + 3, ht⟩ 1 * win1_3.size 1 ≤ (i 1 : ℕ) ∧ (i 1 : ℕ) < win1_3.index ⟨4 * (i 0 : ℕ) + 3, ht⟩ 1 * win1_3.size 1 + win1_3.xsize (grid1.coords ⟨4 * (i 0 : ℕ) + 3, ht⟩) 1
    rw [i1, x1]; omega
  | ⟨2, _⟩ =>
    show win1_3.index ⟨4 * (i 0 : ℕ) + 3, ht⟩ 2 * win1_3.size 2 ≤ (i 2 : ℕ) ∧ (i 2 : ℕ) < win1_3.index ⟨4 * (i 0 : ℕ) + 3, ht⟩ 2 * win1_3.size 2 + win1_3.xsize (grid1.coords ⟨4 * (i 0 : ℕ) + 3, ht⟩) 2
    rw [i2, x2]; omega

/-- So the output array ends holding it. -/
theorem final1 (c : Dev nD) : (dat1 V c).arrAt 3 cfg1.N = G3 V c :=
  (dat1 V c).arrAt_eq_of_cover 3 (G3 V c) (flushed1_3 V c) cover1_3

/-- The output array after the region, at (sequence n, feature d). -/
theorem final1_3 (c : Dev nD) (n : Fin 16) (d : Fin 768) :
    (dat1 V c).arrAt 3 cfg1.N (ix3 n 0 d) = Cert.Attn.outK (Qa V c) (Ka V c) (Va V c) n d :=
  congrFun (final1 V c) (ix3 n 0 d)

end AtIdeal

end Cert.KernelIdeal.Gen

end
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.HostValue.lean ====
/-
  The host operations around the two regions, read at coordinates, at the extended reals.

  Before the projection region the host transposes the three weight matrices (the query weights and the query bias
  are also multiplied by the attention scale), lays each bias out as a row, and merges the input's two leading axes
  [16, 2048] into 32768 rows: row n · 2048 + t is token t of sequence n. Between the regions it splits the rows of the
  three projections into [16, 2048] again. After the attention region it drops the result's unit axis.

  Composed with what the two regions leave, the array before the normalization over the batch is the
  specification's `kerOut` of the argument arrays.
-/
import proofs.«138573_j83485574300331_2_alg».proof.Proof.Gen.KernelIdeal.Regions
import proofs.«138573_j83485574300331_2_alg».proof.Proof.Spec
import proofs.«138573_j83485574300331_2_alg».proof.Proof.Region0Value
import proofs.«138573_j83485574300331_2_alg».proof.Proof.LibMerge
import proofs.«138573_j83485574300331_2_alg».proof.Proof.LibRow
import Idealize.ShloMosaic.Lib.Pipeline.Value
import Idealize.ShloMosaic.Lib.ValueIdx
import Idealize.ShloMosaic.Lib.ValueLayout
import Idealize.ShloMosaic.Lib.IdealHost
import Idealize.ShloMosaic.Lib.Tactic

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (outs : Outs (F := Ideal)) (c : Dev nD)

/-! ## The argument arrays, typed -/

/-- The input [16, 2048, 768]. -/
abbrev argX : S16x2048x768.Idx → EReal := m (c, main_arg0)
/-- The query weights [768, 768] and bias [768]. -/
abbrev argWq : S768x768.Idx → EReal := m (c, main_arg1)
abbrev argBq : S768.Idx → EReal := m (c, main_arg2)
/-- The key weights and bias. -/
abbrev argWk : S768x768.Idx → EReal := m (c, main_arg3)
abbrev argBk : S768.Idx → EReal := m (c, main_arg4)
/-- The value weights and bias. -/
abbrev argWv : S768x768.Idx → EReal := m (c, main_arg5)
abbrev argBv : S768.Idx → EReal := m (c, main_arg6)
/-- The normalization's gain and offset [768]. -/
abbrev argGain : S768.Idx → EReal := m (c, main_arg7)
abbrev argOff : S768.Idx → EReal := m (c, main_arg8)

/-! ## The operands of the projection region, from the arguments -/

/-- The input with its two leading axes merged. -/
theorem v13_eq : (V1 m c main_v13 : S32768x768.Idx → EReal)
    = shapeCast S32768x768 (argX m c) shapeCasts_S16x2048x768_S32768x768 := by
  dsimp only [V1, V0, hostOps0]; after_results <;> rfl

/-- Row n · 2048 + t of the merged input is token t of sequence n. -/
theorem v13_apply (n : Fin 16) (t : Fin 2048) (k : Fin 768) (r : Fin 32768) (hr : r.val = n.val * 2048 + t.val) :
    (V1 m c main_v13 : S32768x768.Idx → EReal) (ix2 r k) = (argX m c) (ix3 n t k) := by
  rw [v13_eq]; exact shapeCast_nab_mb_apply _ _ n t k r hr

/-- The query weights: transposed, times the scale. -/
theorem v3_apply (k e : Fin 768) :
    (V1 m c main_v3 : S768x768.Idx → EReal) (ix2 k e) = (argWq m c) (ix2 e k) * Cert.Attn.scale := by
  have e3 : (V1 m c main_v3 : S768x768.Idx → EReal)
      = truncf (F := Ideal) .bf16 (mulf (transpose S768x768 [1, 0] (argWq m c) transposes_S768x768_S768x768_1_0)
          (broadcastInDim S768x768 ![] bcast_S_S768x768 (constant (F := Ideal) S_ .f32 0x3D13CD3A#32))) bitsLt_bf16_f32 := by
    dsimp only [V1, V0, hostOps0]; after_results <;> rfl
  rw [e3]
  show transpose S768x768 [1, 0] _ _ (ix2 k e) * broadcastInDim S768x768 ![] bcast_S_S768x768 (constant (F := Ideal) S_ .f32 0x3D13CD3A#32) (ix2 k e) = _
  rw [transpose_ix2_apply, broadcastInDim_scalar_apply]; rfl

/-- The key weights: transposed. -/
theorem v5_apply (k e : Fin 768) :
    (V1 m c main_v5 : S768x768.Idx → EReal) (ix2 k e) = (argWk m c) (ix2 e k) := by
  have e5 : (V1 m c main_v5 : S768x768.Idx → EReal)
      = truncf (F := Ideal) .bf16 (transpose S768x768 [1, 0] (argWk m c) transposes_S768x768_S768x768_1_0) bitsLt_bf16_f32 := by
    dsimp only [V1, V0, hostOps0]; after_results <;> rfl
  rw [e5]
  show transpose S768x768 [1, 0] _ _ (ix2 k e) = _
  rw [transpose_ix2_apply]

/-- The value weights: transposed. -/
theorem v7_apply (k e : Fin 768) :
    (V1 m c main_v7 : S768x768.Idx → EReal) (ix2 k e) = (argWv m c) (ix2 e k) := by
  have e7 : (V1 m c main_v7 : S768x768.Idx → EReal)
      = truncf (F := Ideal) .bf16 (transpose S768x768 [1, 0] (argWv m c) transposes_S768x768_S768x768_1_0) bitsLt_bf16_f32 := by
    dsimp only [V1, V0, hostOps0]; after_results <;> rfl
  rw [e7]
  show transpose S768x768 [1, 0] _ _ (ix2 k e) = _
  rw [transpose_ix2_apply]

/-- The query bias as a row: times the scale. -/
theorem v10_apply (e : Fin 768) :
    (V1 m c main_v10 : S1x768.Idx → EReal) (ix2 (0 : Fin 1) e) = (argBq m c) (ix1 e) * Cert.Attn.scale := by
  have e10 : (V1 m c main_v10 : S1x768.Idx → EReal)
      = shapeCast S1x768 (mulf (F := Ideal) (argBq m c)
          (broadcastInDim S768 ![] bcast_S_S768 (constant (F := Ideal) S_ .f32 0x3D13CD3A#32))) shapeCasts_S768_S1x768 := by
    dsimp only [V1, V0, hostOps0]; after_results <;> rfl
  rw [e10, Cert.LibRow.row_apply]
  show _ * broadcastInDim S768 ![] bcast_S_S768 (constant (F := Ideal) S_ .f32 0x3D13CD3A#32) (ix1 e) = _
  rw [broadcastInDim_scalar_apply]; rfl

/-- The key bias as a row. -/
theorem v11_apply (e : Fin 768) :
    (V1 m c main_v11 : S1x768.Idx → EReal) (ix2 (0 : Fin 1) e) = (argBk m c) (ix1 e) := by
  have e11 : (V1 m c main_v11 : S1x768.Idx → EReal) = shapeCast S1x768 (argBk m c) shapeCasts_S768_S1x768 := by
    dsimp only [V1, V0, hostOps0]; after_results <;> rfl
  rw [e11, Cert.LibRow.row_apply]

/-- The value bias as a row. -/
theorem v12_apply (e : Fin 768) :
    (V1 m c main_v12 : S1x768.Idx → EReal) (ix2 (0 : Fin 1) e) = (argBv m c) (ix1 e) := by
  have e12 : (V1 m c main_v12 : S1x768.Idx → EReal) = shapeCast S1x768 (argBv m c) shapeCasts_S768_S1x768 := by
    dsimp only [V1, V0, hostOps0]; after_results <;> rfl
  rw [e12, Cert.LibRow.row_apply]

/-! ## The operands of the attention region: the projections with the leading axis split again -/

theorem v15_apply (n : Fin 16) (t : Fin 2048) (e : Fin 768) (r : Fin 32768) (hr : r.val = n.val * 2048 + t.val) :
    (V3 m outs c main_v15 : S16x2048x768.Idx → EReal) (ix3 n t e) = (V2 m outs c main_v14_0 : S32768x768.Idx → EReal) (ix2 r e) := by
  have e1 : (V3 m outs c main_v15 : S16x2048x768.Idx → EReal)
      = shapeCast S16x2048x768 (V2 m outs c main_v14_0 : S32768x768.Idx → EReal) shapeCasts_S32768x768_S16x2048x768 := by
    dsimp only [V3, hostOps1]; after_results <;> rfl
  rw [e1]; exact shapeCast_mb_nab_apply _ _ n t e r hr

theorem v16_apply (n : Fin 16) (t : Fin 2048) (e : Fin 768) (r : Fin 32768) (hr : r.val = n.val * 2048 + t.val) :
    (V3 m outs c main_v16 : S16x2048x768.Idx → EReal) (ix3 n t e) = (V2 m outs c main_v14_1 : S32768x768.Idx → EReal) (ix2 r e) := by
  have e1 : (V3 m outs c main_v16 : S16x2048x768.Idx → EReal)
      = shapeCast S16x2048x768 (V2 m outs c main_v14_1 : S32768x768.Idx → EReal) shapeCasts_S32768x768_S16x2048x768 := by
    dsimp only [V3, hostOps1]; after_results <;> rfl
  rw [e1]; exact shapeCast_mb_nab_apply _ _ n t e r hr

theorem v17_apply (n : Fin 16) (t : Fin 2048) (e : Fin 768) (r : Fin 32768) (hr : r.val = n.val * 2048 + t.val) :
    (V3 m outs c main_v17 : S16x2048x768.Idx → EReal) (ix3 n t e) = (V2 m outs c main_v14_2 : S32768x768.Idx → EReal) (ix2 r e) := by
  have e1 : (V3 m outs c main_v17 : S16x2048x768.Idx → EReal)
      = shapeCast S16x2048x768 (V2 m outs c main_v14_2 : S32768x768.Idx → EReal) shapeCasts_S32768x768_S16x2048x768 := by
    dsimp only [V3, hostOps1]; after_results <;> rfl
  rw [e1]; exact shapeCast_mb_nab_apply _ _ n t e r hr

/-! ## The attention region's result with its unit axis dropped -/

theorem v19_eq : (V5 m outs c main_v19 : S16x768.Idx → EReal)
    = shapeCast S16x768 (V4 m outs c main_v18 : S16x1x768.Idx → EReal) shapeCasts_S16x1x768_S16x768 := by
  dsimp only [V5, hostOps2]; after_results <;> rfl

theorem v19_apply (n : Fin 16) (d : Fin 768) :
    (V5 m outs c main_v19 : S16x768.Idx → EReal) (ix2 n d) = (V4 m outs c main_v18 : S16x1x768.Idx → EReal) (ix3 n (0 : Fin 1) d) := by
  rw [v19_eq]; exact shapeCast_nab_mb_apply _ _ n (0 : Fin 1) d n (by simp)

/-! ## The composition: the array before the normalization over the batch -/

theorem pre_apply
    (h7 : (V2 m outs c main_v14_0 : S32768x768.Idx → EReal) = Proj.G (V1 m c main_v13) (V1 m c main_v3) (V1 m c main_v10))
    (h8 : (V2 m outs c main_v14_1 : S32768x768.Idx → EReal) = Proj.G (V1 m c main_v13) (V1 m c main_v5) (V1 m c main_v11))
    (h9 : (V2 m outs c main_v14_2 : S32768x768.Idx → EReal) = Proj.G (V1 m c main_v13) (V1 m c main_v7) (V1 m c main_v12))
    (h18 : ∀ (n : Fin 16) (d : Fin 768), (V4 m outs c main_v18 : S16x1x768.Idx → EReal) (ix3 n (0 : Fin 1) d)
      = Cert.Attn.outK (fun n t e => (V3 m outs c main_v15 : S16x2048x768.Idx → EReal) (ix3 n t e))
          (fun n t e => (V3 m outs c main_v16 : S16x2048x768.Idx → EReal) (ix3 n t e))
          (fun n t e => (V3 m outs c main_v17 : S16x2048x768.Idx → EReal) (ix3 n t e)) n d)
    (n : Fin 16) (d : Fin 768) :
    (V5 m outs c main_v19 : S16x768.Idx → EReal) (ix2 n d)
      = Cert.Attn.kerOut (fun n t k => (argX m c) (ix3 n t k))
          (fun e k => (argWq m c) (ix2 e k)) (fun e => (argBq m c) (ix1 e))
          (fun e k => (argWk m c) (ix2 e k)) (fun e => (argBk m c) (ix1 e))
          (fun e k => (argWv m c) (ix2 e k)) (fun e => (argBv m c) (ix1 e)) n d := by
  rw [v19_apply, h18]
  unfold Cert.Attn.kerOut
  have hr : ∀ (n : Fin 16) (t : Fin 2048), n.val * 2048 + t.val < 32768 := fun n t => by have := n.isLt; have := t.isLt; omega
  have eQ : (fun n t e => (V3 m outs c main_v15 : S16x2048x768.Idx → EReal) (ix3 n t e))
      = Cert.Attn.projK (fun n t k => (argX m c) (ix3 n t k))
          (fun k e => (argWq m c) (ix2 e k) * Cert.Attn.scale)
          (fun e => (argBq m c) (ix1 e) * Cert.Attn.scale) := by
    funext n t e
    rw [v15_apply m outs c n t e ⟨n.val * 2048 + t.val, hr n t⟩ rfl, h7, Proj.G_apply]
    unfold Cert.Attn.projK
    rw [v10_apply]
    refine congrArg (· + _) (Finset.sum_congr rfl fun k _ => ?_)
    rw [v13_apply m c n t k ⟨n.val * 2048 + t.val, hr n t⟩ rfl, v3_apply]
  have eK : (fun n t e => (V3 m outs c main_v16 : S16x2048x768.Idx → EReal) (ix3 n t e))
      = Cert.Attn.projK (fun n t k => (argX m c) (ix3 n t k))
          (fun k e => (argWk m c) (ix2 e k))
          (fun e => (argBk m c) (ix1 e)) := by
    funext n t e
    rw [v16_apply m outs c n t e ⟨n.val * 2048 + t.val, hr n t⟩ rfl, h8, Proj.G_apply]
    unfold Cert.Attn.projK
    rw [v11_apply]
    refine congrArg (· + _) (Finset.sum_congr rfl fun k _ => ?_)
    rw [v13_apply m c n t k ⟨n.val * 2048 + t.val, hr n t⟩ rfl, v5_apply]
  have eV : (fun n t e => (V3 m outs c main_v17 : S16x2048x768.Idx → EReal) (ix3 n t e))
      = Cert.Attn.projK (fun n t k => (argX m c) (ix3 n t k))
          (fun k e => (argWv m c) (ix2 e k))
          (fun e => (argBv m c) (ix1 e)) := by
    funext n t e
    rw [v17_apply m outs c n t e ⟨n.val * 2048 + t.val, hr n t⟩ rfl, h9, Proj.G_apply]
    unfold Cert.Attn.projK
    rw [v12_apply]
    refine congrArg (· + _) (Finset.sum_congr rfl fun k _ => ?_)
    rw [v13_apply m c n t k ⟨n.val * 2048 + t.val, hr n t⟩ rfl, v7_apply]
  rw [eQ, eK, eV]

end Cert.KernelIdeal.HostValue

end
-- ==== Proof.RefRun.lean ====
/-
  The reference program's run, read back.

  The reference is a straight line of seventy-four array operations: the three projections of the input, the scores of
  every (query, key) pair, the sigmoid, the weighted sum over the keys, the mean over the queries, and then the
  normalization over the batch (mean and variance of every feature over the sixteen sequences, the variance computed by
  a called function whose body is run in place on buffers of its own).  Run in order from any memory, the line
  terminates, writes no argument, and leaves in its last buffer the composition of the operations' functions applied
  to the argument arrays.  That composition is stated here in two pieces: `pre`, the [16, 768] array of means over the
  queries, and the normalization over the batch applied to it.
-/
import proofs.«138573_j83485574300331_2_alg».proof.Defs
import proofs.«138573_j83485574300331_2_alg».proof.Proof.Gen.ReferenceIdeal
import proofs.«138573_j83485574300331_2_alg».proof.Proof.Gen.Pre_finite_inputs
import Idealize.ShloMosaic.Lib.StableHlo.Run
import Idealize.ShloMosaic.Lib.Pipeline.Regions
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-- The program's operations in order, the called variance function's twenty-two (its own nineteen and the three of the
    selection it calls in turn) in place at the call, over that call's buffers. -/
abbrev ops : List (HloOp τ sig (Elt F)) :=
  [
    binary main_arg0 main_arg1 main_v0 ((fun l r => Host.dotGeneral dot_S16x2048x768_S768x768_S16x2048x768_2_1_01_0_n_n none l r) : (⟨S16x2048x768, .f32⟩ : BufTy).Contents (Elt F) → (⟨S768x768, .f32⟩ : BufTy).Contents (Elt F) → (⟨S16x2048x768, .f32⟩ : BufTy).Contents (Elt F)),
    unary main_arg2 main_v1 (broadcastInDim S1x1x768 ![2] bcast_S768_S1x1x768_2 : (⟨S768, .f32⟩ : BufTy).Contents (Elt F) → (⟨S1x1x768, .f32⟩ : BufTy).Contents (Elt F)),
    unary main_v1 main_v2 (broadcastInDim S16x2048x768 ![0, 1, 2] bcast_S1x1x768_S16x2048x768_0_1_2 : (⟨S1x1x768, .f32⟩ : BufTy).Contents (Elt F) → (⟨S16x2048x768, .f32⟩ : BufTy).Contents (Elt F)),
    binary main_v0 main_v2 main_v3 (addf : (⟨S16x2048x768, .f32⟩ : BufTy).Contents (Elt F) → (⟨S16x2048x768, .f32⟩ : BufTy).Contents (Elt F) → (⟨S16x2048x768, .f32⟩ : BufTy).Contents (Elt F)),
    binary main_arg0 main_arg3 main_v4 ((fun l r => Host.dotGeneral dot_S16x2048x768_S768x768_S16x2048x768_2_1_01_0_n_n none l r) : (⟨S16x2048x768, .f32⟩ : BufTy).Contents (Elt F) → (⟨S768x768, .f32⟩ : BufTy).Contents (Elt F) → (⟨S16x2048x768, .f32⟩ : BufTy).Contents (Elt F)),
    unary main_arg4 main_v5 (broadcastInDim S1x1x768 ![2] bcast_S768_S1x1x768_2 : (⟨S768, .f32⟩ : BufTy).Contents (Elt F) → (⟨S1x1x768, .f32⟩ : BufTy).Contents (Elt F)),
    unary main_v5 main_v6 (broadcastInDim S16x2048x768 ![0, 1, 2] bcast_S1x1x768_S16x2048x768_0_1_2 : (⟨S1x1x768, .f32⟩ : BufTy).Contents (Elt F) → (⟨S16x2048x768, .f32⟩ : BufTy).Contents (Elt F)),
    binary main_v4 main_v6 main_v7 (addf : (⟨S16x2048x768, .f32⟩ : BufTy).Contents (Elt F) → (⟨S16x2048x768, .f32⟩ : BufTy).Contents (Elt F) → (⟨S16x2048x768, .f32⟩ : BufTy).Contents (Elt F)),
    binary main_arg0 main_arg5 main_v8 ((fun l r => Host.dotGeneral dot_S16x2048x768_S768x768_S16x2048x768_2_1_01_0_n_n none l r) : (⟨S16x2048x768, .f32⟩ : BufTy).Contents (Elt F) → (⟨S768x768, .f32⟩ : BufTy).Contents (Elt F) → (⟨S16x2048x768, .f32⟩ : BufTy).Contents (Elt F)),
    unary main_arg6 main_v9 (broadcastInDim S1x1x768 ![2] bcast_S768_S1x1x768_2 : (⟨S768, .f32⟩ : BufTy).Contents (Elt F) → (⟨S1x1x768, .f32⟩ : BufTy).Contents (Elt F)),
    unary main_v9 main_v10 (broadcastInDim S16x2048x768 ![0, 1, 2] bcast_S1x1x768_S16x2048x768_0_1_2 : (⟨S1x1x768, .f32⟩ : BufTy).Contents (Elt F) → (⟨S16x2048x768, .f32⟩ : BufTy).Contents (Elt F)),
    binary main_v8 main_v10 main_v11 (addf : (⟨S16x2048x768, .f32⟩ : BufTy).Contents (Elt F) → (⟨S16x2048x768, .f32⟩ : BufTy).Contents (Elt F) → (⟨S16x2048x768, .f32⟩ : BufTy).Contents (Elt F)),
    binary main_v3 main_v7 main_v12 ((fun l r => Host.dotGeneral dot_S16x2048x768_S16x2048x768_S16x2048x2048_2_2_1_1_0_0 none l r) : (⟨S16x2048x768, .f32⟩ : BufTy).Contents (Elt F) → (⟨S16x2048x768, .f32⟩ : BufTy).Contents (Elt F) → (⟨S16x2048x2048, .f32⟩ : BufTy).Contents (Elt F)),
    nullary main_cst (constant S_ .f32 0x3D13CD3A#32),
    unary main_cst main_v13 (broadcastInDim S16x2048x2048 ![] bcast_S_S16x2048x2048 : (⟨S_, .f32⟩ : BufTy).Contents (Elt F) → (⟨S16x2048x2048, .f32⟩ : BufTy).Contents (Elt F)),
    binary main_v12 main_v13 main_v14 (mulf : (⟨S16x2048x2048, .f32⟩ : BufTy).Contents (Elt F) → (⟨S16x2048x2048, .f32⟩ : BufTy).Contents (Elt F) → (⟨S16x2048x2048, .f32⟩ : BufTy).Contents (Elt F)),
    unary main_v14 main_v15 (Host.negf : (⟨S16x2048x2048, .f32⟩ : BufTy).Contents (Elt F) → (⟨S16x2048x2048, .f32⟩ : BufTy).Contents (Elt F)),
    unary main_v15 main_v16 (Host.exp : (⟨S16x2048x2048, .f32⟩ : BufTy).Contents (Elt F) → (⟨S16x2048x2048, .f32⟩ : BufTy).Contents (Elt F)),
    nullary main_cst_0 (constant S_ .f32 0x3F800000#32),
    unary main_cst_0 main_v17 (broadcastInDim S16x2048x2048 ![] bcast_S_S16x2048x2048 : (⟨S_, .f32⟩ : BufTy).Contents (Elt F) → (⟨S16x2048x2048, .f32⟩ : BufTy).Contents (Elt F)),
    binary main_v17 main_v16 main_v18 (addf : (⟨S16x2048x2048, .f32⟩ : BufTy).Contents (Elt F) → (⟨S16x2048x2048, .f32⟩ : BufTy).Contents (Elt F) → (⟨S16x2048x2048, .f32⟩ : BufTy).Contents (Elt F)),
    nullary main_cst_1 (constant S_ .f32 0x3F800000#32),
    unary main_cst_1 main_v19 (broadcastInDim S16x2048x2048 ![] bcast_S_S16x2048x2048 : (⟨S_, .f32⟩ : BufTy).Contents (Elt F) → (⟨S16x2048x2048, .f32⟩ : BufTy).Contents (Elt F)),
    binary main_v19 main_v18 main_v20 (Host.divf : (⟨S16x2048x2048, .f32⟩ : BufTy).Contents (Elt F) → (⟨S16x2048x2048, .f32⟩ : BufTy).Contents (Elt F) → (⟨S16x2048x2048, .f32⟩ : BufTy).Contents (Elt F)),
    binary main_v20 main_v11 main_v21 ((fun l r => Host.dotGeneral dot_S16x2048x2048_S16x2048x768_S16x2048x768_2_1_1_2_0_0 none l r) : (⟨S16x2048x2048, .f32⟩ : BufTy).Contents (Elt F) → (⟨S16x2048x768, .f32⟩ : BufTy).Contents (Elt F) → (⟨S16x2048x768, .f32⟩ : BufTy).Contents (Elt F)),
    nullary main_cst_2 (constant S_ .f32 0x00000000#32),
    binary main_v21 main_cst_2 main_v22 ((fun x v => Host.reduceAdd x v reducesTo_S16x2048x768_S16x768_d1 h_S_) : (⟨S16x2048x768, .f32⟩ : BufTy).Contents (Elt F) → (⟨S_, .f32⟩ : BufTy).Contents (Elt F) → (⟨S16x768, .f32⟩ : BufTy).Contents (Elt F)),
    nullary main_cst_3 (constant S_ .f32 0x45000000#32),
    unary main_cst_3 main_v23 (broadcastInDim S16x768 ![] bcast_S_S16x768 : (⟨S_, .f32⟩ : BufTy).Contents (Elt F) → (⟨S16x768, .f32⟩ : BufTy).Contents (Elt F)),
    binary main_v22 main_v23 main_v24 (Host.divf : (⟨S16x768, .f32⟩ : BufTy).Contents (Elt F) → (⟨S16x768, .f32⟩ : BufTy).Contents (Elt F) → (⟨S16x768, .f32⟩ : BufTy).Contents (Elt F)),
    nullary main_cst_4 (constant S_ .f32 0x00000000#32),
    binary main_v24 main_cst_4 main_v25 ((fun x v => Host.reduceAdd x v reducesTo_S16x768_S768_d0 h_S_) : (⟨S16x768, .f32⟩ : BufTy).Contents (Elt F) → (⟨S_, .f32⟩ : BufTy).Contents (Elt F) → (⟨S768, .f32⟩ : BufTy).Contents (Elt F)),
    nullary main_cst_5 (constant S_ .f32 0x41800000#32),
    unary main_cst_5 main_v26 (broadcastInDim S768 ![] bcast_S_S768 : (⟨S_, .f32⟩ : BufTy).Contents (Elt F) → (⟨S768, .f32⟩ : BufTy).Contents (Elt F)),
    binary main_v25 main_v26 main_v27 (Host.divf : (⟨S768, .f32⟩ : BufTy).Contents (Elt F) → (⟨S768, .f32⟩ : BufTy).Contents (Elt F) → (⟨S768, .f32⟩ : BufTy).Contents (Elt F)),
    nullary main_c (constantI S_ 32 0#32),
    TRef.nullary (.of main_call0_cst : TRef sig ⟨S_, .f32⟩) (constant S_ .f32 0x00000000#32),
    TRef.binary (.of main_v24 : TRef sig ⟨S16x768, .f32⟩) (.of main_call0_cst : TRef sig ⟨S_, .f32⟩) (.of main_call0_v0 : TRef sig ⟨S768, .f32⟩) (fun x v => Host.reduceAdd x v reducesTo_S16x768_S768_d0 h_S_),
    TRef.unary (.of main_call0_v0 : TRef sig ⟨S768, .f32⟩) (.of main_call0_v1 : TRef sig ⟨S1x768, .f32⟩) (broadcastInDim S1x768 ![1] bcast_S768_S1x768_1),
    TRef.nullary (.of main_call0_cst_0 : TRef sig ⟨S_, .f32⟩) (constant S_ .f32 0x41800000#32),
    TRef.unary (.of main_call0_cst_0 : TRef sig ⟨S_, .f32⟩) (.of main_call0_v2 : TRef sig ⟨S1x768, .f32⟩) (broadcastInDim S1x768 ![] bcast_S_S1x768),
    TRef.binary (.of main_call0_v1 : TRef sig ⟨S1x768, .f32⟩) (.of main_call0_v2 : TRef sig ⟨S1x768, .f32⟩) (.of main_call0_v3 : TRef sig ⟨S1x768, .f32⟩) Host.divf,
    TRef.unary (.of main_call0_v3 : TRef sig ⟨S1x768, .f32⟩) (.of main_call0_v4 : TRef sig ⟨S16x768, .f32⟩) (broadcastInDim S16x768 ![0, 1] bcast_S1x768_S16x768_0_1),
    TRef.binary (.of main_v24 : TRef sig ⟨S16x768, .f32⟩) (.of main_call0_v4 : TRef sig ⟨S16x768, .f32⟩) (.of main_call0_v5 : TRef sig ⟨S16x768, .f32⟩) subf,
    TRef.binary (.of main_call0_v5 : TRef sig ⟨S16x768, .f32⟩) (.of main_call0_v5 : TRef sig ⟨S16x768, .f32⟩) (.of main_call0_v6 : TRef sig ⟨S16x768, .f32⟩) mulf,
    TRef.unary (.of main_c : TRef sig ⟨S_, .i32⟩) (.of main_call0_v7 : TRef sig ⟨S_, .f32⟩) (sitofp .f32),
    TRef.nullary (.of main_call0_cst_1 : TRef sig ⟨S_, .f32⟩) (constant S_ .f32 0x41800000#32),
    TRef.binary (.of main_call0_cst_1 : TRef sig ⟨S_, .f32⟩) (.of main_call0_v7 : TRef sig ⟨S_, .f32⟩) (.of main_call0_v8 : TRef sig ⟨S_, .f32⟩) subf,
    TRef.nullary (.of main_call0_cst_2 : TRef sig ⟨S_, .f32⟩) (constant S_ .f32 0x00000000#32),
    TRef.binary (.of main_call0_v6 : TRef sig ⟨S16x768, .f32⟩) (.of main_call0_cst_2 : TRef sig ⟨S_, .f32⟩) (.of main_call0_v9 : TRef sig ⟨S768, .f32⟩) (fun x v => Host.reduceAdd x v reducesTo_S16x768_S768_d0 h_S_),
    TRef.unary (.of main_call0_v8 : TRef sig ⟨S_, .f32⟩) (.of main_call0_v10 : TRef sig ⟨S768, .f32⟩) (broadcastInDim S768 ![] bcast_S_S768),
    TRef.binary (.of main_call0_v9 : TRef sig ⟨S768, .f32⟩) (.of main_call0_v10 : TRef sig ⟨S768, .f32⟩) (.of main_call0_v11 : TRef sig ⟨S768, .f32⟩) Host.divf,
    TRef.nullary (.of main_call0_cst_3 : TRef sig ⟨S_, .f32⟩) (constant S_ .f32 0x00000000#32),
    TRef.binary (.of main_call0_v8 : TRef sig ⟨S_, .f32⟩) (.of main_call0_cst_3 : TRef sig ⟨S_, .f32⟩) (.of main_call0_v12 : TRef sig ⟨S_, .i1⟩) (cmpf .ogt),
    TRef.nullary (.of main_call0_cst_4 : TRef sig ⟨S_, .f32⟩) (constant S_ .f32 0x7FC00000#32),
    TRef.unary (.of main_call0_cst_4 : TRef sig ⟨S_, .f32⟩) (.of main_call0_call0_v0 : TRef sig ⟨S_, .f32⟩) id,
    TRef.unary (.of main_call0_call0_v0 : TRef sig ⟨S_, .f32⟩) (.of main_call0_call0_v1 : TRef sig ⟨S768, .f32⟩) (broadcastInDim S768 ![] bcast_S_S768),
    TRef.ternary (.of main_call0_v12 : TRef sig ⟨S_, .i1⟩) (.of main_call0_v11 : TRef sig ⟨S768, .f32⟩) (.of main_call0_call0_v1 : TRef sig ⟨S768, .f32⟩) (.of main_v28 : TRef sig ⟨S768, .f32⟩) (fun p a b => select (broadcastInDim S768 ![] bcast_S_S768 p) a b),
    unary main_v27 main_v29 (broadcastInDim S1x768 ![1] bcast_S768_S1x768_1 : (⟨S768, .f32⟩ : BufTy).Contents (Elt F) → (⟨S1x768, .f32⟩ : BufTy).Contents (Elt F)),
    unary main_v29 main_v30 (broadcastInDim S16x768 ![0, 1] bcast_S1x768_S16x768_0_1 : (⟨S1x768, .f32⟩ : BufTy).Contents (Elt F) → (⟨S16x768, .f32⟩ : BufTy).Contents (Elt F)),
    binary main_v24 main_v30 main_v31 (subf : (⟨S16x768, .f32⟩ : BufTy).Contents (Elt F) → (⟨S16x768, .f32⟩ : BufTy).Contents (Elt F) → (⟨S16x768, .f32⟩ : BufTy).Contents (Elt F)),
    nullary main_cst_6 (constant S_ .f32 0x3727C5AC#32),
    unary main_cst_6 main_v32 (broadcastInDim S768 ![] bcast_S_S768 : (⟨S_, .f32⟩ : BufTy).Contents (Elt F) → (⟨S768, .f32⟩ : BufTy).Contents (Elt F)),
    binary main_v28 main_v32 main_v33 (addf : (⟨S768, .f32⟩ : BufTy).Contents (Elt F) → (⟨S768, .f32⟩ : BufTy).Contents (Elt F) → (⟨S768, .f32⟩ : BufTy).Contents (Elt F)),
    unary main_v33 main_v34 (Host.rsqrt : (⟨S768, .f32⟩ : BufTy).Contents (Elt F) → (⟨S768, .f32⟩ : BufTy).Contents (Elt F)),
    unary main_v34 main_v35 (broadcastInDim S1x768 ![1] bcast_S768_S1x768_1 : (⟨S768, .f32⟩ : BufTy).Contents (Elt F) → (⟨S1x768, .f32⟩ : BufTy).Contents (Elt F)),
    unary main_v35 main_v36 (broadcastInDim S16x768 ![0, 1] bcast_S1x768_S16x768_0_1 : (⟨S1x768, .f32⟩ : BufTy).Contents (Elt F) → (⟨S16x768, .f32⟩ : BufTy).Contents (Elt F)),
    binary main_v31 main_v36 main_v37 (mulf : (⟨S16x768, .f32⟩ : BufTy).Contents (Elt F) → (⟨S16x768, .f32⟩ : BufTy).Contents (Elt F) → (⟨S16x768, .f32⟩ : BufTy).Contents (Elt F)),
    unary main_arg7 main_v38 (broadcastInDim S1x768 ![1] bcast_S768_S1x768_1 : (⟨S768, .f32⟩ : BufTy).Contents (Elt F) → (⟨S1x768, .f32⟩ : BufTy).Contents (Elt F)),
    unary main_v38 main_v39 (broadcastInDim S16x768 ![0, 1] bcast_S1x768_S16x768_0_1 : (⟨S1x768, .f32⟩ : BufTy).Contents (Elt F) → (⟨S16x768, .f32⟩ : BufTy).Contents (Elt F)),
    binary main_v37 main_v39 main_v40 (mulf : (⟨S16x768, .f32⟩ : BufTy).Contents (Elt F) → (⟨S16x768, .f32⟩ : BufTy).Contents (Elt F) → (⟨S16x768, .f32⟩ : BufTy).Contents (Elt F)),
    unary main_arg8 main_v41 (broadcastInDim S1x768 ![1] bcast_S768_S1x768_1 : (⟨S768, .f32⟩ : BufTy).Contents (Elt F) → (⟨S1x768, .f32⟩ : BufTy).Contents (Elt F)),
    unary main_v41 main_v42 (broadcastInDim S16x768 ![0, 1] bcast_S1x768_S16x768_0_1 : (⟨S1x768, .f32⟩ : BufTy).Contents (Elt F) → (⟨S16x768, .f32⟩ : BufTy).Contents (Elt F)),
    binary main_v40 main_v42 main_v43 (addf : (⟨S16x768, .f32⟩ : BufTy).Contents (Elt F) → (⟨S16x768, .f32⟩ : BufTy).Contents (Elt F) → (⟨S16x768, .f32⟩ : BufTy).Contents (Elt F)) ]

/-- The program is that straight line: with the called functions' bodies unfolded at their calls, both sides are the same
    chain of steps, by definitional unfolding alone. -/
theorem main_eq (c : Dev nD) : main (F := F) c = seq ops := by
  chain_rfl

/-- No buffer and no semaphore of the program is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

end Line

/-! ## The composed value, at the extended reals -/

/-- A projection of the input: the rows of `x` against the rows of `w`, plus the bias along the last axis. -/
def proj (x : S16x2048x768.Idx → EReal) (w : S768x768.Idx → EReal) (b : S768.Idx → EReal) : S16x2048x768.Idx → EReal :=
  addf (F := Ideal) (φ := .f32)
    (Host.dotGeneral (F := Ideal) (φ₁ := .f32) (φ₂ := .f32) dot_S16x2048x768_S768x768_S16x2048x768_2_1_01_0_n_n none x w)
    (broadcastInDim S16x2048x768 ![0, 1, 2] bcast_S1x1x768_S16x2048x768_0_1_2 (broadcastInDim S1x1x768 ![2] bcast_S768_S1x1x768_2 b))

/-- The scores: per sequence, every query row against every key row, times the scale. -/
def score (q k : S16x2048x768.Idx → EReal) : S16x2048x2048.Idx → EReal :=
  mulf (F := Ideal) (φ := .f32)
    (Host.dotGeneral (F := Ideal) (φ₁ := .f32) (φ₂ := .f32) dot_S16x2048x768_S16x2048x768_S16x2048x2048_2_2_1_1_0_0 none q k)
    (broadcastInDim S16x2048x2048 ![] bcast_S_S16x2048x2048 (constant (F := Ideal) S_ .f32 0x3D13CD3A#32))

/-- The sigmoid as the program spells it: one over one plus the exponential of the negated score. -/
def sigm (z : S16x2048x2048.Idx → EReal) : S16x2048x2048.Idx → EReal :=
  Host.divf (F := Ideal) (φ := .f32)
    (broadcastInDim S16x2048x2048 ![] bcast_S_S16x2048x2048 (constant (F := Ideal) S_ .f32 0x3F800000#32))
    (addf (F := Ideal) (φ := .f32)
      (broadcastInDim S16x2048x2048 ![] bcast_S_S16x2048x2048 (constant (F := Ideal) S_ .f32 0x3F800000#32))
      (Host.exp (F := Ideal) (φ := .f32) (Host.negf (F := Ideal) (φ := .f32) z)))

/-- The weights against the values: per sequence and query, the sum over the keys. -/
def att (s : S16x2048x2048.Idx → EReal) (v : S16x2048x768.Idx → EReal) : S16x2048x768.Idx → EReal :=
  Host.dotGeneral (F := Ideal) (φ₁ := .f32) (φ₂ := .f32) dot_S16x2048x2048_S16x2048x768_S16x2048x768_2_1_1_2_0_0 none s v

/-- The mean over the queries: the sum over the middle axis, divided by 2048. -/
def meanQ (a : S16x2048x768.Idx → EReal) : S16x768.Idx → EReal :=
  Host.divf (F := Ideal) (φ := .f32)
    (Host.reduceAdd (F := Ideal) (φ := .f32) a (constant (F := Ideal) S_ .f32 0x00000000#32) reducesTo_S16x2048x768_S16x768_d1 h_S_)
    (broadcastInDim S16x768 ![] bcast_S_S16x768 (constant (F := Ideal) S_ .f32 0x45000000#32))

/-- The [16, 768] array before the normalization over the batch, as a function of the seven arrays it reads. -/
def preOf (x : S16x2048x768.Idx → EReal) (wq : S768x768.Idx → EReal) (bq : S768.Idx → EReal) (wk : S768x768.Idx → EReal)
    (bk : S768.Idx → EReal) (wv : S768x768.Idx → EReal) (bv : S768.Idx → EReal) : S16x768.Idx → EReal :=
  meanQ (att (sigm (score (proj x wq bq) (proj x wk bk))) (proj x wv bv))

/-- That array at a device's launch contents. -/
def pre (m : (ℓ : Loc nD τ sig) → Buf (Elt Ideal) ℓ) (c : Dev nD) : S16x768.Idx → EReal :=
  preOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The program's result at a device's launch contents: the normalization over the batch (the mean of every feature over
    the sixteen sequences subtracted, the difference times the reciprocal square root of the variance plus a small
    constant, times the scale row, plus the shift row) applied to `pre`. The variance is the called function's: the
    mean of the squared differences from the mean, over sixteen minus zero entries, selected against a placeholder
    when that count is not positive. -/
def result (m : (ℓ : Loc nD τ sig) → Buf (Elt Ideal) ℓ) (c : Dev nD) : S16x768.Idx → EReal :=
  (addf (F := Ideal) (φ := .f32) (mulf (F := Ideal) (φ := .f32) (mulf (F := Ideal) (φ := .f32) (subf (F := Ideal) (φ := .f32) (pre m c) (broadcastInDim S16x768 ![0, 1] bcast_S1x768_S16x768_0_1 (broadcastInDim S1x768 ![1] bcast_S768_S1x768_1 (Host.divf (F := Ideal) (φ := .f32) (Host.reduceAdd (F := Ideal) (φ := .f32) (pre m c) (constant (F := Ideal) S_ .f32 0x00000000#32) reducesTo_S16x768_S768_d0 h_S_) (broadcastInDim S768 ![] bcast_S_S768 (constant (F := Ideal) S_ .f32 0x41800000#32)))))) (broadcastInDim S16x768 ![0, 1] bcast_S1x768_S16x768_0_1 (broadcastInDim S1x768 ![1] bcast_S768_S1x768_1 (Host.rsqrt (F := Ideal) (φ := .f32) (addf (F := Ideal) (φ := .f32) (select (broadcastInDim S768 ![] bcast_S_S768 (cmpf (F := Ideal) (φ := .f32) .ogt (subf (F := Ideal) (φ := .f32) (constant (F := Ideal) S_ .f32 0x41800000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (pre m c) (broadcastInDim S16x768 ![0, 1] bcast_S1x768_S16x768_0_1 (Host.divf (F := Ideal) (φ := .f32) (broadcastInDim S1x768 ![1] bcast_S768_S1x768_1 (Host.reduceAdd (F := Ideal) (φ := .f32) (pre m c) (constant (F := Ideal) S_ .f32 0x00000000#32) reducesTo_S16x768_S768_d0 h_S_)) (broadcastInDim S1x768 ![] bcast_S_S1x768 (constant (F := Ideal) S_ .f32 0x41800000#32))))) (subf (F := Ideal) (φ := .f32) (pre m c) (broadcastInDim S16x768 ![0, 1] bcast_S1x768_S16x768_0_1 (Host.divf (F := Ideal) (φ := .f32) (broadcastInDim S1x768 ![1] bcast_S768_S1x768_1 (Host.reduceAdd (F := Ideal) (φ := .f32) (pre m c) (constant (F := Ideal) S_ .f32 0x00000000#32) reducesTo_S16x768_S768_d0 h_S_)) (broadcastInDim S1x768 ![] bcast_S_S1x768 (constant (F := Ideal) S_ .f32 0x41800000#32)))))) (constant (F := Ideal) S_ .f32 0x00000000#32) reducesTo_S16x768_S768_d0 h_S_) (broadcastInDim S768 ![] bcast_S_S768 (subf (F := Ideal) (φ := .f32) (constant (F := Ideal) S_ .f32 0x41800000#32) (sitofp (F := Ideal) .f32 (constantI S_ 32 0#32))))) (broadcastInDim S768 ![] bcast_S_S768 (constant (F := Ideal) S_ .f32 0x7FC00000#32))) (broadcastInDim S768 ![] bcast_S_S768 (constant (F := Ideal) S_ .f32 0x3727C5AC#32))))))) (broadcastInDim S16x768 ![0, 1] bcast_S1x768_S16x768_0_1 (broadcastInDim S1x768 ![1] bcast_S768_S1x768_1 (m ((c.tc : Thread nD τ).loc main_arg7))))) (broadcastInDim S16x768 ![0, 1] bcast_S1x768_S16x768_0_1 (broadcastInDim S1x768 ![1] bcast_S768_S1x768_1 (m ((c.tc : Thread nD τ).loc main_arg8)))))

/-! ## The run -/

set_option maxRecDepth 8192 in
set_option maxHeartbeats 1600000 in
/-- From any memory with zero counters, every weakly fair execution of the program terminates without a fault, with the
    result buffer at `result` and the nine argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v43).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp)⟩)
    (run_seq scopedRefs_eq scopedSems_eq defs main (fun _ => ops) main_eq (fun _ => ops_sub) m ρ)

/-- The frame claim: the program runs and leaves its nine argument arrays unchanged. -/
theorem frame_ri : Cert.frame_ReferenceIdeal :=
  fun m ρ _ => (θ_run Cert.ReferenceIdeal.defs _ _).mono (fun _ h c => (h c).2) (run m ρ)

end Cert.ReferenceIdeal.RefRun

end
-- ==== Proof.RefValue.lean ====
/-
  The reference's value, read index by index.

  The result of the reference splits at the [16, 768] array of means over the queries: what comes after it is the
  normalization over the batch, a function of that array and of the scale and shift rows alone (`refTail`), and the
  array itself is, entry by entry, the specification's `refOut` of the seven arrays it reads: each matrix product is a
  sum over its one contracted axis, each bias a row repeated along the other axes, the sigmoid one over one plus the
  exponential of the negated score, the mean the sum over the query axis divided by 2048.
-/
import proofs.«138573_j83485574300331_2_alg».proof.Proof.RefRun
import proofs.«138573_j83485574300331_2_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.RefRun
open Idealize.ShloMosaic Idealize.ShloMosaic.TcCoe Idealize.ShloMosaic.ValueIdx Idealize.SL.Sem
open scoped BigOperators

/-! ## The normalization over the batch, as a function of the array it normalizes -/

/-- The operations after the mean over the queries, composed: the mean of every feature over the sixteen sequences
    subtracted, the difference times the reciprocal square root of the variance plus a small constant, times the scale
    row `g`, plus the shift row `b`. The variance is the mean of the squared differences from the mean over sixteen
    minus zero entries, selected against a placeholder when that count is not positive. -/
def refTail (o : S16x768.Idx → EReal) (g b : S768.Idx → EReal) : S16x768.Idx → EReal :=
  (addf (F := Ideal) (φ := .f32) (mulf (F := Ideal) (φ := .f32) (mulf (F := Ideal) (φ := .f32) (subf (F := Ideal) (φ := .f32) o (broadcastInDim S16x768 ![0, 1] bcast_S1x768_S16x768_0_1 (broadcastInDim S1x768 ![1] bcast_S768_S1x768_1 (Host.divf (F := Ideal) (φ := .f32) (Host.reduceAdd (F := Ideal) (φ := .f32) o (constant (F := Ideal) S_ .f32 0x00000000#32) reducesTo_S16x768_S768_d0 h_S_) (broadcastInDim S768 ![] bcast_S_S768 (constant (F := Ideal) S_ .f32 0x41800000#32)))))) (broadcastInDim S16x768 ![0, 1] bcast_S1x768_S16x768_0_1 (broadcastInDim S1x768 ![1] bcast_S768_S1x768_1 (Host.rsqrt (F := Ideal) (φ := .f32) (addf (F := Ideal) (φ := .f32) (select (broadcastInDim S768 ![] bcast_S_S768 (cmpf (F := Ideal) (φ := .f32) .ogt (subf (F := Ideal) (φ := .f32) (constant (F := Ideal) S_ .f32 0x41800000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) o (broadcastInDim S16x768 ![0, 1] bcast_S1x768_S16x768_0_1 (Host.divf (F := Ideal) (φ := .f32) (broadcastInDim S1x768 ![1] bcast_S768_S1x768_1 (Host.reduceAdd (F := Ideal) (φ := .f32) o (constant (F := Ideal) S_ .f32 0x00000000#32) reducesTo_S16x768_S768_d0 h_S_)) (broadcastInDim S1x768 ![] bcast_S_S1x768 (constant (F := Ideal) S_ .f32 0x41800000#32))))) (subf (F := Ideal) (φ := .f32) o (broadcastInDim S16x768 ![0, 1] bcast_S1x768_S16x768_0_1 (Host.divf (F := Ideal) (φ := .f32) (broadcastInDim S1x768 ![1] bcast_S768_S1x768_1 (Host.reduceAdd (F := Ideal) (φ := .f32) o (constant (F := Ideal) S_ .f32 0x00000000#32) reducesTo_S16x768_S768_d0 h_S_)) (broadcastInDim S1x768 ![] bcast_S_S1x768 (constant (F := Ideal) S_ .f32 0x41800000#32)))))) (constant (F := Ideal) S_ .f32 0x00000000#32) reducesTo_S16x768_S768_d0 h_S_) (broadcastInDim S768 ![] bcast_S_S768 (subf (F := Ideal) (φ := .f32) (constant (F := Ideal) S_ .f32 0x41800000#32) (sitofp (F := Ideal) .f32 (constantI S_ 32 0#32))))) (broadcastInDim S768 ![] bcast_S_S768 (constant (F := Ideal) S_ .f32 0x7FC00000#32))) (broadcastInDim S768 ![] bcast_S_S768 (constant (F := Ideal) S_ .f32 0x3727C5AC#32))))))) (broadcastInDim S16x768 ![0, 1] bcast_S1x768_S16x768_0_1 (broadcastInDim S1x768 ![1] bcast_S768_S1x768_1 g))) (broadcastInDim S16x768 ![0, 1] bcast_S1x768_S16x768_0_1 (broadcastInDim S1x768 ![1] bcast_S768_S1x768_1 b)))

/-- The program's result is that function of the array of means and of the scale and shift rows. -/
theorem result_eq (m : (ℓ : Loc nD τ sig) → Buf (Elt Ideal) ℓ) (c : Dev nD) :
    result m c = refTail (pre m c) (m ((c.tc : Thread nD τ).loc main_arg7)) (m ((c.tc : Thread nD τ).loc main_arg8)) := rfl

/-! ## The contractions at an index -/

theorem lhs_p_0 (i : S16x2048x768.Idx) (q : dot_S16x2048x768_S768x768_S16x2048x768_2_1_01_0_n_n.contr.Idx) :
    (dot_S16x2048x768_S768x768_S16x2048x768_2_1_01_0_n_n.lhsIdx i q 0).val = (i 0).val := by
  unfold DotDims.lhsIdx
  rw [dif_neg (show ¬(0 : Fin S16x2048x768.rank) ∈ dot_S16x2048x768_S768x768_S16x2048x768_2_1_01_0_n_n.lhsBatch by decide), dif_pos (show (0 : Fin S16x2048x768.rank) ∈ dot_S16x2048x768_S768x768_S16x2048x768_2_1_01_0_n_n.lhsNonContracting by decide)]
  rfl
theorem lhs_p_1 (i : S16x2048x768.Idx) (q : dot_S16x2048x768_S768x768_S16x2048x768_2_1_01_0_n_n.contr.Idx) :
    (dot_S16x2048x768_S768x768_S16x2048x768_2_1_01_0_n_n.lhsIdx i q 1).val = (i 1).val := by
  unfold DotDims.lhsIdx
  rw [dif_neg (show ¬(1 : Fin S16x2048x768.rank) ∈ dot_S16x2048x768_S768x768_S16x2048x768_2_1_01_0_n_n.lhsBatch by decide), dif_pos (show (1 : Fin S16x2048x768.rank) ∈ dot_S16x2048x768_S768x768_S16x2048x768_2_1_01_0_n_n.lhsNonContracting by decide)]
  rfl
theorem lhs_p_2 (i : S16x2048x768.Idx) (q : dot_S16x2048x768_S768x768_S16x2048x768_2_1_01_0_n_n.contr.Idx) :
    (dot_S16x2048x768_S768x768_S16x2048x768_2_1_01_0_n_n.lhsIdx i q 2).val = (q ⟨0, by decide⟩).val :=
  dot_S16x2048x768_S768x768_S16x2048x768_2_1_01_0_n_n.lhsIdx_val_of_single rfl i q
theorem rhs_p_0 (i : S16x2048x768.Idx) (q : dot_S16x2048x768_S768x768_S16x2048x768_2_1_01_0_n_n.contr.Idx) :
    (dot_S16x2048x768_S768x768_S16x2048x768_2_1_01_0_n_n.rhsIdx i q 0).val = (i 2).val := by
  unfold DotDims.rhsIdx
  rw [dif_neg (show ¬(0 : Fin S768x768.rank) ∈ dot_S16x2048x768_S768x768_S16x2048x768_2_1_01_0_n_n.rhsBatch by decide), dif_pos (show (0 : Fin S768x768.rank) ∈ dot_S16x2048x768_S768x768_S16x2048x768_2_1_01_0_n_n.rhsNonContracting by decide)]
  rfl
theorem rhs_p_1 (i : S16x2048x768.Idx) (q : dot_S16x2048x768_S768x768_S16x2048x768_2_1_01_0_n_n.contr.Idx) :
    (dot_S16x2048x768_S768x768_S16x2048x768_2_1_01_0_n_n.rhsIdx i q 1).val = (q ⟨0, by decide⟩).val :=
  dot_S16x2048x768_S768x768_S16x2048x768_2_1_01_0_n_n.rhsIdx_val_of_single rfl i q
theorem lhs_s_0 (i : S16x2048x2048.Idx) (q : dot_S16x2048x768_S16x2048x768_S16x2048x2048_2_2_1_1_0_0.contr.Idx) :
    (dot_S16x2048x768_S16x2048x768_S16x2048x2048_2_2_1_1_0_0.lhsIdx i q 0).val = (i 0).val := by
  unfold DotDims.lhsIdx
  rw [dif_pos (show (0 : Fin S16x2048x768.rank) ∈ dot_S16x2048x768_S16x2048x768_S16x2048x2048_2_2_1_1_0_0.lhsBatch by decide)]
  rfl
theorem lhs_s_1 (i : S16x2048x2048.Idx) (q : dot_S16x2048x768_S16x2048x768_S16x2048x2048_2_2_1_1_0_0.contr.Idx) :
    (dot_S16x2048x768_S16x2048x768_S16x2048x2048_2_2_1_1_0_0.lhsIdx i q 1).val = (i 1).val := by
  unfold DotDims.lhsIdx
  rw [dif_neg (show ¬(1 : Fin S16x2048x768.rank) ∈ dot_S16x2048x768_S16x2048x768_S16x2048x2048_2_2_1_1_0_0.lhsBatch by decide), dif_pos (show (1 : Fin S16x2048x768.rank) ∈ dot_S16x2048x768_S16x2048x768_S16x2048x2048_2_2_1_1_0_0.lhsNonContracting by decide)]
  rfl
theorem lhs_s_2 (i : S16x2048x2048.Idx) (q : dot_S16x2048x768_S16x2048x768_S16x2048x2048_2_2_1_1_0_0.contr.Idx) :
    (dot_S16x2048x768_S16x2048x768_S16x2048x2048_2_2_1_1_0_0.lhsIdx i q 2).val = (q ⟨0, by decide⟩).val :=
  dot_S16x2048x768_S16x2048x768_S16x2048x2048_2_2_1_1_0_0.lhsIdx_val_of_single rfl i q
theorem rhs_s_0 (i : S16x2048x2048.Idx) (q : dot_S16x2048x768_S16x2048x768_S16x2048x2048_2_2_1_1_0_0.contr.Idx) :
    (dot_S16x2048x768_S16x2048x768_S16x2048x2048_2_2_1_1_0_0.rhsIdx i q 0).val = (i 0).val := by
  unfold DotDims.rhsIdx
  rw [dif_pos (show (0 : Fin S16x2048x768.rank) ∈ dot_S16x2048x768_S16x2048x768_S16x2048x2048_2_2_1_1_0_0.rhsBatch by decide)]
  rfl
theorem rhs_s_1 (i : S16x2048x2048.Idx) (q : dot_S16x2048x768_S16x2048x768_S16x2048x2048_2_2_1_1_0_0.contr.Idx) :
    (dot_S16x2048x768_S16x2048x768_S16x2048x2048_2_2_1_1_0_0.rhsIdx i q 1).val = (i 2).val := by
  unfold DotDims.rhsIdx
  rw [dif_neg (show ¬(1 : Fin S16x2048x768.rank) ∈ dot_S16x2048x768_S16x2048x768_S16x2048x2048_2_2_1_1_0_0.rhsBatch by decide), dif_pos (show (1 : Fin S16x2048x768.rank) ∈ dot_S16x2048x768_S16x2048x768_S16x2048x2048_2_2_1_1_0_0.rhsNonContracting by decide)]
  rfl
theorem rhs_s_2 (i : S16x2048x2048.Idx) (q : dot_S16x2048x768_S16x2048x768_S16x2048x2048_2_2_1_1_0_0.contr.Idx) :
    (dot_S16x2048x768_S16x2048x768_S16x2048x2048_2_2_1_1_0_0.rhsIdx i q 2).val = (q ⟨0, by decide⟩).val :=
  dot_S16x2048x768_S16x2048x768_S16x2048x2048_2_2_1_1_0_0.rhsIdx_val_of_single rfl i q
theorem lhs_a_0 (i : S16x2048x768.Idx) (q : dot_S16x2048x2048_S16x2048x768_S16x2048x768_2_1_1_2_0_0.contr.Idx) :
    (dot_S16x2048x2048_S16x2048x768_S16x2048x768_2_1_1_2_0_0.lhsIdx i q 0).val = (i 0).val := by
  unfold DotDims.lhsIdx
  rw [dif_pos (show (0 : Fin S16x2048x2048.rank) ∈ dot_S16x2048x2048_S16x2048x768_S16x2048x768_2_1_1_2_0_0.lhsBatch by decide)]
  rfl
theorem lhs_a_1 (i : S16x2048x768.Idx) (q : dot_S16x2048x2048_S16x2048x768_S16x2048x768_2_1_1_2_0_0.contr.Idx) :
    (dot_S16x2048x2048_S16x2048x768_S16x2048x768_2_1_1_2_0_0.lhsIdx i q 1).val = (i 1).val := by
  unfold DotDims.lhsIdx
  rw [dif_neg (show ¬(1 : Fin S16x2048x2048.rank) ∈ dot_S16x2048x2048_S16x2048x768_S16x2048x768_2_1_1_2_0_0.lhsBatch by decide), dif_pos (show (1 : Fin S16x2048x2048.rank) ∈ dot_S16x2048x2048_S16x2048x768_S16x2048x768_2_1_1_2_0_0.lhsNonContracting by decide)]
  rfl
theorem lhs_a_2 (i : S16x2048x768.Idx) (q : dot_S16x2048x2048_S16x2048x768_S16x2048x768_2_1_1_2_0_0.contr.Idx) :
    (dot_S16x2048x2048_S16x2048x768_S16x2048x768_2_1_1_2_0_0.lhsIdx i q 2).val = (q ⟨0, by decide⟩).val :=
  dot_S16x2048x2048_S16x2048x768_S16x2048x768_2_1_1_2_0_0.lhsIdx_val_of_single rfl i q
theorem rhs_a_0 (i : S16x2048x768.Idx) (q : dot_S16x2048x2048_S16x2048x768_S16x2048x768_2_1_1_2_0_0.contr.Idx) :
    (dot_S16x2048x2048_S16x2048x768_S16x2048x768_2_1_1_2_0_0.rhsIdx i q 0).val = (i 0).val := by
  unfold DotDims.rhsIdx
  rw [dif_pos (show (0 : Fin S16x2048x768.rank) ∈ dot_S16x2048x2048_S16x2048x768_S16x2048x768_2_1_1_2_0_0.rhsBatch by decide)]
  rfl
theorem rhs_a_1 (i : S16x2048x768.Idx) (q : dot_S16x2048x2048_S16x2048x768_S16x2048x768_2_1_1_2_0_0.contr.Idx) :
    (dot_S16x2048x2048_S16x2048x768_S16x2048x768_2_1_1_2_0_0.rhsIdx i q 1).val = (q ⟨0, by decide⟩).val :=
  dot_S16x2048x2048_S16x2048x768_S16x2048x768_2_1_1_2_0_0.rhsIdx_val_of_single rfl i q
theorem rhs_a_2 (i : S16x2048x768.Idx) (q : dot_S16x2048x2048_S16x2048x768_S16x2048x768_2_1_1_2_0_0.contr.Idx) :
    (dot_S16x2048x2048_S16x2048x768_S16x2048x768_2_1_1_2_0_0.rhsIdx i q 2).val = (i 2).val := by
  unfold DotDims.rhsIdx
  rw [dif_neg (show ¬(2 : Fin S16x2048x768.rank) ∈ dot_S16x2048x2048_S16x2048x768_S16x2048x768_2_1_1_2_0_0.rhsBatch by decide), dif_pos (show (2 : Fin S16x2048x768.rank) ∈ dot_S16x2048x2048_S16x2048x768_S16x2048x768_2_1_1_2_0_0.rhsNonContracting by decide)]
  rfl

/-- The product of the input with a weight matrix at (n, t, e): row (n, t) of the input against row e of the matrix. -/
theorem dotProj_apply (x : S16x2048x768.Idx → EReal) (y : S768x768.Idx → EReal) (n : Fin 16) (t : Fin 2048) (e : Fin 768) :
    Host.dotGeneral (F := Ideal) (φ₁ := .f32) (φ₂ := .f32) dot_S16x2048x768_S768x768_S16x2048x768_2_1_01_0_n_n none x y (ix3 n t e)
      = ∑ k : Fin 768, x (ix3 n t k) * y (ix2 e k) := by
  simp only [Host.dotGeneral]
  rw [Ideal.dotGeneral_apply, ← Equiv.sum_comp (ValueIdx.contrEquiv1 dot_S16x2048x768_S768x768_S16x2048x768_2_1_01_0_n_n 768 rfl rfl).symm]
  refine Finset.sum_congr rfl fun k _ => ?_
  have hk := ValueIdx.contrEquiv1_symm_val dot_S16x2048x768_S768x768_S16x2048x768_2_1_01_0_n_n 768 rfl rfl k
  have el : dot_S16x2048x768_S768x768_S16x2048x768_2_1_01_0_n_n.lhsIdx (ix3 n t e) ((ValueIdx.contrEquiv1 dot_S16x2048x768_S768x768_S16x2048x768_2_1_01_0_n_n 768 rfl rfl).symm k) = ix3 n t k := funext fun a => Fin.ext (by
    match a with
    | ⟨0, _⟩ => exact lhs_p_0 _ _
    | ⟨1, _⟩ => exact lhs_p_1 _ _
    | ⟨2, _⟩ => exact (lhs_p_2 _ _).trans hk)
  have er : dot_S16x2048x768_S768x768_S16x2048x768_2_1_01_0_n_n.rhsIdx (ix3 n t e) ((ValueIdx.contrEquiv1 dot_S16x2048x768_S768x768_S16x2048x768_2_1_01_0_n_n 768 rfl rfl).symm k) = ix2 e k := funext fun a => Fin.ext (by
    match a with
    | ⟨0, _⟩ => exact rhs_p_0 _ _
    | ⟨1, _⟩ => exact (rhs_p_1 _ _).trans hk)
  rw [el, er]

/-- The product of queries and keys at (n, a, b): query row a against key row b of sequence n. -/
theorem dotScore_apply (x : S16x2048x768.Idx → EReal) (y : S16x2048x768.Idx → EReal) (n : Fin 16) (a : Fin 2048) (b : Fin 2048) :
    Host.dotGeneral (F := Ideal) (φ₁ := .f32) (φ₂ := .f32) dot_S16x2048x768_S16x2048x768_S16x2048x2048_2_2_1_1_0_0 none x y (ix3 n a b)
      = ∑ k : Fin 768, x (ix3 n a k) * y (ix3 n b k) := by
  simp only [Host.dotGeneral]
  rw [Ideal.dotGeneral_apply, ← Equiv.sum_comp (ValueIdx.contrEquiv1 dot_S16x2048x768_S16x2048x768_S16x2048x2048_2_2_1_1_0_0 768 rfl rfl).symm]
  refine Finset.sum_congr rfl fun k _ => ?_
  have hk := ValueIdx.contrEquiv1_symm_val dot_S16x2048x768_S16x2048x768_S16x2048x2048_2_2_1_1_0_0 768 rfl rfl k
  have el : dot_S16x2048x768_S16x2048x768_S16x2048x2048_2_2_1_1_0_0.lhsIdx (ix3 n a b) ((ValueIdx.contrEquiv1 dot_S16x2048x768_S16x2048x768_S16x2048x2048_2_2_1_1_0_0 768 rfl rfl).symm k) = ix3 n a k := funext fun a => Fin.ext (by
    match a with
    | ⟨0, _⟩ => exact lhs_s_0 _ _
    | ⟨1, _⟩ => exact lhs_s_1 _ _
    | ⟨2, _⟩ => exact (lhs_s_2 _ _).trans hk)
  have er : dot_S16x2048x768_S16x2048x768_S16x2048x2048_2_2_1_1_0_0.rhsIdx (ix3 n a b) ((ValueIdx.contrEquiv1 dot_S16x2048x768_S16x2048x768_S16x2048x2048_2_2_1_1_0_0 768 rfl rfl).symm k) = ix3 n b k := funext fun a => Fin.ext (by
    match a with
    | ⟨0, _⟩ => exact rhs_s_0 _ _
    | ⟨1, _⟩ => exact rhs_s_1 _ _
    | ⟨2, _⟩ => exact (rhs_s_2 _ _).trans hk)
  rw [el, er]

/-- The product of weights and values at (n, q, d): the weights of query q against column d of the values of sequence n. -/
theorem dotAtt_apply (x : S16x2048x2048.Idx → EReal) (y : S16x2048x768.Idx → EReal) (n : Fin 16) (q : Fin 2048) (d : Fin 768) :
    Host.dotGeneral (F := Ideal) (φ₁ := .f32) (φ₂ := .f32) dot_S16x2048x2048_S16x2048x768_S16x2048x768_2_1_1_2_0_0 none x y (ix3 n q d)
      = ∑ k : Fin 2048, x (ix3 n q k) * y (ix3 n k d) := by
  simp only [Host.dotGeneral]
  rw [Ideal.dotGeneral_apply, ← Equiv.sum_comp (ValueIdx.contrEquiv1 dot_S16x2048x2048_S16x2048x768_S16x2048x768_2_1_1_2_0_0 2048 rfl rfl).symm]
  refine Finset.sum_congr rfl fun k _ => ?_
  have hk := ValueIdx.contrEquiv1_symm_val dot_S16x2048x2048_S16x2048x768_S16x2048x768_2_1_1_2_0_0 2048 rfl rfl k
  have el : dot_S16x2048x2048_S16x2048x768_S16x2048x768_2_1_1_2_0_0.lhsIdx (ix3 n q d) ((ValueIdx.contrEquiv1 dot_S16x2048x2048_S16x2048x768_S16x2048x768_2_1_1_2_0_0 2048 rfl rfl).symm k) = ix3 n q k := funext fun a => Fin.ext (by
    match a with
    | ⟨0, _⟩ => exact lhs_a_0 _ _
    | ⟨1, _⟩ => exact lhs_a_1 _ _
    | ⟨2, _⟩ => exact (lhs_a_2 _ _).trans hk)
  have er : dot_S16x2048x2048_S16x2048x768_S16x2048x768_2_1_1_2_0_0.rhsIdx (ix3 n q d) ((ValueIdx.contrEquiv1 dot_S16x2048x2048_S16x2048x768_S16x2048x768_2_1_1_2_0_0 2048 rfl rfl).symm k) = ix3 n k d := funext fun a => Fin.ext (by
    match a with
    | ⟨0, _⟩ => exact rhs_a_0 _ _
    | ⟨1, _⟩ => exact (rhs_a_1 _ _).trans hk
    | ⟨2, _⟩ => exact rhs_a_2 _ _)
  rw [el, er]

/-! ## The stages at an index -/

/-- A bias row repeated over sequences and tokens reads the row's entry. -/
theorem bias_apply (b : S768.Idx → EReal) (n : Fin 16) (t : Fin 2048) (e : Fin 768) :
    broadcastInDim S16x2048x768 ![0, 1, 2] bcast_S1x1x768_S16x2048x768_0_1_2 (broadcastInDim S1x1x768 ![2] bcast_S768_S1x1x768_2 b) (ix3 n t e)
      = b (ix1 e) := by
  rw [broadcastInDim_apply _ bcast_S1x1x768_S16x2048x768_0_1_2 _ (ix3 n t e) (ix3 (0 : Fin 1) (0 : Fin 1) e) (fun a => match a with
    | ⟨0, _⟩ => by show 0 = if (1 : Nat) = 1 then 0 else n.val; rw [if_pos rfl]
    | ⟨1, _⟩ => by show 0 = if (1 : Nat) = 1 then 0 else t.val; rw [if_pos rfl]
    | ⟨2, _⟩ => by show e.val = if (768 : Nat) = 1 then 0 else e.val; rw [if_neg (by decide)])]
  exact broadcastInDim_apply _ bcast_S768_S1x1x768_2 b (ix3 (0 : Fin 1) (0 : Fin 1) e) (ix1 e) (fun a => match a with
    | ⟨0, _⟩ => by show e.val = if (768 : Nat) = 1 then 0 else e.val; rw [if_neg (by decide)])

/-- A projection at (n, t, e): row (n, t) of the input against row e of the weights, plus entry e of the bias. -/
theorem proj_apply (x : S16x2048x768.Idx → EReal) (w : S768x768.Idx → EReal) (b : S768.Idx → EReal) (n : Fin 16) (t : Fin 2048)
    (e : Fin 768) : proj x w b (ix3 n t e) = (∑ c : Fin 768, x (ix3 n t c) * w (ix2 e c)) + b (ix1 e) := by
  unfold proj
  rw [addf_apply, dotProj_apply, bias_apply]

/-- A score at (n, a, b): query row a against key row b, times the scale. -/
theorem score_apply (q k : S16x2048x768.Idx → EReal) (n : Fin 16) (a b : Fin 2048) :
    score q k (ix3 n a b) = (∑ e : Fin 768, q (ix3 n a e) * k (ix3 n b e)) * Cert.Attn.scale := by
  unfold score
  rw [mulf_apply, dotScore_apply]
  rfl

/-- The sigmoid at an index is the specification's sigmoid of the score there. -/
theorem sigm_apply (z : S16x2048x2048.Idx → EReal) (i : S16x2048x2048.Idx) : sigm z i = Cert.Attn.sigR (z i) := rfl

/-- The attended value at (n, q, d): the weights of query q against column d of the values. -/
theorem att_apply (s : S16x2048x2048.Idx → EReal) (v : S16x2048x768.Idx → EReal) (n : Fin 16) (q : Fin 2048) (d : Fin 768) :
    att s v (ix3 n q d) = ∑ k : Fin 2048, s (ix3 n q k) * v (ix3 n k d) := by
  unfold att
  rw [dotAtt_apply]

/-- The mean over the queries at (n, d): the sum over the queries divided by 2048. -/
theorem meanQ_apply (a : S16x2048x768.Idx → EReal) (n : Fin 16) (d : Fin 768) :
    meanQ a (ix2 n d) = Ideal.div (∑ q : Fin 2048, a (ix3 n q d)) Cert.Attn.bigT := by
  unfold meanQ
  show Ideal.div (Host.reduceAdd (F := Ideal) (φ := .f32) a (constant (F := Ideal) S_ .f32 0x00000000#32) reducesTo_S16x2048x768_S16x768_d1 h_S_ (ix2 n d)) Cert.Attn.bigT = _
  congr 1
  simp only [Host.reduceAdd, Ideal.hostReduceAdd_def]
  rw [Ideal.hostReduceAdd_single reducesTo_S16x2048x768_S16x768_d1 (by decide)]
  show Ideal.ofBits .f32 0x00000000#32 + _ = _
  rw [Ideal.ofBits_zero_f32, zero_add]
  refine Finset.sum_congr rfl fun k _ => ?_
  exact congrArg a (funext fun c => Fin.ext (by match c with | ⟨0, _⟩ => rfl | ⟨1, _⟩ => rfl | ⟨2, _⟩ => rfl))

/-! ## The array of means is the specification's -/

/-- Entry (n, d) of the array before the normalization, as a function of the seven arrays it reads. -/
theorem preOf_apply (x : S16x2048x768.Idx → EReal) (wq : S768x768.Idx → EReal) (bq : S768.Idx → EReal) (wk : S768x768.Idx → EReal)
    (bk : S768.Idx → EReal) (wv : S768x768.Idx → EReal) (bv : S768.Idx → EReal) (n : Fin 16) (d : Fin 768) :
    preOf x wq bq wk bk wv bv (ix2 n d)
      = Cert.Attn.refOut (fun n t c' => x (ix3 n t c')) (fun e c' => wq (ix2 e c')) (fun e => bq (ix1 e))
          (fun e c' => wk (ix2 e c')) (fun e => bk (ix1 e)) (fun e c' => wv (ix2 e c')) (fun e => bv (ix1 e)) n d := by
  unfold preOf Cert.Attn.refOut Cert.Attn.outR Cert.Attn.attR Cert.Attn.scoreR Cert.Attn.projR
  rw [meanQ_apply]
  simp only [att_apply, sigm_apply, score_apply, proj_apply]

/-- The same at a device's launch contents. -/
theorem pre_apply (m : (ℓ : Loc nD τ sig) → Buf (Elt Ideal) ℓ) (c : Dev nD) (n : Fin 16) (d : Fin 768) :
    pre m c (ix2 n d)
      = Cert.Attn.refOut (fun n t c' => m ((c.tc : Thread nD τ).loc main_arg0) (ix3 n t c')) (fun e c' => m ((c.tc : Thread nD τ).loc main_arg1) (ix2 e c'))
          (fun e => m ((c.tc : Thread nD τ).loc main_arg2) (ix1 e)) (fun e c' => m ((c.tc : Thread nD τ).loc main_arg3) (ix2 e c'))
          (fun e => m ((c.tc : Thread nD τ).loc main_arg4) (ix1 e)) (fun e c' => m ((c.tc : Thread nD τ).loc main_arg5) (ix2 e c'))
          (fun e => m ((c.tc : Thread nD τ).loc main_arg6) (ix1 e)) n d :=
  preOf_apply _ _ _ _ _ _ _ n d

end Cert.ReferenceIdeal.RefValue

end
-- ==== Proof.HostTail.lean ====
/-
  The kernel program's host tail is the reference's normalization over the batch.

  After its second region the kernel program runs, on the host, the same operations the reference runs after its mean
  over the queries: the region's [16, 1, 768] output is reshaped to [16, 768], and then the mean of every feature over the
  sixteen sequences, the variance by the called function, the reciprocal square root, the scale row and the shift row
  follow in the same order with the same constants.  So the last buffer holds the reference's normalization applied to
  the reshaped array and to the scale and shift arguments, whatever the region left in its output.
-/
import proofs.«138573_j83485574300331_2_alg».proof.Proof.Gen.KernelIdeal.Regions
import proofs.«138573_j83485574300331_2_alg».proof.Proof.RefValue

noncomputable section

namespace Cert.KernelIdeal.HostTail

open Cert.KernelIdeal Cert.KernelIdeal.Gen Idealize.ShloMosaic Idealize.ShloMosaic.TcCoe Idealize.SL.Sem Idealize.ShloMosaic.StableHlo

set_option maxRecDepth 8192 in
set_option maxHeartbeats 1600000 in
/-- From any contents `W` of the buffers, the three host stretches after the second region leave in the result buffer the
    normalization over the batch of what the first of them leaves in the reshaped array, with the scale and shift rows
    read where `W` has them: no operation of the three writes an argument. -/
theorem tail_of (W : Valuation τ sig (Elt Ideal)) (g b : S768.Idx → EReal)
    (hg : W (Proc.devRef .tc main_arg7) = g) (hb : W (Proc.devRef .tc main_arg8) = b) :
    after (hostOps2_2 (F := Ideal)) (after (hostOps2_1 (F := Ideal)) (after (hostOps2 (F := Ideal)) W)) (Proc.devRef .tc main_v38)
      = Cert.ReferenceIdeal.RefValue.refTail (after (hostOps2 (F := Ideal)) W (Proc.devRef .tc main_v19)) g b := by
  subst hg hb
  dsimp only [hostOps2, hostOps2_1, hostOps2_2]
  after_results_simp
  rfl

/-- At a device, with whatever the regions left: the program's result buffer after the last host stretch is the
    normalization over the batch of the reshaped output of the second region and of the scale and shift arguments. -/
theorem tail_eq (m : (ℓ : Loc nD τ sig) → Buf (Elt Ideal) ℓ) (outs : Outs (F := Ideal)) (c : Dev nD) :
    V7 m outs c main_v38
      = Cert.ReferenceIdeal.RefValue.refTail (V5 m outs c main_v19) (m ((c.tc : Thread nD τ).loc main_arg7)) (m ((c.tc : Thread nD τ).loc main_arg8)) :=
  tail_of (V4 m outs c) _ _
    ((V4_of m outs c main_arg7 (by decide)).trans <| (V3_of m outs c main_arg7 (by decide)).trans <| (V2_of m outs c main_arg7 (by decide)).trans <| (V1_of m c main_arg7 (by decide)).trans rfl)
    ((V4_of m outs c main_arg8 (by decide)).trans <| (V3_of m outs c main_arg8 (by decide)).trans <| (V2_of m outs c main_arg8 (by decide)).trans <| (V1_of m c main_arg8 (by decide)).trans rfl)

end Cert.KernelIdeal.HostTail

end
-- ==== Proof.Result.lean ====
/-
  What the kernel's program returns, at the extended reals.

  The program's last buffer is the batch normalisation of a [16, 768] array, and that array, entry (n, d), is the
  specification's kernel-side function of the argument arrays: the first region's three output arrays are the three
  projections (the query's with the scale inside), the reshapes keep every entry, the second region's output holds, for
  every sequence, the four stretches' contributions added in order and multiplied by 1/2048.
-/
import proofs.«138573_j83485574300331_2_alg».proof.Proof.RunMain
import proofs.«138573_j83485574300331_2_alg».proof.Proof.Region0Value
import proofs.«138573_j83485574300331_2_alg».proof.Proof.Region1Value
import proofs.«138573_j83485574300331_2_alg».proof.Proof.HostValue
import proofs.«138573_j83485574300331_2_alg».proof.Proof.HostTail

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The [16, 768] array the batch normalisation is applied to. -/
def kerPre (c : Dev nD) : S16x768.Idx → EReal := V5 m (outs m) c main_v19

/-- Entry (n, d) of that array is the specification's kernel-side function of the arguments. -/
theorem kerPre_apply (c : Dev nD) (n : Fin 16) (d : Fin 768) :
    kerPre m c (ix2 n d) = Cert.Attn.kerOut (fun n t k => (Cert.KernelIdeal.HostValue.argX m c) (ix3 n t k))
      (fun e k => (Cert.KernelIdeal.HostValue.argWq m c) (ix2 e k)) (fun e => (Cert.KernelIdeal.HostValue.argBq m c) (ix1 e))
      (fun e k => (Cert.KernelIdeal.HostValue.argWk m c) (ix2 e k)) (fun e => (Cert.KernelIdeal.HostValue.argBk m c) (ix1 e))
      (fun e k => (Cert.KernelIdeal.HostValue.argWv m c) (ix2 e k)) (fun e => (Cert.KernelIdeal.HostValue.argBv m c) (ix1 e)) n d :=
  Cert.KernelIdeal.HostValue.pre_apply m (outs m) c
    ((V2_q m c).trans (Cert.KernelIdeal.Proj.final0_7 (E1 m) c))
    ((V2_k m c).trans (Cert.KernelIdeal.Proj.final0_8 (E1 m) c))
    ((V2_v m c).trans (Cert.KernelIdeal.Proj.final0_9 (E1 m) c))
    (fun n d => (congrFun (V4_o m c) _).trans (final1_3 (E3 m) c n d)) n d

/-- The program runs to the end; its result is the batch normalisation of `kerPre`, and the arguments end as launched. -/
theorem run_result : θ_run defs (onTc (τ := τ) (main (F := Ideal))) ⟨m, fun _ => 0, ρ⟩ (fun r => ∀ c : Dev nD,
      r.2.mem ((c.tc : Thread nD τ).loc main_v38) = Cert.ReferenceIdeal.RefValue.refTail (kerPre m c)
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v38 (by decide))).trans (Cert.KernelIdeal.HostTail.tail_eq m (outs m) c),
     (h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c),
     (h c _ (mem_uc main_arg6 (by decide))).trans (V7_main_arg6 m (outs m) c),
     (h c _ (mem_uc main_arg7 (by decide))).trans (V7_main_arg7 m (outs m) c),
     (h c _ (mem_uc main_arg8 (by decide))).trans (V7_main_arg8 m (outs m) c)⟩) (run_main m ρ)

end Cert.KernelIdeal.Result

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  What the precondition says at the extended reals: every entry of every float input is a real number.

  The precondition is the conjunction, over the nine inputs, of "every entry's absolute value is below the word of
  +infinity". A conjunction of bits is 1 only when every bit is; a reduction by "and" that came out 1 met only ones;
  and an extended real whose absolute value is below +infinity is a real number.
-/
import proofs.«138573_j83485574300331_2_alg».proof.Pre_finite_inputs
import proofs.«138573_j83485574300331_2_alg».proof.Proof.LibSums
import Idealize.ShloMosaic.Lib.ReduceAll
import Idealize.ShloMosaic.Lib.ValueIdx

noncomputable section

namespace Cert.Finite

open Idealize.ShloMosaic Cert.Pre_finite_inputs Cert.Pre_finite_inputs.Facts

variable [Cert.Pre_finite_inputs.Facts]

/-- The rank-0 index set has one element. -/
instance : Subsingleton S_.Idx := ⟨fun a b => funext fun d => d.elim0⟩

/-- One input's conjunct: if "all entries have absolute value below +infinity" came out 1, every entry is real. -/
theorem all_real {s : Shape} (x : FVec Ideal s .f32) (b : S_.BroadcastsInDim s (![] : Fin 0 → Fin s.rank))
    {axes : List (Fin s.rank)} (h : s.ReducesTo axes S_) (hu : 0 < S_.numel)
    (e : Host.reduce IntOp.andi (cmpf .olt (Host.absf x) (broadcastInDim s ![] b (constant (F := Ideal) S_ .f32 0x7F800000#32)))
      (constantI S_ 1 1#1) h hu ValueIdx.ix0 = 1#1) (i : s.Idx) : ∃ r : ℝ, x i = r := by
  have hi := Host.reduce_andi_all _ _ h hu ValueIdx.ix0 e i
  exact Cert.LibSums.real_of_finite_bit (x i) hi

/-- The precondition gives: every entry of the first seven inputs is a real number. -/
theorem real_of_pre (a0 : FVec Ideal S16x2048x768 .f32) (a1 : FVec Ideal S768x768 .f32) (a2 : FVec Ideal S768 .f32)
    (a3 : FVec Ideal S768x768 .f32) (a4 : FVec Ideal S768 .f32) (a5 : FVec Ideal S768x768 .f32) (a6 : FVec Ideal S768 .f32)
    (a7 a8 : FVec Ideal S768 .f32)
    (h : Cert.Pre_finite_inputs.fn (F := Ideal) a0 a1 a2 a3 a4 a5 a6 a7 a8 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ValueIdx.ix0
  dsimp only [Cert.Pre_finite_inputs.fn, fn_part1, fn_part2] at h0
  obtain ⟨h0, -⟩ := IntOp.andi_eq_one.mp h0
  obtain ⟨h0, -⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨all_real a0 _ _ _ e0, all_real a1 _ _ _ e1, all_real a2 _ _ _ e2, all_real a3 _ _ _ e3, all_real a4 _ _ _ e4,
    all_real a5 _ _ _ e5, all_real a6 _ _ _ e6⟩

end Cert.Finite

end
-- ==== Proof.Consts.lean ====
/-
  The constants the two programs print, as real numbers, and the elementary facts about extended reals that carry a
  computation on real numbers through the programs' operations: the coercion of a finite sum, and the two spellings
  of the sigmoid, (1/2)(tanh (z/2) + 1) and 1/(1 + exp (-z)), which are one function on the reals.
-/
import proofs.«138573_j83485574300331_2_alg».proof.Proof.Spec

noncomputable section

namespace Cert.Attn

open Idealize.ShloMosaic Finset

/-- The word of 1/2 denotes 1/2. -/
theorem half_eq : half = ((1 / 2 : ℝ) : EReal) := by
  simp [half, Ideal.ofBits, Ideal.ieee, -EReal.coe_mul]; norm_num

/-- The word of 1 denotes 1. -/
theorem one_eq : one = ((1 : ℝ) : EReal) := by
  simp [one, Ideal.ofBits, Ideal.ieee, -EReal.coe_mul]; norm_num

/-- The word of 1/2048 denotes 1/2048. -/
theorem invT_eq : invT = ((1 / 2048 : ℝ) : EReal) := by
  simp [invT, Ideal.ofBits, Ideal.ieee, -EReal.coe_mul]; norm_num

/-- The word of 2048 denotes 2048. -/
theorem bigT_eq : bigT = ((2048 : ℝ) : EReal) := by
  simp [bigT, Ideal.ofBits, Ideal.ieee, -EReal.coe_mul]; norm_num

/-- The scale is a real number (a dyadic one; its value is never needed). -/
theorem scale_real : ∃ s : ℝ, scale = (s : EReal) := by
  simp [scale, Ideal.ofBits, Ideal.ieee, -EReal.coe_mul]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- The two spellings of the sigmoid agree on the reals. -/
theorem sig_real (z : ℝ) : (1 / 2 : ℝ) * (Real.tanh ((1 / 2) * z) + 1) = (1 + Real.exp (-z))⁻¹ := by
  have ha : 0 < Real.exp ((1 / 2) * z) := Real.exp_pos _
  have h1 : Real.exp (-z) = (Real.exp ((1 / 2) * z))⁻¹ ^ 2 := by
    rw [← Real.exp_neg, ← Real.exp_nat_mul]; congr 1; push_cast; ring
  rw [h1, Real.tanh_eq_sinh_div_cosh, Real.sinh_eq, Real.cosh_eq, Real.exp_neg]
  field_simp
  ring

end Cert.Attn

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.Algebra.lean ====
/-
  The two arrangements are one function on real inputs.

  On real numbers the kernel's arrangement and the reference's differ by three laws of arithmetic:
  * the scale multiplied into the query weights and bias comes out of the projection and of the inner product
    (distributivity): the kernel's score IS the reference's score;
  * (1/2)(tanh (z/2) + 1) = 1/(1 + exp (-z));
  * a sum of weights over a stretch of queries, times V, summed over the keys, is the sum over that stretch of the
    attended values (distributivity and the exchange of two finite sums); four stretches of 512 queries are the
    2048 queries; multiplying by 1/2048 is dividing by 2048.
  Each definition of the specification, applied to arrays of real numbers, is the coercion of the same definition
  read over the reals; so the equality of the real functions is the equality of the extended-real ones.
-/
import proofs.«138573_j83485574300331_2_alg».proof.Proof.Consts
import proofs.«138573_j83485574300331_2_alg».proof.Proof.LibBlocks

noncomputable section

namespace Cert.Attn

open Idealize.ShloMosaic Finset

/-! ## The specification read over the reals -/

abbrev RArr3 : Type := Fin 16 → Fin 2048 → Fin 768 → ℝ
abbrev RMat : Type := Fin 768 → Fin 768 → ℝ
abbrev RVec1 : Type := Fin 768 → ℝ

def projRr (x : RArr3) (W : RMat) (b : RVec1) : RArr3 := fun n t e => (∑ c : Fin 768, x n t c * W e c) + b e
def scoreRr (s : ℝ) (Q K : RArr3) (n : Fin 16) (q k : Fin 2048) : ℝ := (∑ e : Fin 768, Q n q e * K n k e) * s
def sigRr (z : ℝ) : ℝ := (1 + Real.exp (-z))⁻¹
def attRr (s : ℝ) (Q K V : RArr3) : RArr3 := fun n q d => ∑ k : Fin 2048, sigRr (scoreRr s Q K n q k) * V n k d
def outRr (s : ℝ) (Q K V : RArr3) (n : Fin 16) (d : Fin 768) : ℝ := (∑ q : Fin 2048, attRr s Q K V n q d) * (1 / 2048)
def projKr (x : RArr3) (Wt : RMat) (b : RVec1) : RArr3 := fun n t e => (∑ c : Fin 768, x n t c * Wt c e) + b e
def scoreKr (Q K : RArr3) (n : Fin 16) (q k : Fin 2048) : ℝ := ∑ e : Fin 768, Q n q e * K n k e
def sigKr (z : ℝ) : ℝ := (1 / 2) * (Real.tanh ((1 / 2) * z) + 1)
def rowKr (Q K : RArr3) (n : Fin 16) (j : Fin 4) (k : Fin 2048) : ℝ := ∑ q : Fin 512, sigKr (scoreKr Q K n (qAt j q) k)
def accKr (Q K V : RArr3) (n : Fin 16) (j : Fin 4) (d : Fin 768) : ℝ := ∑ k : Fin 2048, rowKr Q K n j k * V n k d
def outKr (Q K V : RArr3) (n : Fin 16) (d : Fin 768) : ℝ :=
  (accKr Q K V n 0 d + accKr Q K V n 1 d + accKr Q K V n 2 d + accKr Q K V n 3 d) * (1 / 2048)

/-- An array of reals as an array of extended reals. -/
def up3 (x : RArr3) : Arr3 := fun n t e => (x n t e : EReal)
def up2 (W : RMat) : Mat := fun e c => (W e c : EReal)
def up1 (b : RVec1) : Vec1 := fun e => (b e : EReal)

/-! ## Each definition on real arrays is the coercion of its reading over the reals -/

theorem projR_up (x : RArr3) (W : RMat) (b : RVec1) : projR (up3 x) (up2 W) (up1 b) = up3 (projRr x W b) := by
  funext n t e
  simp only [projR, projRr, up3, up2, up1, EReal.coe_add, coe_sum, EReal.coe_mul]

theorem projK_up (x : RArr3) (W : RMat) (b : RVec1) : projK (up3 x) (up2 W) (up1 b) = up3 (projKr x W b) := by
  funext n t e
  simp only [projK, projKr, up3, up2, up1, EReal.coe_add, coe_sum, EReal.coe_mul]

theorem scoreR_up {s : ℝ} (hs : scale = (s : EReal)) (Q K : RArr3) (n : Fin 16) (q k : Fin 2048) :
    scoreR (up3 Q) (up3 K) n q k = (scoreRr s Q K n q k : EReal) := by
  simp only [scoreR, scoreRr, up3, hs, coe_sum, EReal.coe_mul]

theorem sigR_up (z : ℝ) : sigR (z : EReal) = (sigRr z : EReal) := by
  have hpos : (1 + Real.exp (-z)) ≠ 0 := ne_of_gt (by positivity)
  rw [sigR, sigRr, one_eq, ← EReal.coe_neg, Ideal.exp_coe, ← EReal.coe_add, Ideal.div_coe hpos, ← EReal.coe_mul, one_mul,
    one_div]

theorem attR_up {s : ℝ} (hs : scale = (s : EReal)) (Q K V : RArr3) :
    attR (up3 Q) (up3 K) (up3 V) = up3 (attRr s Q K V) := by
  funext n q d
  simp only [attR, scoreR_up hs, sigR_up]
  simp only [up3, attRr, coe_sum, EReal.coe_mul]

theorem outR_up {s : ℝ} (hs : scale = (s : EReal)) (Q K V : RArr3) (n : Fin 16) (d : Fin 768) :
    outR (up3 Q) (up3 K) (up3 V) n d = (outRr s Q K V n d : EReal) := by
  unfold outR outRr
  rw [attR_up hs, bigT_eq, Ideal.div_coe (by norm_num : (2048 : ℝ) ≠ 0), EReal.coe_mul, coe_sum]
  simp only [up3]

theorem scoreK_up (Q K : RArr3) (n : Fin 16) (q k : Fin 2048) :
    scoreK (up3 Q) (up3 K) n q k = (scoreKr Q K n q k : EReal) := by
  simp only [scoreK, scoreKr, up3, coe_sum, EReal.coe_mul]

theorem sigK_up (z : ℝ) : sigK (z : EReal) = (sigKr z : EReal) := by
  simp only [sigK, sigKr, half_eq, one_eq, ← EReal.coe_mul, Ideal.tanh_coe, ← EReal.coe_add]

theorem rowK_up (Q K : RArr3) (n : Fin 16) (j : Fin 4) (k : Fin 2048) :
    rowK (up3 Q) (up3 K) n j k = (rowKr Q K n j k : EReal) := by
  simp only [rowK, rowKr, scoreK_up, sigK_up, coe_sum]

theorem accK_up (Q K V : RArr3) (n : Fin 16) (j : Fin 4) (d : Fin 768) :
    accK (up3 Q) (up3 K) (up3 V) n j d = (accKr Q K V n j d : EReal) := by
  simp only [accK, rowK_up]
  simp only [up3, accKr, coe_sum, EReal.coe_mul]

theorem outK_up (Q K V : RArr3) (n : Fin 16) (d : Fin 768) :
    outK (up3 Q) (up3 K) (up3 V) n d = (outKr Q K V n d : EReal) := by
  simp only [outK, outKr, accK_up, invT_eq, EReal.coe_mul, EReal.coe_add]

/-! ## The identity on the reals -/

/-- The scale comes out of the projection. -/
theorem projKr_scaled (s : ℝ) (x : RArr3) (W : RMat) (b : RVec1) (n : Fin 16) (t : Fin 2048) (e : Fin 768) :
    projKr x (fun c e => W e c * s) (fun e => b e * s) n t e = projRr x W b n t e * s := by
  simp only [projKr, projRr]
  rw [add_mul, sum_mul]
  congr 1
  exact sum_congr rfl fun c _ => by ring

/-- Against the transposed matrix the kernel's projection is the reference's. -/
theorem projKr_transposed (x : RArr3) (W : RMat) (b : RVec1) : projKr x (fun c e => W e c) b = projRr x W b := rfl

/-- With the scale inside the query projection the kernel's score is the reference's. -/
theorem scoreKr_scaled (s : ℝ) (Q K : RArr3) (n : Fin 16) (q k : Fin 2048) :
    scoreKr (fun n t e => Q n t e * s) K n q k = scoreRr s Q K n q k := by
  simp only [scoreKr, scoreRr]
  rw [sum_mul]
  exact sum_congr rfl fun e _ => by ring

theorem sigKr_eq (z : ℝ) : sigKr z = sigRr z := sig_real z

/-- A stretch's contribution is the sum over the stretch of the attended values. -/
theorem accKr_scaled (s : ℝ) (Q K V : RArr3) (n : Fin 16) (j : Fin 4) (d : Fin 768) :
    accKr (fun n t e => Q n t e * s) K V n j d = ∑ q : Fin 512, attRr s Q K V n (qAt j q) d := by
  simp only [accKr, rowKr, attRr, scoreKr_scaled, sigKr_eq]
  rw [sum_comm]
  exact sum_congr rfl fun k _ => sum_mul _ _ _

/-- The 2048 queries are four stretches of 512. -/
theorem sum_queries (g : Fin 2048 → ℝ) :
    ∑ q : Fin 2048, g q = ∑ j : Fin 4, ∑ q : Fin 512, g (qAt j q) :=
  Cert.LibBlocks.sum_entries (A := 4) (B := 512) g

theorem outKr_scaled (s : ℝ) (Q K V : RArr3) (n : Fin 16) (d : Fin 768) :
    outKr (fun n t e => Q n t e * s) K V n d = outRr s Q K V n d := by
  simp only [outKr, outRr, accKr_scaled]
  rw [sum_queries, Fin.sum_univ_four]

/-! ## The identity on the extended reals, for real inputs -/

/-- For real inputs the kernel's array before the batch normalisation is the reference's. -/
theorem kerOut_eq_refOut (x : RArr3) (Wq : RMat) (bq : RVec1) (Wk : RMat) (bk : RVec1) (Wv : RMat) (bv : RVec1) :
    kerOut (up3 x) (up2 Wq) (up1 bq) (up2 Wk) (up1 bk) (up2 Wv) (up1 bv)
      = refOut (up3 x) (up2 Wq) (up1 bq) (up2 Wk) (up1 bk) (up2 Wv) (up1 bv) := by
  obtain ⟨s, hs⟩ := scale_real
  funext n d
  unfold kerOut refOut
  have hq : (fun c e => up2 Wq e c * scale) = up2 (fun c e => Wq e c * s) := by
    funext c e; simp only [up2, hs, EReal.coe_mul]
  have hb : (fun e => up1 bq e * scale) = up1 (fun e => bq e * s) := by
    funext e; simp only [up1, hs, EReal.coe_mul]
  have hk : (fun c e => up2 Wk e c) = up2 (fun c e => Wk e c) := rfl
  have hv : (fun c e => up2 Wv e c) = up2 (fun c e => Wv e c) := rfl
  rw [hq, hb, hk, hv, projK_up, projK_up, projK_up, projR_up, projR_up, projR_up, outK_up, outR_up hs]
  congr 1
  have h1 : projKr x (fun c e => Wq e c * s) (fun e => bq e * s) = fun n t e => projRr x Wq bq n t e * s := by
    funext n t e; exact projKr_scaled s x Wq bq n t e
  rw [h1, projKr_transposed, projKr_transposed]
  exact outKr_scaled s _ _ _ n d

/-- The same for arrays of extended reals every entry of which is a real number. -/
theorem kerOut_eq_refOut_of_real (x : Arr3) (Wq : Mat) (bq : Vec1) (Wk : Mat) (bk : Vec1) (Wv : Mat) (bv : Vec1)
    (hx : ∀ n t c, ∃ r : ℝ, x n t c = r) (hWq : ∀ e c, ∃ r : ℝ, Wq e c = r) (hbq : ∀ e, ∃ r : ℝ, bq e = r)
    (hWk : ∀ e c, ∃ r : ℝ, Wk e c = r) (hbk : ∀ e, ∃ r : ℝ, bk e = r)
    (hWv : ∀ e c, ∃ r : ℝ, Wv e c = r) (hbv : ∀ e, ∃ r : ℝ, bv e = r) :
    kerOut x Wq bq Wk bk Wv bv = refOut x Wq bq Wk bk Wv bv := by
  choose xr hxr using hx
  choose Wqr hWqr using hWq
  choose bqr hbqr using hbq
  choose Wkr hWkr using hWk
  choose bkr hbkr using hbk
  choose Wvr hWvr using hWv
  choose bvr hbvr using hbv
  have e0 : x = up3 xr := by funext n t c; exact hxr n t c
  have e1 : Wq = up2 Wqr := by funext e c; exact hWqr e c
  have e2 : bq = up1 bqr := by funext e; exact hbqr e
  have e3 : Wk = up2 Wkr := by funext e c; exact hWkr e c
  have e4 : bk = up1 bkr := by funext e; exact hbkr e
  have e5 : Wv = up2 Wvr := by funext e c; exact hWvr e c
  have e6 : bv = up1 bvr := by funext e; exact hbvr e
  rw [e0, e1, e2, e3, e4, e5, e6]
  exact kerOut_eq_refOut xr Wqr bqr Wkr bkr Wvr bvr

end Cert.Attn

end
-- ==== Proof.lean ====
/-
  The certificate's five claims.

  The three programs run to the end and leave their arguments unchanged: the kernel's program, at the word level and
  at the extended reals, by the run of its items (host operations, the projection region, the attention region, the
  batch normalisation); the reference by the run of its host operations. The idealization rewrote nothing, so there
  is nothing to preserve. And at the extended reals the two results are equal: both are the same batch normalisation
  of a [16, 768] array, and entry (n, d) of the kernel's array is the specification's kernel-side function of the
  arguments while the reference's is its reference-side function; on inputs all of whose entries are real numbers —
  which is what the precondition says — the two functions agree (the scale comes out of the query projection, the two
  spellings of the sigmoid are one function, and the sum over queries is taken stretch by stretch before or after the
  product with V).
-/
import proofs.«138573_j83485574300331_2_alg».proof.Defs
import proofs.«138573_j83485574300331_2_alg».proof.Proof.Gen.Kernel
import proofs.«138573_j83485574300331_2_alg».proof.Proof.Gen.KernelIdeal
import proofs.«138573_j83485574300331_2_alg».proof.Proof.Gen.ReferenceIdeal
import proofs.«138573_j83485574300331_2_alg».proof.Proof.Gen.Pre_finite_inputs
import proofs.«138573_j83485574300331_2_alg».proof.Proof.WRunMain
import proofs.«138573_j83485574300331_2_alg».proof.Proof.Result
import proofs.«138573_j83485574300331_2_alg».proof.Proof.RefValue
import proofs.«138573_j83485574300331_2_alg».proof.Proof.Finite
import proofs.«138573_j83485574300331_2_alg».proof.Proof.Algebra
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.RefRun.frame_ri

theorem preserves : Cert.preserves_Kernel_KernelIdeal := trivial

/-- From memories agreeing on the arguments both programs end with the same batch normalisation of the same array. -/
theorem algebraic : Cert.algebraic_KernelIdeal_ReferenceIdeal := by
  intro m ρ m' ρ' hpre hagree
  refine ⟨fun c => Cert.ReferenceIdeal.RefValue.refTail (Cert.KernelIdeal.Result.kerPre m c)
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Result.run_result m ρ, ?_⟩
  refine (θ_run Cert.ReferenceIdeal.defs _ _).mono (fun r h c => ⟨(h c).1.trans ?_, (h c).2⟩)
    (Cert.ReferenceIdeal.RefRun.run m' ρ')
  obtain ⟨a0, a1, a2, a3, a4, a5, a6, a7, a8⟩ := hagree c
  rw [Cert.ReferenceIdeal.RefValue.result_eq, a7, a8]
  congr 1
  funext i
  obtain ⟨n, d, rfl⟩ : ∃ (n : Fin 16) (d : Fin 768), i = ix2 n d := ⟨i 0, i 1, eq_ix2 i⟩
  rw [Cert.ReferenceIdeal.RefValue.pre_apply, Cert.KernelIdeal.Result.kerPre_apply, a0, a1, a2, a3, a4, a5, a6]
  obtain ⟨f0, f1, f2, f3, f4, f5, f6⟩ := Cert.Finite.real_of_pre _ _ _ _ _ _ _ _ _ (hpre c)
  exact (congrFun (congrFun (Cert.Attn.kerOut_eq_refOut_of_real _ _ _ _ _ _ _ (fun n t k => f0 _) (fun e k => f1 _)
    (fun e => f2 _) (fun e k => f3 _) (fun e => f4 _) (fun e k => f5 _) (fun e => f6 _)) n) d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
